-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v137) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v187) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S2x400000 : Shape := ⟨2, ![2, 400000]⟩
abbrev S200000 : Shape := ⟨1, ![200000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x256 : Shape := ⟨2, ![256, 256]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S3x256x256 : S_.BroadcastsInDim S3x256x256 (![] : Fin 0 → Fin S3x256x256.rank)
  reducesTo_S3x256x256_S_d0_1_2 : S3x256x256.ReducesTo [0, 1, 2] S_
  bcast_S_S3x256 : S_.BroadcastsInDim S3x256 (![] : Fin 0 → Fin S3x256.rank)
  reducesTo_S3x256_S_d0_1 : S3x256.ReducesTo [0, 1] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_arg13 : FVec F S256x256 .f32) (main_arg14 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg13
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg9 : FVec F S3x256 .f32) (main_arg10 : FVec F S3x256 .f32) (main_arg11 : FVec F S256x256 .f32) (main_arg12 : FVec F S256 .f32) (main_arg13 : FVec F S256x256 .f32) (main_arg14 : FVec F S256 .f32) (main_v33 : IVec S_ 1) : IVec S_ 1 :=
  let main_v34 : FVec F S3x256 .f32 := Host.absf main_arg9
  let main_cst_12 : FVec F S_ .f32 := constant S_ .f32 0x7F800000#32
  let main_v35 : FVec F S3x256 .f32 := broadcastInDim S3x256 ![] bcast_S_S3x256 main_cst_12
  let main_v36 : IVec S3x256 1 := cmpf .olt main_v34 main_v35
  let main_c_13 : IVec S_ 1 := constantI S_ 1 1#1
  let main_v37 : IVec S_ 1 := (fun x v => Host.reduce IntOp.andi x v reducesTo_S3x256_S_d0_1 h_S_) main_v36 main_c_13
  let main_v38 : IVec S_ 1 := andi main_v33 main_v37
  let main_v39 : FVec F S3x256 .f32 := Host.absf main_arg10
  let main_cst_14 : FVec F S_ .f32 := constant S_ .f32 0x7F800000#32
  let main_v40 : FVec F S3x256 .f32 := broadcastInDim S3x256 ![] bcast_S_S3x256 main_cst_14
  let main_v41 : IVec S3x256 1 := cmpf .olt main_v39 main_v40
  let main_c_15 : IVec S_ 1 := constantI S_ 1 1#1
  let main_v42 : IVec S_ 1 := (fun x v => Host.reduce IntOp.andi x v reducesTo_S3x256_S_d0_1 h_S_) main_v41 main_c_15
  let main_v43 : IVec S_ 1 := andi main_v38 main_v42
  let main_v44 : FVec F S256x256 .f32 := Host.absf main_arg11
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_v48 main_v49 main_v50

def fn_part1 {F : FTy → Type} [FloatOps F] (main_arg6 : FVec F S3x256 .f32) (main_arg7 : FVec F S3x256 .f32) (main_arg8 : FVec F S3x256 .f32) (main_arg9 : FVec F S3x256 .f32) (main_arg10 : FVec F S3x256 .f32) (main_arg11 : FVec F S256x256 .f32) (main_arg12 : FVec F S256 .f32) (main_arg13 : FVec F S256x256 .f32) (main_arg14 : FVec F S256 .f32) (main_v13 : IVec S_ 1) (main_v16 : IVec S3x256x256 1) : IVec S_ 1 :=
  let main_c_5 : IVec S_ 1 := constantI S_ 1 1#1
  let main_v17 : IVec S_ 1 := (fun x v => Host.reduce IntOp.andi x v reducesTo_S3x256x256_S_d0_1_2 h_S_) main_v16 main_c_5
  let main_v18 : IVec S_ 1 := andi main_v13 main_v17
  let main_v19 : FVec F S3x256 .f32 := Host.absf main_arg6
  let main_cst_6 : FVec F S_ .f32 := constant S_ .f32 0x7F800000#32
  let main_v20 : FVec F S3x256 .f32 := broadcastInDim S3x256 ![] bcast_S_S3x256 main_cst_6
  let main_v21 : IVec S3x256 1 := cmpf .olt main_v19 main_v20
  let main_c_7 : IVec S_ 1 := constantI S_ 1 1#1
  let main_v22 : IVec S_ 1 := (fun x v => Host.reduce IntOp.andi x v reducesTo_S3x256_S_d0_1 h_S_) main_v21 main_c_7
  let main_v23 : IVec S_ 1 := andi main_v18 main_v22
  let main_v24 : FVec F S3x256 .f32 := Host.absf main_arg7
  let main_cst_8 : FVec F S_ .f32 := constant S_ .f32 0x7F800000#32
  let main_v25 : FVec F S3x256 .f32 := broadcastInDim S3x256 ![] bcast_S_S3x256 main_cst_8
  let main_v26 : IVec S3x256 1 := cmpf .olt main_v24 main_v25
  let main_c_9 : IVec S_ 1 := constantI S_ 1 1#1
  let main_v27 : IVec S_ 1 := (fun x v => Host.reduce IntOp.andi x v reducesTo_S3x256_S_d0_1 h_S_) main_v26 main_c_9
  let main_v28 : IVec S_ 1 := andi main_v23 main_v27
  let main_v29 : FVec F S3x256 .f32 := Host.absf main_arg8
  let main_cst_10 : FVec F S_ .f32 := constant S_ .f32 0x7F800000#32
  let main_v30 : FVec F S3x256 .f32 := broadcastInDim S3x256 ![] bcast_S_S3x256 main_cst_10
  let main_v31 : IVec S3x256 1 := cmpf .olt main_v29 main_v30
  let main_c_11 : IVec S_ 1 := constantI S_ 1 1#1
  let main_v32 : IVec S_ 1 := (fun x v => Host.reduce IntOp.andi x v reducesTo_S3x256_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S200000x128 .f32) (main_arg1 : IVec S2x400000 32) (main_arg2 : IVec S200000 32) (main_arg3 : FVec F S128x256 .f32) (main_arg4 : FVec F S256 .f32) (main_arg5 : FVec F S3x256x256 .f32) (main_arg6 : FVec F S3x256 .f32) (main_arg7 : FVec F S3x256 .f32) (main_arg8 : FVec F S3x256 .f32) (main_arg9 : FVec F S3x256 .f32) (main_arg10 : FVec F S3x256 .f32) (main_arg11 : FVec F S256x256 .f32) (main_arg12 : FVec F S256 .f32) (main_arg13 : FVec F S256x256 .f32) (main_arg14 : FVec F S256 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S3x256x256 .f32 := Host.absf main_arg5
  let main_cst_4 : FVec F S_ .f32 := constant S_ .f32 0x7F800000#32
  let main_v15 : FVec F S3x256x256 .f32 := broadcastInDim S3x256x256 ![] bcast_S_S3x256x256 main_cst_4
  let main_v16 : IVec S3x256x256 1 := cmpf .olt main_v14 main_v15
  fn_part1 (F := F) main_arg6 main_arg7 main_arg8 main_arg9 main_arg10 main_arg11 main_arg12 main_arg13 main_arg14 main_v13 main_v16
-- ==== Kernel.lean ====
abbrev S200000x128 : Shape := ⟨2, ![200000, 128]⟩
abbrev S2x400000 : Shape := ⟨2, ![2, 400000]⟩
abbrev S200000 : Shape := ⟨1, ![200000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x256 : Shape := ⟨2, ![256, 256]⟩
abbrev S1x400000 : Shape := ⟨2, ![1, 400000]⟩
abbrev S400000 : Shape := ⟨1, ![400000]⟩
abbrev S600000 : Shape := ⟨1, ![600000]⟩
abbrev S_ : Shape := ⟨0, ![]⟩
abbrev S600000x1 : Shape := ⟨2, ![600000, 1]⟩
abbrev S1x256 : Shape := ⟨2, ![1, 256]⟩
abbrev S200000x256 : Shape := ⟨2, ![200000, 256]⟩
abbrev S4000x128 : Shape := ⟨2, ![4000, 128]⟩
abbrev S4000x256 : Shape := ⟨2, ![4000, 256]⟩
abbrev S1x256x256 : Shape := ⟨3, ![1, 256, 256]⟩
abbrev S600000x256 : Shape := ⟨2, ![600000, 256]⟩
abbrev S4096 : Shape := ⟨1, ![4096]⟩
abbrev S200000x1 : Shape := ⟨2, ![200000, 1]⟩
abbrev S4096x256 : Shape := ⟨2, ![4096, 256]⟩
abbrev S4096x1 : Shape := ⟨2, ![4096, 1]⟩
abbrev S1024x256 : Shape := ⟨2, ![1024, 256]⟩

abbrev nBuf : Space → Nat
  | .hbm => 172
  | .vmem => 62
  | .smem => 0
  | _ => 0

abbrev hbmTy0_0 (i : Nat) : BufTy := match i % 128 with
  | 0 => ⟨S200000x128, .f32⟩
  | 1 => ⟨S2x400000, .i32⟩
  | 2 => ⟨S200000, .i32⟩
  | 3 => ⟨S128x256, .f32⟩
  | 4 => ⟨S256, .f32⟩
  | 5 => ⟨S3x256x256, .f32⟩
  | 6 => ⟨S3x256, .f32⟩
  | 7 => ⟨S3x256, .f32⟩
  | 8 => ⟨S3x256, .f32⟩
  | 9 => ⟨S3x256, .f32⟩
  | 10 => ⟨S3x256, .f32⟩
  | 11 => ⟨S256x256, .f32⟩
  | 12 => ⟨S256, .f32⟩
  | 13 => ⟨S256x256, .f32⟩
  | 14 => ⟨S256, .f32⟩
  | 15 => ⟨S200000, .i32⟩
  | 16 => ⟨S1x400000, .i32⟩
  | 17 => ⟨S400000, .i32⟩
  | 18 => ⟨S600000, .i32⟩
  | 19 => ⟨S1x400000, .i32⟩
  | 20 => ⟨S400000, .i32⟩
  | 21 => ⟨S600000, .i32⟩
  | 22 => ⟨S_, .f32⟩
  | 23 => ⟨S600000, .f32⟩
  | 24 => ⟨S_, .f32⟩
  | 25 => ⟨S200000, .f32⟩
  | 26 => ⟨S600000x1, .i32⟩
  | 27 => ⟨S200000, .f32⟩
  | 28 => ⟨S200000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S600000, .f32⟩
  | 48 => ⟨S600000x1, .f32⟩
  | 49 => ⟨S1x256, .f32⟩
  | 50 => ⟨S200000x256, .f32⟩
  | 51 => ⟨S1x256x256, .f32⟩
  | 52 => ⟨S256x256, .f32⟩
  | 53 => ⟨S200000x256, .f32⟩
  | 54 => ⟨S_, .i32⟩
  | 55 => ⟨S600000, .i32⟩
  | 56 => ⟨S600000, .i1⟩
  | 57 => ⟨S_, .i32⟩
  | 58 => ⟨S600000, .i32⟩
  | 59 => ⟨S600000, .i32⟩
  | 60 => ⟨S600000, .i32⟩
  | 61 => ⟨S600000x1, .i32⟩
  | 62 => ⟨S600000x256, .f32⟩
  | 63 => ⟨S600000x256, .f32⟩
  | 64 => ⟨S600000x256, .f32⟩
  | 65 => ⟨S_, .f32⟩
  | 66 => ⟨S200000x256, .f32⟩
  | 67 => ⟨S600000x1, .i32⟩
  | 68 => ⟨S200000x256, .f32⟩
  | 69 => ⟨S1x256, .f32⟩
  | 70 => ⟨S256, .f32⟩
  | 71 => ⟨S1x256, .f32⟩
  | 72 => ⟨S256, .f32⟩
  | 73 => ⟨S1x256, .f32⟩
  | 74 => ⟨S256, .f32⟩
  | 75 => ⟨S1x256, .f32⟩
  | 76 => ⟨S256, .f32⟩
  | 77 => ⟨S1x256, .f32⟩
  | 78 => ⟨S256, .f32⟩
  | 79 => ⟨S1x256, .f32⟩
  | 80 => ⟨S1x256, .f32⟩
  | 81 => ⟨S1x256, .f32⟩
  | 82 => ⟨S1x256, .f32⟩
  | 83 => ⟨S1x256, .f32⟩
  | 84 => ⟨S200000x256, .f32⟩
  | 85 => ⟨S1x256x256, .f32⟩
  | 86 => ⟨S256x256, .f32⟩
  | 87 => ⟨S200000x256, .f32⟩
  | 88 => ⟨S_, .i32⟩
  | 89 => ⟨S600000, .i32⟩
  | 90 => ⟨S600000, .i1⟩
  | 91 => ⟨S_, .i32⟩
  | 92 => ⟨S600000, .i32⟩
  | 93 => ⟨S600000, .i32⟩
  | 94 => ⟨S600000, .i32⟩
  | 95 => ⟨S600000x1, .i32⟩
  | 96 => ⟨S600000x256, .f32⟩
  | 97 => ⟨S600000x256, .f32⟩
  | 98 => ⟨S600000x256, .f32⟩
  | 99 => ⟨S_, .f32⟩
  | 100 => ⟨S200000x256, .f32⟩
  | 101 => ⟨S600000x1, .i32⟩
  | 102 => ⟨S200000x256, .f32⟩
  | 103 => ⟨S1x256, .f32⟩
  | 104 => ⟨S256, .f32⟩
  | 105 => ⟨S1x256, .f32⟩
  | 106 => ⟨S256, .f32⟩
  | 107 => ⟨S1x256, .f32⟩
  | 108 => ⟨S256, .f32⟩
  | 109 => ⟨S1x256, .f32⟩
  | 110 => ⟨S256, .f32⟩
  | 111 => ⟨S1x256, .f32⟩
  | 112 => ⟨S256, .f32⟩
  | 113 => ⟨S1x256, .f32⟩
  | 114 => ⟨S1x256, .f32⟩
  | 115 => ⟨S1x256, .f32⟩
  | 116 => ⟨S1x256, .f32⟩
  | 117 => ⟨S1x256, .f32⟩
  | 118 => ⟨S200000x256, .f32⟩
  | 119 => ⟨S1x256x256, .f32⟩
  | 120 => ⟨S256x256, .f32⟩
  | 121 => ⟨S200000x256, .f32⟩
  | 122 => ⟨S_, .i32⟩
  | 123 => ⟨S600000, .i32⟩
  | 124 => ⟨S600000, .i1⟩
  | 125 => ⟨S_, .i32⟩
  | 126 => ⟨S600000, .i32⟩
  | 127 => ⟨S600000, .i32⟩
  | _ => ⟨S200000x128, .f32⟩

abbrev hbmTy0_1 (i : Nat) : BufTy := match i % 128 with
  | 0 => ⟨S600000, .i32⟩
  | 1 => ⟨S600000x1, .i32⟩
  | 2 => ⟨S600000x256, .f32⟩
  | 3 => ⟨S600000x256, .f32⟩
  | 4 => ⟨S600000x256, .f32⟩
  | 5 => ⟨S_, .f32⟩
  | 6 => ⟨S200000x256, .f32⟩
  | 7 => ⟨S600000x1, .i32⟩
  | 8 => ⟨S200000x256, .f32⟩
  | 9 => ⟨S1x256, .f32⟩
  | 10 => ⟨S256, .f32⟩
  | 11 => ⟨S1x256, .f32⟩
  | 12 => ⟨S256, .f32⟩
  | 13 => ⟨S1x256, .f32⟩
  | 14 => ⟨S256, .f32⟩
  | 15 => ⟨S1x256, .f32⟩
  | 16 => ⟨S256, .f32⟩
  | 17 => ⟨S1x256, .f32⟩
  | 18 => ⟨S256, .f32⟩
  | 19 => ⟨S1x256, .f32⟩
  | 20 => ⟨S1x256, .f32⟩
  | 21 => ⟨S1x256, .f32⟩
  | 22 => ⟨S1x256, .f32⟩
  | 23 => ⟨S1x256, .f32⟩
  | 24 => ⟨S200000x256, .f32⟩
  | 25 => ⟨S_, .f32⟩
  | 26 => ⟨S200000, .f32⟩
  | 27 => ⟨S_, .f32⟩
  | 28 => ⟨S4096, .f32⟩
  | 29 => ⟨S200000x1, .i32⟩
  | 30 => ⟨S4096, .f32⟩
  | 31 => ⟨S_, .f32⟩
  | 32 => ⟨S4096x256, .f32⟩
  | 33 => ⟨S200000x1, .i32⟩
  | 34 => ⟨S4096x256, .f32⟩
  | 35 => ⟨S_, .f32⟩
  | 36 => ⟨S4096, .f32⟩
  | 37 => ⟨S4096, .f32⟩
  | 38 => ⟨S4096x1, .f32⟩
  | 39 => ⟨S4096x256, .f32⟩
  | 40 => ⟨S4096x256, .f32⟩
  | 41 => ⟨S1x256, .f32⟩
  | 42 => ⟨S1x256, .f32⟩
  | 43 => ⟨S4096x256, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S128x256, .f32⟩
  | .local _ .vmem, ⟨3, _⟩ => ⟨S1x256, .f32⟩
  | .local _ .vmem, ⟨4, _⟩ => ⟨S4000x256, .f32⟩
  | .local _ .vmem, ⟨5, _⟩ => ⟨S4000x256, .f32⟩
  | .local _ .vmem, ⟨6, _⟩ => ⟨S4000x256, .f32⟩
  | .local _ .vmem, ⟨7, _⟩ => ⟨S4000x256, .f32⟩
  | .local _ .vmem, ⟨8, _⟩ => ⟨S256x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S4000x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S4000x256, .f32⟩
  | .local _ .vmem, ⟨19, _⟩ => ⟨S4000x256, .f32⟩
  | .local _ .vmem, ⟨20, _⟩ => ⟨S4000x256, .f32⟩
  | .local _ .vmem, ⟨21, _⟩ => ⟨S4000x256, .f32⟩
  | .local _ .vmem, ⟨22, _⟩ => ⟨S4000x256, .f32⟩
  | .local _ .vmem, ⟨23, _⟩ => ⟨S4000x256, .f32⟩
  | .local _ .vmem, ⟨24, _⟩ => ⟨S256x256, .f32⟩
  | .local _ .vmem, ⟨25, _⟩ => ⟨S4000x256, .f32⟩
  | .local _ .vmem, ⟨26, _⟩ => ⟨S4000x256, .f32⟩
  | .local _ .vmem, ⟨27, _⟩ => ⟨S4000x256, .f32⟩
  | .local _ .vmem, ⟨28, _⟩ => ⟨S4000x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S4000x256, .f32⟩
  | .local _ .vmem, ⟨35, _⟩ => ⟨S4000x256, .f32⟩
  | .local _ .vmem, ⟨36, _⟩ => ⟨S4000x256, .f32⟩
  | .local _ .vmem, ⟨37, _⟩ => ⟨S4000x256, .f32⟩
  | .local _ .vmem, ⟨38, _⟩ => ⟨S4000x256, .f32⟩
  | .local _ .vmem, ⟨39, _⟩ => ⟨S4000x256, .f32⟩
  | .local _ .vmem, ⟨40, _⟩ => ⟨S256x256, .f32⟩
  | .local _ .vmem, ⟨41, _⟩ => ⟨S4000x256, .f32⟩
  | .local _ .vmem, ⟨42, _⟩ => ⟨S4000x256, .f32⟩
  | .local _ .vmem, ⟨43, _⟩ => ⟨S4000x256, .f32⟩
  | .local _ .vmem, ⟨44, _⟩ => ⟨S4000x256, .f32⟩
  | .local _ .vmem, ⟨45, _⟩ => ⟨S1x256, .f32⟩
  | .local _ .vmem, ⟨46, _⟩ => ⟨S1x256, .f32⟩
  | .local _ .vmem, ⟨47, _⟩ => ⟨S1x256, .f32⟩
  | .local _ .vmem, ⟨48, _⟩ => ⟨S1x256, .f32⟩
  | .local _ .vmem, ⟨49, _⟩ => ⟨S1x256, .f32⟩
  | .local _ .vmem, ⟨50, _⟩ => ⟨S4000x256, .f32⟩
  | .local _ .vmem, ⟨51, _⟩ => ⟨S4000x256, .f32⟩
  | .local _ .vmem, ⟨52, _⟩ => ⟨S4000x256, .f32⟩
  | .local _ .vmem, ⟨53, _⟩ => ⟨S4000x256, .f32⟩
  | .local _ .vmem, ⟨54, _⟩ => ⟨S1024x256, .f32⟩
  | .local _ .vmem, ⟨55, _⟩ => ⟨S1024x256, .f32⟩
  | .local _ .vmem, ⟨56, _⟩ => ⟨S256x256, .f32⟩
  | .local _ .vmem, ⟨57, _⟩ => ⟨S1x256, .f32⟩
  | .local _ .vmem, ⟨58, _⟩ => ⟨S256x256, .f32⟩
  | .local _ .vmem, ⟨59, _⟩ => ⟨S1x256, .f32⟩
  | .local _ .vmem, ⟨60, _⟩ => ⟨S1024x256, .f32⟩
  | .local _ .vmem, ⟨61, _⟩ => ⟨S1024x256, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_4 : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_7 : Ref sig .tc := ⟨.hbm, 88, rfl⟩
abbrev main_v64 : Ref sig .tc := ⟨.hbm, 89, rfl⟩
abbrev main_v65 : Ref sig .tc := ⟨.hbm, 90, rfl⟩
abbrev main_c_8 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_9 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_c_10 : Ref sig .tc := ⟨.hbm, 122, rfl⟩
abbrev main_v95 : Ref sig .tc := ⟨.hbm, 123, rfl⟩
abbrev main_v96 : Ref sig .tc := ⟨.hbm, 124, rfl⟩
abbrev main_c_11 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_12 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_cst_13 : Ref sig .tc := ⟨.hbm, 153, rfl⟩
abbrev main_v123 : Ref sig .tc := ⟨.hbm, 154, rfl⟩
abbrev main_cst_14 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_15 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_cst_16 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg6_1 : Ref sig .tc := ⟨.vmem, 19, rfl⟩
abbrev cc2_stg7_0 : Ref sig .tc := ⟨.vmem, 20, rfl⟩
abbrev cc2_stg7_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg5_0 : Ref sig .tc := ⟨.vmem, 33, rfl⟩
abbrev cc4_stg6_0 : Ref sig .tc := ⟨.vmem, 34, rfl⟩
abbrev cc4_stg6_1 : Ref sig .tc := ⟨.vmem, 35, rfl⟩
abbrev cc4_stg7_0 : Ref sig .tc := ⟨.vmem, 36, rfl⟩
abbrev cc4_stg7_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg2_0 : Ref sig .tc := ⟨.vmem, 41, rfl⟩
abbrev cc5_stg2_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg6_0 : Ref sig .tc := ⟨.vmem, 50, rfl⟩
abbrev cc6_stg6_1 : Ref sig .tc := ⟨.vmem, 51, rfl⟩
abbrev cc6_stg7_0 : Ref sig .tc := ⟨.vmem, 52, rfl⟩
abbrev cc6_stg7_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg2_0 : Ref sig .tc := ⟨.vmem, 57, rfl⟩
abbrev cc7_stg3_0 : Ref sig .tc := ⟨.vmem, 58, rfl⟩
abbrev cc7_stg4_0 : Ref sig .tc := ⟨.vmem, 59, rfl⟩
abbrev cc7_stg5_0 : Ref sig .tc := ⟨.vmem, 60, rfl⟩
abbrev cc7_stg5_1 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19
abbrev cc2_sem7_0 : DmaSem sig := 20
abbrev cc2_sem7_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem4_0 : DmaSem sig := 32
abbrev cc4_sem5_0 : DmaSem sig := 33
abbrev cc4_sem6_0 : DmaSem sig := 34
abbrev cc4_sem6_1 : DmaSem sig := 35
abbrev cc4_sem7_0 : DmaSem sig := 36
abbrev cc4_sem7_1 : DmaSem sig := 37
abbrev cc5_sem0_0 : DmaSem sig := 38
abbrev cc5_sem0_1 : DmaSem sig := 39
abbrev cc5_sem1_0 : DmaSem sig := 40
abbrev cc5_sem2_0 : DmaSem sig := 41
abbrev cc5_sem2_1 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem6_0 : DmaSem sig := 50
abbrev cc6_sem6_1 : DmaSem sig := 51
abbrev cc6_sem7_0 : DmaSem sig := 52
abbrev cc6_sem7_1 : DmaSem sig := 53
abbrev cc7_sem0_0 : DmaSem sig := 54
abbrev cc7_sem0_1 : DmaSem sig := 55
abbrev cc7_sem1_0 : DmaSem sig := 56
abbrev cc7_sem2_0 : DmaSem sig := 57
abbrev cc7_sem3_0 : DmaSem sig := 58
abbrev cc7_sem4_0 : DmaSem sig := 59
abbrev cc7_sem5_0 : DmaSem sig := 60
abbrev cc7_sem5_1 : DmaSem sig := 61

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S4000x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S4000x256 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S4000x256 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S4000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S4000x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x256 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x256 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x256 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S4000x256 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S4000x256 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![4], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S1024x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S256x256 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x256 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S256x256 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S1024x256 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

class Facts₀ : Prop where
  slices_S2x400000_S1x400000_0_0 : S2x400000.Slices ![0, 0] S1x400000
  shapeCasts_S1x400000_S400000 : S1x400000.ShapeCasts S400000
  concatenates_S400000_S200000_S600000_d0 : Shape.Concatenates [S400000, S200000] S600000 0
  slices_S2x400000_S1x400000_1_0 : S2x400000.Slices ![1, 0] S1x400000
  bcast_S_S600000 : S_.BroadcastsInDim S600000 (![] : Fin 0 → Fin S600000.rank)
  bcast_S_S200000 : S_.BroadcastsInDim S200000 (![] : Fin 0 → Fin S200000.rank)
  bcast_S600000_S600000x1_0 : S600000.BroadcastsInDim S600000x1 (![0] : Fin 1 → Fin S600000x1.rank)
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  slices_S3x256x256_S1x256x256_0_0_0 : S3x256x256.Slices ![0, 0, 0] S1x256x256
  shapeCasts_S1x256x256_S256x256 : S1x256x256.ShapeCasts S256x256
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S600000x1_S600000x256_0_1 : S600000x1.BroadcastsInDim S600000x256 (![0, 1] : Fin 2 → Fin S600000x256.rank)
  bcast_S_S200000x256 : S_.BroadcastsInDim S200000x256 (![] : Fin 0 → Fin S200000x256.rank)
  slices_S3x256_S1x256_0_0 : S3x256.Slices ![0, 0] S1x256
  shapeCasts_S1x256_S256 : S1x256.ShapeCasts S256
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S4096 : S_.BroadcastsInDim S4096 (![] : Fin 0 → Fin S4096.rank)
  bcast_S200000_S200000x1_0 : S200000.BroadcastsInDim S200000x1 (![0] : Fin 1 → Fin S200000x1.rank)
  bcast_S_S4096x256 : S_.BroadcastsInDim S4096x256 (![] : Fin 0 → Fin S4096x256.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1x256_S1024x256 : S1x256.Broadcasts S1024x256
  scatter_S200000_S600000x1_S600000_n_0_0_1_wf : ScatterDims.WF S200000 S600000x1 S600000 [] [0] [0] 1
  gather_S200000_S600000x1_S600000_n_0_n_n_0_1_1_wf : GatherDims.WF S200000 S600000x1 S600000 [] [0] [] [0] [] 1 ![1]
  dot_S4000x128_S128x256_S4000x256_1_0_0_1_n_n_wf : DotDims.WF S4000x128 S128x256 S4000x256 [1] [0] [0] [1] [] []
  dot_S4000x256_S256x256_S4000x256_1_0_0_1_n_n_wf : DotDims.WF S4000x256 S256x256 S4000x256 [1] [0] [0] [1] [] []
  gather_S200000x256_S600000x1_S600000x256_1_0_n_n_0_1_1256_wf : GatherDims.WF S200000x256 S600000x1 S600000x256 [1] [0] [] [0] [] 1 ![1, 256]
  scatter_S200000x256_S600000x1_S600000x256_1_0_0_1_wf : ScatterDims.WF S200000x256 S600000x1 S600000x256 [1] [0] [0] 1
  scatter_S4096_S200000x1_S200000_n_0_0_1_wf : ScatterDims.WF S4096 S200000x1 S200000 [] [0] [0] 1
  scatter_S4096x256_S200000x1_S200000x256_1_0_0_1_wf : ScatterDims.WF S4096x256 S200000x1 S200000x256 [1] [0] [0] 1
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x256.size a ≤ S200000x256.size a
  hwx0_3 : ∀ i : grid0.Coords, EltTy.bits .f32 = 32 ∨ (Rect.block (s := S200000x256) S4000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S200000x256.size a
  hwx1_0 : ∀ i : grid1.Coords, EltTy.bits .f32 = 32 ∨ (Rect.block (s := S200000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S200000x256.size a
  hwx1_2 : ∀ i : grid1.Coords, EltTy.bits .f32 = 32 ∨ (Rect.block (s := S200000x256) S4000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S200000x256.size a
  hwx2_0 : ∀ i : grid2.Coords, EltTy.bits .f32 = 32 ∨ (Rect.block (s := S200000x256) S4000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x256.size a ≤ S200000x256.size a
  hwx2_6 : ∀ i : grid2.Coords, EltTy.bits .f32 = 32 ∨ (Rect.block (s := S200000x256) S4000x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S4000x256.size a ≤ S200000x256.size a
  hwx2_7 : ∀ i : grid2.Coords, EltTy.bits .f32 = 32 ∨ (Rect.block (s := S200000x256) S4000x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S200000x256.size a
  hwx3_0 : ∀ i : grid3.Coords, EltTy.bits .f32 = 32 ∨ (Rect.block (s := S200000x256) S4000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x256.size a ≤ S200000x256.size a
  hwx3_2 : ∀ i : grid3.Coords, EltTy.bits .f32 = 32 ∨ (Rect.block (s := S200000x256) S4000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x256.size a ≤ S200000x256.size a
  hwx4_0 : ∀ i : grid4.Coords, EltTy.bits .f32 = 32 ∨ (Rect.block (s := S200000x256) S4000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x256.size a ≤ S1x256.size a
  hwx4_1 : ∀ i : grid4.Coords, EltTy.bits .f32 = 32 ∨ (Rect.block (s := S1x256) S1x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x256.size a ≤ S1x256.size a
  hwx4_5 : ∀ i : grid4.Coords, EltTy.bits .f32 = 32 ∨ (Rect.block (s := S1x256) S1x256.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S4000x256.size a ≤ S200000x256.size a
  hwx4_6 : ∀ i : grid4.Coords, EltTy.bits .f32 = 32 ∨ (Rect.block (s := S200000x256) S4000x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S4000x256.size a ≤ S200000x256.size a
  hwx4_7 : ∀ i : grid4.Coords, EltTy.bits .f32 = 32 ∨ (Rect.block (s := S200000x256) S4000x256.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4000x256.size a ≤ S200000x256.size a
  hwx5_0 : ∀ i : grid5.Coords, EltTy.bits .f32 = 32 ∨ (Rect.block (s := S200000x256) S4000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x256.size a ≤ S256x256.size a
  hwx5_1 : ∀ i : grid5.Coords, EltTy.bits .f32 = 32 ∨ (Rect.block (s := S256x256) S256x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S4000x256.size a ≤ S200000x256.size a
  hwx5_2 : ∀ i : grid5.Coords, EltTy.bits .f32 = 32 ∨ (Rect.block (s := S200000x256) S4000x256.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x256.size a ≤ S200000x256.size a
  hwx6_0 : ∀ i : grid6.Coords, EltTy.bits .f32 = 32 ∨ (Rect.block (s := S200000x256) S4000x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x256.size a ≤ S1x256.size a
  hwx6_1 : ∀ i : grid6.Coords, EltTy.bits .f32 = 32 ∨ (Rect.block (s := S1x256) S1x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x256.size a ≤ S1x256.size a
  hwx6_2 : ∀ i : grid6.Coords, EltTy.bits .f32 = 32 ∨ (Rect.block (s := S1x256) S1x256.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x256.size a ≤ S1x256.size a
  hwx6_3 : ∀ i : grid6.Coords, EltTy.bits .f32 = 32 ∨ (Rect.block (s := S1x256) S1x256.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x256.size a ≤ S1x256.size a
  hwx6_4 : ∀ i : grid6.Coords, EltTy.bits .f32 = 32 ∨ (Rect.block (s := S1x256) S1x256.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x256.size a ≤ S1x256.size a
  hwx6_5 : ∀ i : grid6.Coords, EltTy.bits .f32 = 32 ∨ (Rect.block (s := S1x256) S1x256.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S4000x256.size a ≤ S200000x256.size a
  hwx6_6 : ∀ i : grid6.Coords, EltTy.bits .f32 = 32 ∨ (Rect.block (s := S200000x256) S4000x256.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S4000x256.size a ≤ S200000x256.size a
  hwx6_7 : ∀ i : grid6.Coords, EltTy.bits .f32 = 32 ∨ (Rect.block (s := S200000x256) S4000x256.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x256.size a ≤ S4096x256.size a
  hwx7_0 : ∀ i : grid7.Coords, EltTy.bits .f32 = 32 ∨ (Rect.block (s := S4096x256) S1024x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x256.size a ≤ S256x256.size a
  hwx7_1 : ∀ i : grid7.Coords, EltTy.bits .f32 = 32 ∨ (Rect.block (s := S256x256) S256x256.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x256.size a ≤ S1x256.size a
  hwx7_2 : ∀ i : grid7.Coords, EltTy.bits .f32 = 32 ∨ (Rect.block (s := S1x256) S1x256.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S256x256.size a ≤ S256x256.size a
  hwx7_3 : ∀ i : grid7.Coords, EltTy.bits .f32 = 32 ∨ (Rect.block (s := S256x256) S256x256.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x256.size a ≤ S1x256.size a
  hwx7_4 : ∀ i : grid7.Coords, EltTy.bits .f32 = 32 ∨ (Rect.block (s := S1x256) S1x256.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1024x256.size a ≤ S4096x256.size a
  hwx7_5 : ∀ i : grid7.Coords, EltTy.bits .f32 = 32 ∨ (Rect.block (s := S4096x256) S1024x256.size (cc7_transform_5 i) (hinb7_5 i)).WholeWords (EltTy.packing .f32)

variable [Facts₀]

def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S200000_S600000x1_S600000_n_0_n_n_0_1_1 : GatherDims S200000 S600000x1 S600000 where
  offsetDims := []
  collapsedSliceDims := [0]
  operandBatchingDims := []
  startIndicesBatchingDims := []
  startIndexMap := [0]
  indexVectorDim := 1
  sliceSizes := ![1]
  wf := gather_S200000_S600000x1_S600000_n_0_n_n_0_1_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def gather_S200000x256_S600000x1_S600000x256_1_0_n_n_0_1_1256 : GatherDims S200000x256 S600000x1 S600000x256 where
  offsetDims := [1]
  collapsedSliceDims := [0]
  operandBatchingDims := []
  startIndicesBatchingDims := []
  startIndexMap := [0]
  indexVectorDim := 1
  sliceSizes := ![1, 256]
  wf := gather_S200000x256_S600000x1_S600000x256_1_0_n_n_0_1_1256_wf
def scatter_S200000x256_S600000x1_S600000x256_1_0_0_1 : ScatterDims S200000x256 S600000x1 S600000x256 where
  updateWindowDims := [1]
  insertedWindowDims := [0]
  scatterDimsToOperandDims := [0]
  indexVectorDim := 1
  wf := scatter_S200000x256_S600000x1_S600000x256_1_0_0_1_wf
def scatter_S4096_S200000x1_S200000_n_0_0_1 : ScatterDims S4096 S200000x1 S200000 where
  updateWindowDims := []
  insertedWindowDims := [0]
  scatterDimsToOperandDims := [0]
  indexVectorDim := 1
  wf := scatter_S4096_S200000x1_S200000_n_0_0_1_wf
def scatter_S4096x256_S200000x1_S200000x256_1_0_0_1 : ScatterDims S4096x256 S200000x1 S200000x256 where
  updateWindowDims := [1]
  insertedWindowDims := [0]
  scatterDimsToOperandDims := [0]
  indexVectorDim := 1
  wf := scatter_S4096x256_S200000x1_S200000x256_1_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S4000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v29) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S4000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v59) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v29) S4000x256.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v60) S4000x256.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v60) S4000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S4000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v75) S4000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v86) S1x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v87) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v88) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v89) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v90) S1x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v60) S4000x256.size cc4_transform_6 reads4_6 false false 2 stage4_6 sem4_6
    hrank4 hreads4_6 hinb4_6 nbuf4_6 (Memref.isWhole_whole _) hwx4_6 hstage4_6

abbrev win4_7 : Pipeline.Window sig grid4 :=
  Pipeline.Window.ofSpec (Memref.whole main_v91) S4000x256.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v91) S4000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v93) S256x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v94) S4000x256.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v106) S4000x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v117) S1x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v118) S1x256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v119) S1x256.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v120) S1x256.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v121) S1x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v91) S4000x256.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v122) S4000x256.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v134) S1024x256.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg11) S256x256.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v135) S1x256.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_arg13) S256x256.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v136) S1x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v137) S1024x256.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

class Facts : Prop extends Facts₀ where

variable [Facts]
-- ==== ReferenceIdeal.lean ====
abbrev S200000x128 : Shape := ⟨2, ![200000, 128]⟩
abbrev S2x400000 : Shape := ⟨2, ![2, 400000]⟩
abbrev S200000 : Shape := ⟨1, ![200000]⟩
abbrev S128x256 : Shape := ⟨2, ![128, 256]⟩
abbrev S256 : Shape := ⟨1, ![256]⟩
abbrev S3x256x256 : Shape := ⟨3, ![3, 256, 256]⟩
abbrev S3x256 : Shape := ⟨2, ![3, 256]⟩
abbrev S256x256 : Shape := ⟨2, ![256, 256]⟩
abbrev S1x400000 : Shape := ⟨2, ![1, 400000]⟩
abbrev S400000 : Shape := ⟨1, ![400000]⟩
abbrev S600000 : Shape := ⟨1, ![600000]⟩
abbrev S_ : Shape := ⟨0, ![]⟩
abbrev S600000x1 : Shape := ⟨2, ![600000, 1]⟩
abbrev S200000x256 : Shape := ⟨2, ![200000, 256]⟩
abbrev S1x256 : Shape := ⟨2, ![1, 256]⟩
abbrev S1x256x256 : Shape := ⟨3, ![1, 256, 256]⟩
abbrev S600000x256 : Shape := ⟨2, ![600000, 256]⟩
abbrev S4096 : Shape := ⟨1, ![4096]⟩
abbrev S200000x1 : Shape := ⟨2, ![200000, 1]⟩
abbrev S4096x256 : Shape := ⟨2, ![4096, 256]⟩
abbrev S4096x1 : Shape := ⟨2, ![4096, 1]⟩

abbrev nBuf : Space → Nat
  | .hbm => 233
  | .vmem => 0
  | .smem => 0
  | _ => 0

abbrev hbmTy0_0 (i : Nat) : BufTy := match i % 128 with
  | 0 => ⟨S200000x128, .f32⟩
  | 1 => ⟨S2x400000, .i32⟩
  | 2 => ⟨S200000, .i32⟩
  | 3 => ⟨S128x256, .f32⟩
  | 4 => ⟨S256, .f32⟩
  | 5 => ⟨S3x256x256, .f32⟩
  | 6 => ⟨S3x256, .f32⟩
  | 7 => ⟨S3x256, .f32⟩
  | 8 => ⟨S3x256, .f32⟩
  | 9 => ⟨S3x256, .f32⟩
  | 10 => ⟨S3x256, .f32⟩
  | 11 => ⟨S256x256, .f32⟩
  | 12 => ⟨S256, .f32⟩
  | 13 => ⟨S256x256, .f32⟩
  | 14 => ⟨S256, .f32⟩
  | 15 => ⟨S200000, .i32⟩
  | 16 => ⟨S1x400000, .i32⟩
  | 17 => ⟨S400000, .i32⟩
  | 18 => ⟨S600000, .i32⟩
  | 19 => ⟨S1x400000, .i32⟩
  | 20 => ⟨S400000, .i32⟩
  | 21 => ⟨S600000, .i32⟩
  | 22 => ⟨S_, .f32⟩
  | 23 => ⟨S600000, .f32⟩
  | 24 => ⟨S_, .f32⟩
  | 25 => ⟨S200000, .f32⟩
  | 26 => ⟨S600000x1, .i32⟩
  | 27 => ⟨S200000, .f32⟩
  | 28 => ⟨S200000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S_, .i32⟩
  | 39 => ⟨S600000, .i32⟩
  | 40 => ⟨S600000, .i1⟩
  | 41 => ⟨S_, .i32⟩
  | 42 => ⟨S600000, .i32⟩
  | 43 => ⟨S600000, .i32⟩
  | 44 => ⟨S600000, .i32⟩
  | 45 => ⟨S600000x1, .i32⟩
  | 46 => ⟨S600000, .f32⟩
  | 47 => ⟨S600000, .f32⟩
  | 48 => ⟨S600000x1, .f32⟩
  | 49 => ⟨S200000x256, .f32⟩
  | 50 => ⟨S1x256, .f32⟩
  | 51 => ⟨S200000x256, .f32⟩
  | 52 => ⟨S200000x256, .f32⟩
  | 53 => ⟨S1x256x256, .f32⟩
  | 54 => ⟨S256x256, .f32⟩
  | 55 => ⟨S200000x256, .f32⟩
  | 56 => ⟨S_, .i32⟩
  | 57 => ⟨S600000, .i32⟩
  | 58 => ⟨S600000, .i1⟩
  | 59 => ⟨S_, .i32⟩
  | 60 => ⟨S600000, .i32⟩
  | 61 => ⟨S600000, .i32⟩
  | 62 => ⟨S600000, .i32⟩
  | 63 => ⟨S600000x1, .i32⟩
  | 64 => ⟨S600000x256, .f32⟩
  | 65 => ⟨S600000x256, .f32⟩
  | 66 => ⟨S600000x256, .f32⟩
  | 67 => ⟨S_, .f32⟩
  | 68 => ⟨S200000x256, .f32⟩
  | 69 => ⟨S600000x1, .i32⟩
  | 70 => ⟨S200000x256, .f32⟩
  | 71 => ⟨S1x256, .f32⟩
  | 72 => ⟨S256, .f32⟩
  | 73 => ⟨S1x256, .f32⟩
  | 74 => ⟨S200000x256, .f32⟩
  | 75 => ⟨S200000x256, .f32⟩
  | 76 => ⟨S1x256, .f32⟩
  | 77 => ⟨S256, .f32⟩
  | 78 => ⟨S1x256, .f32⟩
  | 79 => ⟨S200000x256, .f32⟩
  | 80 => ⟨S200000x256, .f32⟩
  | 81 => ⟨S1x256, .f32⟩
  | 82 => ⟨S256, .f32⟩
  | 83 => ⟨S_, .f32⟩
  | 84 => ⟨S256, .f32⟩
  | 85 => ⟨S256, .f32⟩
  | 86 => ⟨S256, .f32⟩
  | 87 => ⟨S1x256, .f32⟩
  | 88 => ⟨S200000x256, .f32⟩
  | 89 => ⟨S200000x256, .f32⟩
  | 90 => ⟨S1x256, .f32⟩
  | 91 => ⟨S256, .f32⟩
  | 92 => ⟨S1x256, .f32⟩
  | 93 => ⟨S200000x256, .f32⟩
  | 94 => ⟨S200000x256, .f32⟩
  | 95 => ⟨S1x256, .f32⟩
  | 96 => ⟨S256, .f32⟩
  | 97 => ⟨S1x256, .f32⟩
  | 98 => ⟨S200000x256, .f32⟩
  | 99 => ⟨S200000x256, .f32⟩
  | 100 => ⟨S_, .f32⟩
  | 101 => ⟨S200000x256, .f32⟩
  | 102 => ⟨S200000x256, .f32⟩
  | 103 => ⟨S200000x256, .f32⟩
  | 104 => ⟨S1x256x256, .f32⟩
  | 105 => ⟨S256x256, .f32⟩
  | 106 => ⟨S200000x256, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x256, .f32⟩
  | 116 => ⟨S600000x256, .f32⟩
  | 117 => ⟨S600000x256, .f32⟩
  | 118 => ⟨S_, .f32⟩
  | 119 => ⟨S200000x256, .f32⟩
  | 120 => ⟨S600000x1, .i32⟩
  | 121 => ⟨S200000x256, .f32⟩
  | 122 => ⟨S1x256, .f32⟩
  | 123 => ⟨S256, .f32⟩
  | 124 => ⟨S1x256, .f32⟩
  | 125 => ⟨S200000x256, .f32⟩
  | 126 => ⟨S200000x256, .f32⟩
  | 127 => ⟨S1x256, .f32⟩
  | _ => ⟨S200000x128, .f32⟩

abbrev hbmTy0_1 (i : Nat) : BufTy := match i % 128 with
  | 0 => ⟨S256, .f32⟩
  | 1 => ⟨S1x256, .f32⟩
  | 2 => ⟨S200000x256, .f32⟩
  | 3 => ⟨S200000x256, .f32⟩
  | 4 => ⟨S1x256, .f32⟩
  | 5 => ⟨S256, .f32⟩
  | 6 => ⟨S_, .f32⟩
  | 7 => ⟨S256, .f32⟩
  | 8 => ⟨S256, .f32⟩
  | 9 => ⟨S256, .f32⟩
  | 10 => ⟨S1x256, .f32⟩
  | 11 => ⟨S200000x256, .f32⟩
  | 12 => ⟨S200000x256, .f32⟩
  | 13 => ⟨S1x256, .f32⟩
  | 14 => ⟨S256, .f32⟩
  | 15 => ⟨S1x256, .f32⟩
  | 16 => ⟨S200000x256, .f32⟩
  | 17 => ⟨S200000x256, .f32⟩
  | 18 => ⟨S1x256, .f32⟩
  | 19 => ⟨S256, .f32⟩
  | 20 => ⟨S1x256, .f32⟩
  | 21 => ⟨S200000x256, .f32⟩
  | 22 => ⟨S200000x256, .f32⟩
  | 23 => ⟨S_, .f32⟩
  | 24 => ⟨S200000x256, .f32⟩
  | 25 => ⟨S200000x256, .f32⟩
  | 26 => ⟨S200000x256, .f32⟩
  | 27 => ⟨S1x256x256, .f32⟩
  | 28 => ⟨S256x256, .f32⟩
  | 29 => ⟨S200000x256, .f32⟩
  | 30 => ⟨S_, .i32⟩
  | 31 => ⟨S600000, .i32⟩
  | 32 => ⟨S600000, .i1⟩
  | 33 => ⟨S_, .i32⟩
  | 34 => ⟨S600000, .i32⟩
  | 35 => ⟨S600000, .i32⟩
  | 36 => ⟨S600000, .i32⟩
  | 37 => ⟨S600000x1, .i32⟩
  | 38 => ⟨S600000x256, .f32⟩
  | 39 => ⟨S600000x256, .f32⟩
  | 40 => ⟨S600000x256, .f32⟩
  | 41 => ⟨S_, .f32⟩
  | 42 => ⟨S200000x256, .f32⟩
  | 43 => ⟨S600000x1, .i32⟩
  | 44 => ⟨S200000x256, .f32⟩
  | 45 => ⟨S1x256, .f32⟩
  | 46 => ⟨S256, .f32⟩
  | 47 => ⟨S1x256, .f32⟩
  | 48 => ⟨S200000x256, .f32⟩
  | 49 => ⟨S200000x256, .f32⟩
  | 50 => ⟨S1x256, .f32⟩
  | 51 => ⟨S256, .f32⟩
  | 52 => ⟨S1x256, .f32⟩
  | 53 => ⟨S200000x256, .f32⟩
  | 54 => ⟨S200000x256, .f32⟩
  | 55 => ⟨S1x256, .f32⟩
  | 56 => ⟨S256, .f32⟩
  | 57 => ⟨S_, .f32⟩
  | 58 => ⟨S256, .f32⟩
  | 59 => ⟨S256, .f32⟩
  | 60 => ⟨S256, .f32⟩
  | 61 => ⟨S1x256, .f32⟩
  | 62 => ⟨S200000x256, .f32⟩
  | 63 => ⟨S200000x256, .f32⟩
  | 64 => ⟨S1x256, .f32⟩
  | 65 => ⟨S256, .f32⟩
  | 66 => ⟨S1x256, .f32⟩
  | 67 => ⟨S200000x256, .f32⟩
  | 68 => ⟨S200000x256, .f32⟩
  | 69 => ⟨S1x256, .f32⟩
  | 70 => ⟨S256, .f32⟩
  | 71 => ⟨S1x256, .f32⟩
  | 72 => ⟨S200000x256, .f32⟩
  | 73 => ⟨S200000x256, .f32⟩
  | 74 => ⟨S_, .f32⟩
  | 75 => ⟨S200000x256, .f32⟩
  | 76 => ⟨S200000x256, .f32⟩
  | 77 => ⟨S200000x256, .f32⟩
  | 78 => ⟨S_, .f32⟩
  | 79 => ⟨S200000, .f32⟩
  | 80 => ⟨S_, .f32⟩
  | 81 => ⟨S4096, .f32⟩
  | 82 => ⟨S200000x1, .i32⟩
  | 83 => ⟨S4096, .f32⟩
  | 84 => ⟨S_, .f32⟩
  | 85 => ⟨S4096x256, .f32⟩
  | 86 => ⟨S200000x1, .i32⟩
  | 87 => ⟨S4096x256, .f32⟩
  | 88 => ⟨S_, .f32⟩
  | 89 => ⟨S4096, .f32⟩
  | 90 => ⟨S4096, .f32⟩
  | 91 => ⟨S4096x1, .f32⟩
  | 92 => ⟨S4096x256, .f32⟩
  | 93 => ⟨S4096x256, .f32⟩
  | 94 => ⟨S4096x256, .f32⟩
  | 95 => ⟨S1x256, .f32⟩
  | 96 => ⟨S4096x256, .f32⟩
  | 97 => ⟨S4096x256, .f32⟩
  | 98 => ⟨S_, .f32⟩
  | 99 => ⟨S4096x256, .f32⟩
  | 100 => ⟨S4096x256, .f32⟩
  | 101 => ⟨S4096x256, .f32⟩
  | 102 => ⟨S1x256, .f32⟩
  | 103 => ⟨S4096x256, .f32⟩
  | 104 => ⟨S4096x256, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_1 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_4 : Ref sig .tc := ⟨.hbm, 56, rfl⟩
abbrev main_v35 : Ref sig .tc := ⟨.hbm, 57, rfl⟩
abbrev main_v36 : Ref sig .tc := ⟨.hbm, 58, rfl⟩
abbrev main_c_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_call0_cst : Ref sig .tc := ⟨.hbm, 100, rfl⟩
abbrev main_call0_v0 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_c_8 : Ref sig .tc := ⟨.hbm, 107, rfl⟩
abbrev main_v80 : Ref sig .tc := ⟨.hbm, 108, rfl⟩
abbrev main_v81 : Ref sig .tc := ⟨.hbm, 109, rfl⟩
abbrev main_c_9 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_cst_10 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_cst_11 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_call1_cst : Ref sig .tc := ⟨.hbm, 151, rfl⟩
abbrev main_call1_v0 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_c_12 : Ref sig .tc := ⟨.hbm, 158, rfl⟩
abbrev main_v125 : Ref sig .tc := ⟨.hbm, 159, rfl⟩
abbrev main_v126 : Ref sig .tc := ⟨.hbm, 160, rfl⟩
abbrev main_c_13 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_cst_14 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_cst_15 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_v153 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_v157 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_call2_cst : Ref sig .tc := ⟨.hbm, 202, rfl⟩
abbrev main_call2_v0 : Ref sig .tc := ⟨.hbm, 203, rfl⟩
abbrev main_v165 : Ref sig .tc := ⟨.hbm, 204, rfl⟩
abbrev main_v166 : Ref sig .tc := ⟨.hbm, 205, rfl⟩
abbrev main_cst_16 : Ref sig .tc := ⟨.hbm, 206, rfl⟩
abbrev main_v167 : Ref sig .tc := ⟨.hbm, 207, rfl⟩
abbrev main_cst_17 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_cst_18 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_cst_19 : Ref sig .tc := ⟨.hbm, 216, rfl⟩
abbrev main_v174 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_call3_cst : Ref sig .tc := ⟨.hbm, 226, rfl⟩
abbrev main_call3_v0 : Ref sig .tc := ⟨.hbm, 227, rfl⟩
abbrev main_v183 : Ref sig .tc := ⟨.hbm, 228, rfl⟩
abbrev main_v184 : Ref sig .tc := ⟨.hbm, 229, rfl⟩
abbrev main_v185 : Ref sig .tc := ⟨.hbm, 230, rfl⟩
abbrev main_v186 : Ref sig .tc := ⟨.hbm, 231, rfl⟩
abbrev main_v187 : Ref sig .tc := ⟨.hbm, 232, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  concatenates_S400000_S200000_S600000_d0 : Shape.Concatenates [S400000, S200000] S600000 0
  slices_S2x400000_S1x400000_1_0 : S2x400000.Slices ![1, 0] S1x400000
  bcast_S_S600000 : S_.BroadcastsInDim S600000 (![] : Fin 0 → Fin S600000.rank)
  bcast_S_S200000 : S_.BroadcastsInDim S200000 (![] : Fin 0 → Fin S200000.rank)
  bcast_S600000_S600000x1_0 : S600000.BroadcastsInDim S600000x1 (![0] : Fin 1 → Fin S600000x1.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  slices_S3x256x256_S1x256x256_0_0_0 : S3x256x256.Slices ![0, 0, 0] S1x256x256
  shapeCasts_S1x256x256_S256x256 : S1x256x256.ShapeCasts S256x256
  bcast_S600000x1_S600000x256_0_1 : S600000x1.BroadcastsInDim S600000x256 (![0, 1] : Fin 2 → Fin S600000x256.rank)
  bcast_S_S200000x256 : S_.BroadcastsInDim S200000x256 (![] : Fin 0 → Fin S200000x256.rank)
  slices_S3x256_S1x256_0_0 : S3x256.Slices ![0, 0] S1x256
  shapeCasts_S1x256_S256 : S1x256.ShapeCasts S256
  bcast_S_S256 : S_.BroadcastsInDim S256 (![] : Fin 0 → Fin S256.rank)
  slices_S3x256x256_S1x256x256_1_0_0 : S3x256x256.Slices ![1, 0, 0] S1x256x256
  slices_S3x256_S1x256_1_0 : S3x256.Slices ![1, 0] S1x256
  slices_S3x256x256_S1x256x256_2_0_0 : S3x256x256.Slices ![2, 0, 0] S1x256x256
  slices_S3x256_S1x256_2_0 : S3x256.Slices ![2, 0] S1x256
  bcast_S_S4096 : S_.BroadcastsInDim S4096 (![] : Fin 0 → Fin S4096.rank)
  bcast_S200000_S200000x1_0 : S200000.BroadcastsInDim S200000x1 (![0] : Fin 1 → Fin S200000x1.rank)
  bcast_S_S4096x256 : S_.BroadcastsInDim S4096x256 (![] : Fin 0 → Fin S4096x256.rank)
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S1x256_S4096x256_0_1 : S1x256.BroadcastsInDim S4096x256 (![0, 1] : Fin 2 → Fin S4096x256.rank)
  scatter_S200000_S600000x1_S600000_n_0_0_1_wf : ScatterDims.WF S200000 S600000x1 S600000 [] [0] [0] 1
  gather_S200000_S600000x1_S600000_n_0_n_n_0_1_1_wf : GatherDims.WF S200000 S600000x1 S600000 [] [0] [] [0] [] 1 ![1]
  dot_S200000x128_S128x256_S200000x256_1_0_0_1_n_n_wf : DotDims.WF S200000x128 S128x256 S200000x256 [1] [0] [0] [1] [] []
  dot_S200000x256_S256x256_S200000x256_1_0_0_1_n_n_wf : DotDims.WF S200000x256 S256x256 S200000x256 [1] [0] [0] [1] [] []
  gather_S200000x256_S600000x1_S600000x256_1_0_n_n_0_1_1256_wf : GatherDims.WF S200000x256 S600000x1 S600000x256 [1] [0] [] [0] [] 1 ![1, 256]
  scatter_S200000x256_S600000x1_S600000x256_1_0_0_1_wf : ScatterDims.WF S200000x256 S600000x1 S600000x256 [1] [0] [0] 1
  scatter_S4096_S200000x1_S200000_n_0_0_1_wf : ScatterDims.WF S4096 S200000x1 S200000 [] [0] [0] 1
  scatter_S4096x256_S200000x1_S200000x256_1_0_0_1_wf : ScatterDims.WF S4096x256 S200000x1 S200000x256 [1] [0] [0] 1
  dot_S4096x256_S256x256_S4096x256_1_0_0_1_n_n_wf : DotDims.WF S4096x256 S256x256 S4096x256 [1] [0] [0] [1] [] []

variable [Facts₀]

def scatter_S200000_S600000x1_S600000_n_0_0_1 : ScatterDims S200000 S600000x1 S600000 where
  updateWindowDims := []
  insertedWindowDims := [0]
  scatterDimsToOperandDims := [0]
  indexVectorDim := 1
  wf := scatter_S200000_S600000x1_S600000_n_0_0_1_wf
def gather_S200000_S600000x1_S600000_n_0_n_n_0_1_1 : GatherDims S200000 S600000x1 S600000 where
  offsetDims := []
  collapsedSliceDims := [0]
  operandBatchingDims := []
  startIndicesBatchingDims := []
  startIndexMap := [0]
  indexVectorDim := 1
  sliceSizes := ![1]
  wf := gather_S200000_S600000x1_S600000_n_0_n_n_0_1_1_wf
def dot_S200000x128_S128x256_S200000x256_1_0_0_1_n_n : DotDims S200000x128 S128x256 S200000x256 where
  lhsContracting := [1]
  rhsContracting := [0]
  lhsNonContracting := [0]
  rhsNonContracting := [1]
  lhsBatch := []
  rhsBatch := []
  wf := dot_S200000x128_S128x256_S200000x256_1_0_0_1_n_n_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def gather_S200000x256_S600000x1_S600000x256_1_0_n_n_0_1_1256 : GatherDims S200000x256 S600000x1 S600000x256 where
  offsetDims := [1]
  collapsedSliceDims := [0]
  operandBatchingDims := []
  startIndicesBatchingDims := []
  startIndexMap := [0]
  indexVectorDim := 1
  sliceSizes := ![1, 256]
  wf := gather_S200000x256_S600000x1_S600000x256_1_0_n_n_0_1_1256_wf
def scatter_S200000x256_S600000x1_S600000x256_1_0_0_1 : ScatterDims S200000x256 S600000x1 S600000x256 where
  updateWindowDims := [1]
  insertedWindowDims := [0]
  scatterDimsToOperandDims := [0]
  indexVectorDim := 1
  wf := scatter_S200000x256_S600000x1_S600000x256_1_0_0_1_wf
def scatter_S4096_S200000x1_S200000_n_0_0_1 : ScatterDims S4096 S200000x1 S200000 where
  updateWindowDims := []
  insertedWindowDims := [0]
  scatterDimsToOperandDims := [0]
  indexVectorDim := 1
  wf := scatter_S4096_S200000x1_S200000_n_0_0_1_wf
def scatter_S4096x256_S200000x1_S200000x256_1_0_0_1 : ScatterDims S4096x256 S200000x1 S200000x256 where
  updateWindowDims := [1]
  insertedWindowDims := [0]
  scatterDimsToOperandDims := [0]
  indexVectorDim := 1
  wf := scatter_S4096x256_S200000x1_S200000x256_1_0_0_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

class Facts : Prop extends Facts₀ where

variable [Facts]
-- ==== Proof.KernelRun.lean ====
/-
  The idealized kernel program runs to the end from any launch memory, and its result array then holds what the fold of
  buffer contents through the program's sixteen segments (eight stretches of host operations, eight kernel regions)
  leaves at the result buffer; the argument arrays end as launched.  This is the frame run of the program with the
  result buffer read back beside the arguments.
-/
import proofs.«119171_j86912958202425_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at that buffer, and every argument array is as launched. -/
theorem run_result : θ_run defs (onTc (τ := τ) (main (F := F))) ⟨m, fun _ => 0, ρ⟩ (fun r => ∀ c : Dev nD,
      r.2.mem ((c.tc : Thread nD τ).loc main_v137) = W16 m ρ c (Proc.devRef .tc main_v137)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v137 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c)⟩)

end Cert.KernelIdeal.Whole

end
-- ==== Proof.Keep.lean ====
/-
  Which buffers of the idealized kernel program keep their contents from one segment boundary to the next.
  A stretch of host operations changes only the buffers its operations write; a kernel region changes only its
  output array.  So the edge lists, the edge weights and the parameter arrays, once computed or launched, are still
  there at every later boundary: each later stage reads what the first stretch left.
-/
import proofs.«119171_j86912958202425_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- The buffers the host operations of stretch 0 write. -/
abbrev wr0 : List (Ref sig .tc) := [main_v0, main_v1, main_v2, main_v3, main_v4, main_v5, main_v6, main_cst, main_v7, main_cst_0, main_v8, main_v9, main_v10, main_v11, main_c, main_v12, main_v13, main_c_1, main_v14, main_v15, main_v16, main_v17, main_v18, main_c_2, main_v19, main_v20, main_c_3, main_v21, main_v22, main_v23, main_v24, main_v25, main_v26, main_v27, main_v28]

/-- A buffer that stretch 0 does not write holds after it what it held before. -/
theorem hopH0 (b : Ref sig .tc) (hb : b ∉ wr0) : W1 m ρ c (Proc.devRef .tc b) = W0 m ρ c (Proc.devRef .tc b) :=
  StableHlo.after_of_forall_not_mem _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-- The buffers the host operations of stretch 1 write. -/
abbrev wr1 : List (Ref sig .tc) := [main_v30, main_v31]

/-- A buffer that stretch 1 does not write holds after it what it held before. -/
theorem hopH1 (b : Ref sig .tc) (hb : b ∉ wr1) : W3 m ρ c (Proc.devRef .tc b) = W2 m ρ c (Proc.devRef .tc b) :=
  StableHlo.after_of_forall_not_mem _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-- The buffers the host operations of stretch 2 write. -/
abbrev wr2 : List (Ref sig .tc) := [main_c_4, main_v33, main_v34, main_c_5, main_v35, main_v36, main_v37, main_v38, main_v39, main_v40, main_v41, main_cst_6, main_v42, main_v43, main_v44, main_v45, main_v46, main_v47, main_v48, main_v49, main_v50, main_v51, main_v52, main_v53, main_v54, main_v55, main_v56, main_v57, main_v58, main_v59]

/-- A buffer that stretch 2 does not write holds after it what it held before. -/
theorem hopH2 (b : Ref sig .tc) (hb : b ∉ wr2) : W5 m ρ c (Proc.devRef .tc b) = W4 m ρ c (Proc.devRef .tc b) :=
  StableHlo.after_of_forall_not_mem _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-- The buffers the host operations of stretch 3 write. -/
abbrev wr3 : List (Ref sig .tc) := [main_v61, main_v62]

/-- A buffer that stretch 3 does not write holds after it what it held before. -/
theorem hopH3 (b : Ref sig .tc) (hb : b ∉ wr3) : W7 m ρ c (Proc.devRef .tc b) = W6 m ρ c (Proc.devRef .tc b) :=
  StableHlo.after_of_forall_not_mem _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-- The buffers the host operations of stretch 4 write. -/
abbrev wr4 : List (Ref sig .tc) := [main_c_7, main_v64, main_v65, main_c_8, main_v66, main_v67, main_v68, main_v69, main_v70, main_v71, main_v72, main_cst_9, main_v73, main_v74, main_v75, main_v76, main_v77, main_v78, main_v79, main_v80, main_v81, main_v82, main_v83, main_v84, main_v85, main_v86, main_v87, main_v88, main_v89, main_v90]

/-- A buffer that stretch 4 does not write holds after it what it held before. -/
theorem hopH4 (b : Ref sig .tc) (hb : b ∉ wr4) : W9 m ρ c (Proc.devRef .tc b) = W8 m ρ c (Proc.devRef .tc b) :=
  StableHlo.after_of_forall_not_mem _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-- The buffers the host operations of stretch 5 write. -/
abbrev wr5 : List (Ref sig .tc) := [main_v92, main_v93]

/-- A buffer that stretch 5 does not write holds after it what it held before. -/
theorem hopH5 (b : Ref sig .tc) (hb : b ∉ wr5) : W11 m ρ c (Proc.devRef .tc b) = W10 m ρ c (Proc.devRef .tc b) :=
  StableHlo.after_of_forall_not_mem _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-- The buffers the host operations of stretch 6 write. -/
abbrev wr6 : List (Ref sig .tc) := [main_c_10, main_v95, main_v96, main_c_11, main_v97, main_v98, main_v99, main_v100, main_v101, main_v102, main_v103, main_cst_12, main_v104, main_v105, main_v106, main_v107, main_v108, main_v109, main_v110, main_v111, main_v112, main_v113, main_v114, main_v115, main_v116, main_v117, main_v118, main_v119, main_v120, main_v121]

/-- A buffer that stretch 6 does not write holds after it what it held before. -/
theorem hopH6 (b : Ref sig .tc) (hb : b ∉ wr6) : W13 m ρ c (Proc.devRef .tc b) = W12 m ρ c (Proc.devRef .tc b) :=
  StableHlo.after_of_forall_not_mem _ _ (List.forall_iff_forall_mem.mp (by
    simp only [hostOps6, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-- The buffers the host operations of stretch 7 write. -/
abbrev wr7 : List (Ref sig .tc) := [main_cst_13, main_v123, main_cst_14, main_v124, main_v125, main_v126, main_cst_15, main_v127, main_v128, main_v129, main_cst_16, main_v130, main_v131, main_v132, main_v133, main_v134, main_v135, main_v136]

/-- A buffer that stretch 7 does not write holds after it what it held before. -/
theorem hopH7 (b : Ref sig .tc) (hb : b ∉ wr7) : W15 m ρ c (Proc.devRef .tc b) = W14 m ρ c (Proc.devRef .tc b) :=
  StableHlo.after_of_forall_not_mem _ _ (List.forall_iff_forall_mem.mp (by
    simp only [hostOps7, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (fun e => hb (by rw [e]; decide))))

/-- The edge sources, the edge targets, the edge weights and the parameter arrays read after the first region: no
    later host operation writes them and no region before the last has one of them as a window. -/
abbrev stableL : List (Ref sig .tc) := [main_v3, main_v6, main_v27, main_arg2, main_arg5, main_arg6, main_arg7, main_arg8, main_arg9, main_arg10, main_arg11, main_arg12, main_arg13, main_arg14]

theorem st1 (b : Ref sig .tc) (hb : b ∈ stableL) : W1 m ρ c (Proc.devRef .tc b) = W1 m ρ c (Proc.devRef .tc b) := rfl
theorem st2 (b : Ref sig .tc) (hb : b ∈ stableL) : W2 m ρ c (Proc.devRef .tc b) = W1 m ρ c (Proc.devRef .tc b) :=
  (W2_of_ne m ρ c b ((by decide : ∀ b ∈ stableL, ∀ w, Pipeline.arrRef spec0 w ≠ b) b hb)).trans (st1 m ρ c b hb)
theorem st3 (b : Ref sig .tc) (hb : b ∈ stableL) : W3 m ρ c (Proc.devRef .tc b) = W1 m ρ c (Proc.devRef .tc b) :=
  (hopH1 m ρ c b ((by decide : ∀ b ∈ stableL, b ∉ wr1) b hb)).trans (st2 m ρ c b hb)
theorem st4 (b : Ref sig .tc) (hb : b ∈ stableL) : W4 m ρ c (Proc.devRef .tc b) = W1 m ρ c (Proc.devRef .tc b) :=
  (W4_of_ne m ρ c b ((by decide : ∀ b ∈ stableL, ∀ w, Pipeline.arrRef spec1 w ≠ b) b hb)).trans (st3 m ρ c b hb)
theorem st5 (b : Ref sig .tc) (hb : b ∈ stableL) : W5 m ρ c (Proc.devRef .tc b) = W1 m ρ c (Proc.devRef .tc b) :=
  (hopH2 m ρ c b ((by decide : ∀ b ∈ stableL, b ∉ wr2) b hb)).trans (st4 m ρ c b hb)
theorem st6 (b : Ref sig .tc) (hb : b ∈ stableL) : W6 m ρ c (Proc.devRef .tc b) = W1 m ρ c (Proc.devRef .tc b) :=
  (W6_of_ne m ρ c b ((by decide : ∀ b ∈ stableL, ∀ w, Pipeline.arrRef spec2 w ≠ b) b hb)).trans (st5 m ρ c b hb)
theorem st7 (b : Ref sig .tc) (hb : b ∈ stableL) : W7 m ρ c (Proc.devRef .tc b) = W1 m ρ c (Proc.devRef .tc b) :=
  (hopH3 m ρ c b ((by decide : ∀ b ∈ stableL, b ∉ wr3) b hb)).trans (st6 m ρ c b hb)
theorem st8 (b : Ref sig .tc) (hb : b ∈ stableL) : W8 m ρ c (Proc.devRef .tc b) = W1 m ρ c (Proc.devRef .tc b) :=
  (W8_of_ne m ρ c b ((by decide : ∀ b ∈ stableL, ∀ w, Pipeline.arrRef spec3 w ≠ b) b hb)).trans (st7 m ρ c b hb)
theorem st9 (b : Ref sig .tc) (hb : b ∈ stableL) : W9 m ρ c (Proc.devRef .tc b) = W1 m ρ c (Proc.devRef .tc b) :=
  (hopH4 m ρ c b ((by decide : ∀ b ∈ stableL, b ∉ wr4) b hb)).trans (st8 m ρ c b hb)
theorem st10 (b : Ref sig .tc) (hb : b ∈ stableL) : W10 m ρ c (Proc.devRef .tc b) = W1 m ρ c (Proc.devRef .tc b) :=
  (W10_of_ne m ρ c b ((by decide : ∀ b ∈ stableL, ∀ w, Pipeline.arrRef spec4 w ≠ b) b hb)).trans (st9 m ρ c b hb)
theorem st11 (b : Ref sig .tc) (hb : b ∈ stableL) : W11 m ρ c (Proc.devRef .tc b) = W1 m ρ c (Proc.devRef .tc b) :=
  (hopH5 m ρ c b ((by decide : ∀ b ∈ stableL, b ∉ wr5) b hb)).trans (st10 m ρ c b hb)
theorem st12 (b : Ref sig .tc) (hb : b ∈ stableL) : W12 m ρ c (Proc.devRef .tc b) = W1 m ρ c (Proc.devRef .tc b) :=
  (W12_of_ne m ρ c b ((by decide : ∀ b ∈ stableL, ∀ w, Pipeline.arrRef spec5 w ≠ b) b hb)).trans (st11 m ρ c b hb)
theorem st13 (b : Ref sig .tc) (hb : b ∈ stableL) : W13 m ρ c (Proc.devRef .tc b) = W1 m ρ c (Proc.devRef .tc b) :=
  (hopH6 m ρ c b ((by decide : ∀ b ∈ stableL, b ∉ wr6) b hb)).trans (st12 m ρ c b hb)
theorem st14 (b : Ref sig .tc) (hb : b ∈ stableL) : W14 m ρ c (Proc.devRef .tc b) = W1 m ρ c (Proc.devRef .tc b) :=
  (W14_of_ne m ρ c b ((by decide : ∀ b ∈ stableL, ∀ w, Pipeline.arrRef spec6 w ≠ b) b hb)).trans (st13 m ρ c b hb)
theorem st15 (b : Ref sig .tc) (hb : b ∈ stableL) : W15 m ρ c (Proc.devRef .tc b) = W1 m ρ c (Proc.devRef .tc b) :=
  (hopH7 m ρ c b ((by decide : ∀ b ∈ stableL, b ∉ wr7) b hb)).trans (st14 m ρ c b hb)

end Cert.KernelIdeal.Whole

end
-- ==== Proof.Layers.lean ====
/-
  The four dense layers of the graph-convolution encoder, as functions on whole arrays of extended reals, read index
  by index.  An array of shape [n, d] is a function of a pair of coordinates; a parameter vector enters as a one-row
  matrix.

  * `affine x w b`  : entry (p, j) is  Σ_q x[p,q] · w[q,j]  +  b[0,j].
  * `matProd h w`   : entry (p, j) is  Σ_q h[p,q] · w[q,j].
  * `normAct a b g β μ v r` : batch normalisation with running statistics, a rectifier and a residual:
        entry (p, j) is  max( ((a[p,j] + b[0,j]) − μ[0,j]) · rsqrt(v[0,j] + ε) · g[0,j] + β[0,j] , 0 )  +  r[p,j],
    with ε the single-precision word 0x3727C5AC (the float nearest 1e-5), the same word in both programs.
  * `twoLayer p w₁ b₁ w₂ b₂` : affine, rectifier, affine.

  Sums and products are those of the extended reals; no law beyond the definitions is used here.
-/
import Idealize.ShloMosaic.PureOps.Ideal
import Idealize.ShloMosaic.Lib.ValueIdx

noncomputable section

open scoped BigOperators

namespace Cert.Layers

open Idealize.ShloMosaic Idealize.ShloMosaic.ValueIdx

/-- An n × d array of extended reals. -/
abbrev Mat (n d : Nat) : Type := FVec Ideal (⟨2, ![n, d]⟩ : Shape) .f32

/-- A parameter vector of length d as a one-row matrix. -/
def row {d : Nat} (b : FVec Ideal (⟨1, ![d]⟩ : Shape) .f32) : Mat 1 d := fun i => b (ix1 (i 1))

/-- Row `l` of a stack of parameter vectors, as a one-row matrix. -/
def rowOf {L d : Nat} (l : Fin L) (p : Mat L d) : Mat 1 d := fun i => p (ix2 l (i 1))

/-- The small positive constant added to the variance: the float nearest 1e-5. -/
def eps : EReal := Ideal.ofBits .f32 0x3727C5AC#32

/-- The matrix product. -/
def matProd {n k d : Nat} (h : Mat n k) (w : Mat k d) : Mat n d :=
  fun i => ∑ q : Fin k, h (ix2 (i 0) q) * w (ix2 q (i 1))

/-- The matrix product plus a bias row. -/
def affine {n k d : Nat} (x : Mat n k) (w : Mat k d) (b : Mat 1 d) : Mat n d :=
  fun i => (∑ q : Fin k, x (ix2 (i 0) q) * w (ix2 q (i 1))) + b (ix2 0 (i 1))

/-- Batch normalisation with running statistics, rectifier, residual. -/
def normAct {n d : Nat} (a : Mat n d) (b g be mu v : Mat 1 d) (r : Mat n d) : Mat n d :=
  fun i => max ((((a i + b (ix2 0 (i 1))) - mu (ix2 0 (i 1))) * Ideal.rsqrt (v (ix2 0 (i 1)) + eps)) * g (ix2 0 (i 1))
      + be (ix2 0 (i 1))) (Ideal.ofBits .f32 0x00000000#32) + r i

/-- Two affine layers with a rectifier between them. -/
def twoLayer {n k d e : Nat} (p : Mat n k) (w1 : Mat k d) (b1 : Mat 1 d) (w2 : Mat d e) (b2 : Mat 1 e) : Mat n e :=
  fun i => (∑ q : Fin d, max ((∑ s : Fin k, p (ix2 (i 0) s) * w1 (ix2 s q)) + b1 (ix2 0 q)) (Ideal.ofBits .f32 0x00000000#32)
      * w2 (ix2 q (i 1))) + b2 (ix2 0 (i 1))

end Cert.Layers

end
-- ==== Proof.LibRowLayout.lean ====
/-
  Two layout facts about parameter vectors, each read at an index.

  * A vector of length d reshaped to a one-row matrix [1, d] holds, at (u, j), the vector's entry j.
  * Row l of an [L, d] array, cut out as a [1, d] slice, flattened to length d and reshaped back to [1, d],
    holds at (u, j) the array's entry (l, j): the two reshapes undo each other and the slice starts at row l.
-/
import Idealize.ShloMosaic.Lib.Pipeline.Value
import Idealize.ShloMosaic.Lib.ValueIdx
import Idealize.ShloMosaic.Lib.ValueLayout

noncomputable section

namespace Cert.RowLayout

open Idealize.ShloMosaic Idealize.ShloMosaic.ValueIdx Idealize.ShloMosaic.Pipeline

variable {α : Type}

/-- A length-d vector reshaped to [1, d], read at an index. -/
theorem reshape_vec_row {d : Nat} (b : (⟨1, ![d]⟩ : Shape).Idx → α)
    (h : (⟨1, ![d]⟩ : Shape).ShapeCasts ⟨2, ![1, d]⟩) :
    shapeCast ⟨2, ![1, d]⟩ b h = fun i => b (ix1 (i 1)) := by
  funext i
  obtain ⟨u, j, rfl⟩ : ∃ (u : Fin 1) (j : Fin d), i = ix2 u j := ⟨i 0, i 1, eq_ix2 i⟩
  exact shapeCast_a_1a_apply b h u j

/-- Row l of an [L, d] array, sliced, flattened and reshaped back to one row, read at an index. -/
theorem slice_flatten_row {L d : Nat} (l : Fin L) (p : (⟨2, ![L, d]⟩ : Shape).Idx → α)
    (hs : (⟨2, ![L, d]⟩ : Shape).Slices ![l.val, 0] ⟨2, ![1, d]⟩)
    (h1 : (⟨2, ![1, d]⟩ : Shape).ShapeCasts ⟨1, ![d]⟩) (h2 : (⟨1, ![d]⟩ : Shape).ShapeCasts ⟨2, ![1, d]⟩) :
    shapeCast ⟨2, ![1, d]⟩ (shapeCast ⟨1, ![d]⟩ (extractStridedSlice ⟨2, ![1, d]⟩ ![l.val, 0] p hs) h1) h2
      = fun i => p (ix2 l (i 1)) := by
  rw [shapeCast_shapeCast]
  funext i
  obtain ⟨u, j, rfl⟩ : ∃ (u : Fin 1) (j : Fin d), i = ix2 u j := ⟨i 0, i 1, eq_ix2 i⟩
  refine extractStridedSlice_apply _ p hs (ix2 u j) (ix2 l j) ?_
  intro a
  match a with
  | ⟨0, _⟩ => show l.val = l.val + u.val; omega
  | ⟨1, _⟩ => show j.val = 0 + j.val; omega

end Cert.RowLayout

end
-- ==== Proof.HostReads.lean ====
/-
  What the host operations of the idealized kernel program leave in the buffers the kernel regions and the later host
  operations read, each as a term of the launch contents of the argument arrays.

  The first stretch computes the edge sources (edge_index[0] followed by the self loops), the edge targets
  (edge_index[1] followed by the self loops) and the symmetric-normalisation weight of every edge,
  rsqrt(deg[src]) · rsqrt(deg[dst]); the reference program computes the same three arrays by the same operations, so
  they are named here by the reference's stage functions.  A stretch before a matrix-product region slices one layer's
  weight matrix out of the stack; a stretch before a normalisation region gathers the product's rows along the edge
  sources, scales them by the edge weights, scatter-adds them at the edge targets, and lays the layer's five parameter
  vectors out as one-row matrices; the last stretch pools the node features over the graphs (scatter-add by graph
  index, divided by max(count, 1)) and lays the two bias vectors out as rows.
-/
import proofs.«119171_j86912958202425_1_alg».proof.Proof.Gen.ReferenceIdeal.Read
import proofs.«119171_j86912958202425_1_alg».proof.Proof.Keep
import proofs.«119171_j86912958202425_1_alg».proof.Proof.Layers
import proofs.«119171_j86912958202425_1_alg».proof.Proof.LibRowLayout

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Cert.Layers

variable (m : (ℓ : Loc nD τ sig) → Buf (Elt Ideal) ℓ) (ρ : Dev nD → PrngReg) (c : Dev nD)

/-! ## After the first stretch -/

/-- The argument arrays no operation of the first stretch writes: all of them. -/
abbrev argL : List (Ref sig .tc) := [main_arg0, main_arg2, main_arg3, main_arg5, main_arg6, main_arg7, main_arg8, main_arg9, main_arg10, main_arg11, main_arg12, main_arg13, main_arg14]

theorem arg_at1 (b : Ref sig .tc) (hb : b ∈ argL) : W1 m ρ c (Proc.devRef .tc b) = m ((c : Thread nD τ).loc b) :=
  (hopH0 m ρ c b ((by decide : ∀ b ∈ argL, b ∉ wr0) b hb)).trans rfl

/-- The argument arrays read after the first region. -/
abbrev sArgs : List (Ref sig .tc) := [main_arg2, main_arg5, main_arg6, main_arg7, main_arg8, main_arg9, main_arg10, main_arg11, main_arg12, main_arg13, main_arg14]
theorem arg_at2 (b : Ref sig .tc) (hb : b ∈ sArgs) : W2 m ρ c (Proc.devRef .tc b) = m ((c : Thread nD τ).loc b) :=
  (st2 m ρ c b ((by decide : ∀ b ∈ sArgs, b ∈ stableL) b hb)).trans (arg_at1 m ρ c b ((by decide : ∀ b ∈ sArgs, b ∈ argL) b hb))
theorem arg_at3 (b : Ref sig .tc) (hb : b ∈ sArgs) : W3 m ρ c (Proc.devRef .tc b) = m ((c : Thread nD τ).loc b) :=
  (st3 m ρ c b ((by decide : ∀ b ∈ sArgs, b ∈ stableL) b hb)).trans (arg_at1 m ρ c b ((by decide : ∀ b ∈ sArgs, b ∈ argL) b hb))
theorem arg_at4 (b : Ref sig .tc) (hb : b ∈ sArgs) : W4 m ρ c (Proc.devRef .tc b) = m ((c : Thread nD τ).loc b) :=
  (st4 m ρ c b ((by decide : ∀ b ∈ sArgs, b ∈ stableL) b hb)).trans (arg_at1 m ρ c b ((by decide : ∀ b ∈ sArgs, b ∈ argL) b hb))
theorem arg_at5 (b : Ref sig .tc) (hb : b ∈ sArgs) : W5 m ρ c (Proc.devRef .tc b) = m ((c : Thread nD τ).loc b) :=
  (st5 m ρ c b ((by decide : ∀ b ∈ sArgs, b ∈ stableL) b hb)).trans (arg_at1 m ρ c b ((by decide : ∀ b ∈ sArgs, b ∈ argL) b hb))
theorem arg_at6 (b : Ref sig .tc) (hb : b ∈ sArgs) : W6 m ρ c (Proc.devRef .tc b) = m ((c : Thread nD τ).loc b) :=
  (st6 m ρ c b ((by decide : ∀ b ∈ sArgs, b ∈ stableL) b hb)).trans (arg_at1 m ρ c b ((by decide : ∀ b ∈ sArgs, b ∈ argL) b hb))
theorem arg_at7 (b : Ref sig .tc) (hb : b ∈ sArgs) : W7 m ρ c (Proc.devRef .tc b) = m ((c : Thread nD τ).loc b) :=
  (st7 m ρ c b ((by decide : ∀ b ∈ sArgs, b ∈ stableL) b hb)).trans (arg_at1 m ρ c b ((by decide : ∀ b ∈ sArgs, b ∈ argL) b hb))
theorem arg_at8 (b : Ref sig .tc) (hb : b ∈ sArgs) : W8 m ρ c (Proc.devRef .tc b) = m ((c : Thread nD τ).loc b) :=
  (st8 m ρ c b ((by decide : ∀ b ∈ sArgs, b ∈ stableL) b hb)).trans (arg_at1 m ρ c b ((by decide : ∀ b ∈ sArgs, b ∈ argL) b hb))
theorem arg_at9 (b : Ref sig .tc) (hb : b ∈ sArgs) : W9 m ρ c (Proc.devRef .tc b) = m ((c : Thread nD τ).loc b) :=
  (st9 m ρ c b ((by decide : ∀ b ∈ sArgs, b ∈ stableL) b hb)).trans (arg_at1 m ρ c b ((by decide : ∀ b ∈ sArgs, b ∈ argL) b hb))
theorem arg_at10 (b : Ref sig .tc) (hb : b ∈ sArgs) : W10 m ρ c (Proc.devRef .tc b) = m ((c : Thread nD τ).loc b) :=
  (st10 m ρ c b ((by decide : ∀ b ∈ sArgs, b ∈ stableL) b hb)).trans (arg_at1 m ρ c b ((by decide : ∀ b ∈ sArgs, b ∈ argL) b hb))
theorem arg_at11 (b : Ref sig .tc) (hb : b ∈ sArgs) : W11 m ρ c (Proc.devRef .tc b) = m ((c : Thread nD τ).loc b) :=
  (st11 m ρ c b ((by decide : ∀ b ∈ sArgs, b ∈ stableL) b hb)).trans (arg_at1 m ρ c b ((by decide : ∀ b ∈ sArgs, b ∈ argL) b hb))
theorem arg_at12 (b : Ref sig .tc) (hb : b ∈ sArgs) : W12 m ρ c (Proc.devRef .tc b) = m ((c : Thread nD τ).loc b) :=
  (st12 m ρ c b ((by decide : ∀ b ∈ sArgs, b ∈ stableL) b hb)).trans (arg_at1 m ρ c b ((by decide : ∀ b ∈ sArgs, b ∈ argL) b hb))
theorem arg_at13 (b : Ref sig .tc) (hb : b ∈ sArgs) : W13 m ρ c (Proc.devRef .tc b) = m ((c : Thread nD τ).loc b) :=
  (st13 m ρ c b ((by decide : ∀ b ∈ sArgs, b ∈ stableL) b hb)).trans (arg_at1 m ρ c b ((by decide : ∀ b ∈ sArgs, b ∈ argL) b hb))
theorem arg_at14 (b : Ref sig .tc) (hb : b ∈ sArgs) : W14 m ρ c (Proc.devRef .tc b) = m ((c : Thread nD τ).loc b) :=
  (st14 m ρ c b ((by decide : ∀ b ∈ sArgs, b ∈ stableL) b hb)).trans (arg_at1 m ρ c b ((by decide : ∀ b ∈ sArgs, b ∈ argL) b hb))
theorem arg_at15 (b : Ref sig .tc) (hb : b ∈ sArgs) : W15 m ρ c (Proc.devRef .tc b) = m ((c : Thread nD τ).loc b) :=
  (st15 m ρ c b ((by decide : ∀ b ∈ sArgs, b ∈ stableL) b hb)).trans (arg_at1 m ρ c b ((by decide : ∀ b ∈ sArgs, b ∈ argL) b hb))

/-- The edge sources. -/
theorem src_at1 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp
  rfl

/-- The edge targets. -/
theorem dst_at1 : W1 m ρ c (Proc.devRef .tc main_v6) = Cert.ReferenceIdeal.Read.val_main_v6 (F := Ideal) (m ((c : Thread nD τ).loc main_arg1)) := by
  show StableHlo.after hostOps0 (W0 m ρ c) (Proc.devRef .tc main_v6) = _
  after_results_simp
  rfl

/-- The edge weights. -/
theorem wgt_at1 : W1 m ρ c (Proc.devRef .tc main_v27) = Cert.ReferenceIdeal.Read.val_main_v27 (F := Ideal) (m ((c : Thread nD τ).loc main_arg1)) := by
  show StableHlo.after hostOps0 (W0 m ρ c) (Proc.devRef .tc main_v27) = _
  after_results_simp
  rfl

/-- The embedding's bias as a row. -/
theorem bias_at1 : W1 m ρ c (Proc.devRef .tc main_v28) = row (m ((c : Thread nD τ).loc main_arg4)) := by
  show StableHlo.after hostOps0 (W0 m ρ c) (Proc.devRef .tc main_v28) = _
  after_results_simp
  exact Cert.RowLayout.reshape_vec_row _ _

theorem src_at4 : W4 m ρ c (Proc.devRef .tc main_v3) = Cert.ReferenceIdeal.Read.val_main_v3 (F := Ideal) (m ((c : Thread nD τ).loc main_arg1)) :=
  (st4 m ρ c main_v3 (by decide)).trans (src_at1 m ρ c)
theorem dst_at4 : W4 m ρ c (Proc.devRef .tc main_v6) = Cert.ReferenceIdeal.Read.val_main_v6 (F := Ideal) (m ((c : Thread nD τ).loc main_arg1)) :=
  (st4 m ρ c main_v6 (by decide)).trans (dst_at1 m ρ c)
theorem wgt_at4 : W4 m ρ c (Proc.devRef .tc main_v27) = Cert.ReferenceIdeal.Read.val_main_v27 (F := Ideal) (m ((c : Thread nD τ).loc main_arg1)) :=
  (st4 m ρ c main_v27 (by decide)).trans (wgt_at1 m ρ c)

theorem src_at8 : W8 m ρ c (Proc.devRef .tc main_v3) = Cert.ReferenceIdeal.Read.val_main_v3 (F := Ideal) (m ((c : Thread nD τ).loc main_arg1)) :=
  (st8 m ρ c main_v3 (by decide)).trans (src_at1 m ρ c)
theorem dst_at8 : W8 m ρ c (Proc.devRef .tc main_v6) = Cert.ReferenceIdeal.Read.val_main_v6 (F := Ideal) (m ((c : Thread nD τ).loc main_arg1)) :=
  (st8 m ρ c main_v6 (by decide)).trans (dst_at1 m ρ c)
theorem wgt_at8 : W8 m ρ c (Proc.devRef .tc main_v27) = Cert.ReferenceIdeal.Read.val_main_v27 (F := Ideal) (m ((c : Thread nD τ).loc main_arg1)) :=
  (st8 m ρ c main_v27 (by decide)).trans (wgt_at1 m ρ c)

theorem src_at12 : W12 m ρ c (Proc.devRef .tc main_v3) = Cert.ReferenceIdeal.Read.val_main_v3 (F := Ideal) (m ((c : Thread nD τ).loc main_arg1)) :=
  (st12 m ρ c main_v3 (by decide)).trans (src_at1 m ρ c)
theorem dst_at12 : W12 m ρ c (Proc.devRef .tc main_v6) = Cert.ReferenceIdeal.Read.val_main_v6 (F := Ideal) (m ((c : Thread nD τ).loc main_arg1)) :=
  (st12 m ρ c main_v6 (by decide)).trans (dst_at1 m ρ c)
theorem wgt_at12 : W12 m ρ c (Proc.devRef .tc main_v27) = Cert.ReferenceIdeal.Read.val_main_v27 (F := Ideal) (m ((c : Thread nD τ).loc main_arg1)) :=
  (st12 m ρ c main_v27 (by decide)).trans (wgt_at1 m ρ c)

/-! ## One layer's weight matrix, sliced out of the stack -/

theorem slab_at3 : W3 m ρ c (Proc.devRef .tc main_v31) = Cert.ReferenceIdeal.Read.val_main_v33 (F := Ideal) (m ((c : Thread nD τ).loc main_arg5)) := by
  show StableHlo.after hostOps1 (W2 m ρ c) (Proc.devRef .tc main_v31) = _
  after_results_simp
  rw [arg_at2 m ρ c main_arg5 (by decide)]
  rfl

theorem slab_at7 : W7 m ρ c (Proc.devRef .tc main_v62) = Cert.ReferenceIdeal.Read.val_main_v78 (F := Ideal) (m ((c : Thread nD τ).loc main_arg5)) := by
  show StableHlo.after hostOps3 (W6 m ρ c) (Proc.devRef .tc main_v62) = _
  after_results_simp
  rw [arg_at6 m ρ c main_arg5 (by decide)]
  rfl

theorem slab_at11 : W11 m ρ c (Proc.devRef .tc main_v93) = Cert.ReferenceIdeal.Read.val_main_v123 (F := Ideal) (m ((c : Thread nD τ).loc main_arg5)) := by
  show StableHlo.after hostOps5 (W10 m ρ c) (Proc.devRef .tc main_v93) = _
  after_results_simp
  rw [arg_at10 m ρ c main_arg5 (by decide)]
  rfl

/-! ## The aggregate over the edges, and one layer's parameter rows -/

/-- Layer 0: the rows of the product X gathered along the edge sources, scaled by the edge weights, added up at
    the edge targets. -/
theorem agg_at5 (X : Mat 200000 256) (hX : W4 m ρ c (Proc.devRef .tc main_v32) = X) :
    W5 m ρ c (Proc.devRef .tc main_v44) =
      Host.scatterAdd Cert.ReferenceIdeal.scatter_S200000x256_S600000x1_S600000x256_1_0_0_1 (Cert.ReferenceIdeal.Read.val_main_v44 (F := Ideal))
        (Cert.ReferenceIdeal.Read.val_main_v45 (F := Ideal) (m ((c : Thread nD τ).loc main_arg1)))
        (mulf (Host.gather Cert.ReferenceIdeal.gather_S200000x256_S600000x1_S600000x256_1_0_n_n_0_1_1256 X (Cert.ReferenceIdeal.Read.val_main_v40 (F := Ideal) (m ((c : Thread nD τ).loc main_arg1))))
          (Cert.ReferenceIdeal.Read.val_main_v42 (F := Ideal) (m ((c : Thread nD τ).loc main_arg1)))) := by
  show StableHlo.after hostOps2 (W4 m ρ c) (Proc.devRef .tc main_v44) = _
  after_results_simp
  rw [hX, src_at4 m ρ c, dst_at4 m ρ c, wgt_at4 m ρ c]
  rfl

theorem row_v55 : W5 m ρ c (Proc.devRef .tc main_v55) = rowOf (0 : Fin 3) (m ((c : Thread nD τ).loc main_arg6)) := by
  show StableHlo.after hostOps2 (W4 m ρ c) (Proc.devRef .tc main_v55) = _
  after_results_simp
  rw [arg_at4 m ρ c main_arg6 (by decide)]
  exact Cert.RowLayout.slice_flatten_row (0 : Fin 3) _ _ _ _

theorem row_v56 : W5 m ρ c (Proc.devRef .tc main_v56) = rowOf (0 : Fin 3) (m ((c : Thread nD τ).loc main_arg7)) := by
  show StableHlo.after hostOps2 (W4 m ρ c) (Proc.devRef .tc main_v56) = _
  after_results_simp
  rw [arg_at4 m ρ c main_arg7 (by decide)]
  exact Cert.RowLayout.slice_flatten_row (0 : Fin 3) _ _ _ _

theorem row_v57 : W5 m ρ c (Proc.devRef .tc main_v57) = rowOf (0 : Fin 3) (m ((c : Thread nD τ).loc main_arg8)) := by
  show StableHlo.after hostOps2 (W4 m ρ c) (Proc.devRef .tc main_v57) = _
  after_results_simp
  rw [arg_at4 m ρ c main_arg8 (by decide)]
  exact Cert.RowLayout.slice_flatten_row (0 : Fin 3) _ _ _ _

theorem row_v58 : W5 m ρ c (Proc.devRef .tc main_v58) = rowOf (0 : Fin 3) (m ((c : Thread nD τ).loc main_arg9)) := by
  show StableHlo.after hostOps2 (W4 m ρ c) (Proc.devRef .tc main_v58) = _
  after_results_simp
  rw [arg_at4 m ρ c main_arg9 (by decide)]
  exact Cert.RowLayout.slice_flatten_row (0 : Fin 3) _ _ _ _

theorem row_v59 : W5 m ρ c (Proc.devRef .tc main_v59) = rowOf (0 : Fin 3) (m ((c : Thread nD τ).loc main_arg10)) := by
  show StableHlo.after hostOps2 (W4 m ρ c) (Proc.devRef .tc main_v59) = _
  after_results_simp
  rw [arg_at4 m ρ c main_arg10 (by decide)]
  exact Cert.RowLayout.slice_flatten_row (0 : Fin 3) _ _ _ _

/-- Layer 1: the rows of the product X gathered along the edge sources, scaled by the edge weights, added up at
    the edge targets. -/
theorem agg_at9 (X : Mat 200000 256) (hX : W8 m ρ c (Proc.devRef .tc main_v63) = X) :
    W9 m ρ c (Proc.devRef .tc main_v75) =
      Host.scatterAdd Cert.ReferenceIdeal.scatter_S200000x256_S600000x1_S600000x256_1_0_0_1 (Cert.ReferenceIdeal.Read.val_main_v89 (F := Ideal))
        (Cert.ReferenceIdeal.Read.val_main_v90 (F := Ideal) (m ((c : Thread nD τ).loc main_arg1)))
        (mulf (Host.gather Cert.ReferenceIdeal.gather_S200000x256_S600000x1_S600000x256_1_0_n_n_0_1_1256 X (Cert.ReferenceIdeal.Read.val_main_v85 (F := Ideal) (m ((c : Thread nD τ).loc main_arg1))))
          (Cert.ReferenceIdeal.Read.val_main_v87 (F := Ideal) (m ((c : Thread nD τ).loc main_arg1)))) := by
  show StableHlo.after hostOps4 (W8 m ρ c) (Proc.devRef .tc main_v75) = _
  after_results_simp
  rw [hX, src_at8 m ρ c, dst_at8 m ρ c, wgt_at8 m ρ c]
  rfl

theorem row_v86 : W9 m ρ c (Proc.devRef .tc main_v86) = rowOf (1 : Fin 3) (m ((c : Thread nD τ).loc main_arg6)) := by
  show StableHlo.after hostOps4 (W8 m ρ c) (Proc.devRef .tc main_v86) = _
  after_results_simp
  rw [arg_at8 m ρ c main_arg6 (by decide)]
  exact Cert.RowLayout.slice_flatten_row (1 : Fin 3) _ _ _ _

theorem row_v87 : W9 m ρ c (Proc.devRef .tc main_v87) = rowOf (1 : Fin 3) (m ((c : Thread nD τ).loc main_arg7)) := by
  show StableHlo.after hostOps4 (W8 m ρ c) (Proc.devRef .tc main_v87) = _
  after_results_simp
  rw [arg_at8 m ρ c main_arg7 (by decide)]
  exact Cert.RowLayout.slice_flatten_row (1 : Fin 3) _ _ _ _

theorem row_v88 : W9 m ρ c (Proc.devRef .tc main_v88) = rowOf (1 : Fin 3) (m ((c : Thread nD τ).loc main_arg8)) := by
  show StableHlo.after hostOps4 (W8 m ρ c) (Proc.devRef .tc main_v88) = _
  after_results_simp
  rw [arg_at8 m ρ c main_arg8 (by decide)]
  exact Cert.RowLayout.slice_flatten_row (1 : Fin 3) _ _ _ _

theorem row_v89 : W9 m ρ c (Proc.devRef .tc main_v89) = rowOf (1 : Fin 3) (m ((c : Thread nD τ).loc main_arg9)) := by
  show StableHlo.after hostOps4 (W8 m ρ c) (Proc.devRef .tc main_v89) = _
  after_results_simp
  rw [arg_at8 m ρ c main_arg9 (by decide)]
  exact Cert.RowLayout.slice_flatten_row (1 : Fin 3) _ _ _ _

theorem row_v90 : W9 m ρ c (Proc.devRef .tc main_v90) = rowOf (1 : Fin 3) (m ((c : Thread nD τ).loc main_arg10)) := by
  show StableHlo.after hostOps4 (W8 m ρ c) (Proc.devRef .tc main_v90) = _
  after_results_simp
  rw [arg_at8 m ρ c main_arg10 (by decide)]
  exact Cert.RowLayout.slice_flatten_row (1 : Fin 3) _ _ _ _

/-- Layer 2: the rows of the product X gathered along the edge sources, scaled by the edge weights, added up at
    the edge targets. -/
theorem agg_at13 (X : Mat 200000 256) (hX : W12 m ρ c (Proc.devRef .tc main_v94) = X) :
    W13 m ρ c (Proc.devRef .tc main_v106) =
      Host.scatterAdd Cert.ReferenceIdeal.scatter_S200000x256_S600000x1_S600000x256_1_0_0_1 (Cert.ReferenceIdeal.Read.val_main_v134 (F := Ideal))
        (Cert.ReferenceIdeal.Read.val_main_v135 (F := Ideal) (m ((c : Thread nD τ).loc main_arg1)))
        (mulf (Host.gather Cert.ReferenceIdeal.gather_S200000x256_S600000x1_S600000x256_1_0_n_n_0_1_1256 X (Cert.ReferenceIdeal.Read.val_main_v130 (F := Ideal) (m ((c : Thread nD τ).loc main_arg1))))
          (Cert.ReferenceIdeal.Read.val_main_v132 (F := Ideal) (m ((c : Thread nD τ).loc main_arg1)))) := by
  show StableHlo.after hostOps6 (W12 m ρ c) (Proc.devRef .tc main_v106) = _
  after_results_simp
  rw [hX, src_at12 m ρ c, dst_at12 m ρ c, wgt_at12 m ρ c]
  rfl

theorem row_v117 : W13 m ρ c (Proc.devRef .tc main_v117) = rowOf (2 : Fin 3) (m ((c : Thread nD τ).loc main_arg6)) := by
  show StableHlo.after hostOps6 (W12 m ρ c) (Proc.devRef .tc main_v117) = _
  after_results_simp
  rw [arg_at12 m ρ c main_arg6 (by decide)]
  exact Cert.RowLayout.slice_flatten_row (2 : Fin 3) _ _ _ _

theorem row_v118 : W13 m ρ c (Proc.devRef .tc main_v118) = rowOf (2 : Fin 3) (m ((c : Thread nD τ).loc main_arg7)) := by
  show StableHlo.after hostOps6 (W12 m ρ c) (Proc.devRef .tc main_v118) = _
  after_results_simp
  rw [arg_at12 m ρ c main_arg7 (by decide)]
  exact Cert.RowLayout.slice_flatten_row (2 : Fin 3) _ _ _ _

theorem row_v119 : W13 m ρ c (Proc.devRef .tc main_v119) = rowOf (2 : Fin 3) (m ((c : Thread nD τ).loc main_arg8)) := by
  show StableHlo.after hostOps6 (W12 m ρ c) (Proc.devRef .tc main_v119) = _
  after_results_simp
  rw [arg_at12 m ρ c main_arg8 (by decide)]
  exact Cert.RowLayout.slice_flatten_row (2 : Fin 3) _ _ _ _

theorem row_v120 : W13 m ρ c (Proc.devRef .tc main_v120) = rowOf (2 : Fin 3) (m ((c : Thread nD τ).loc main_arg9)) := by
  show StableHlo.after hostOps6 (W12 m ρ c) (Proc.devRef .tc main_v120) = _
  after_results_simp
  rw [arg_at12 m ρ c main_arg9 (by decide)]
  exact Cert.RowLayout.slice_flatten_row (2 : Fin 3) _ _ _ _

theorem row_v121 : W13 m ρ c (Proc.devRef .tc main_v121) = rowOf (2 : Fin 3) (m ((c : Thread nD τ).loc main_arg10)) := by
  show StableHlo.after hostOps6 (W12 m ρ c) (Proc.devRef .tc main_v121) = _
  after_results_simp
  rw [arg_at12 m ρ c main_arg10 (by decide)]
  exact Cert.RowLayout.slice_flatten_row (2 : Fin 3) _ _ _ _

/-! ## The pool over the graphs, and the output layer's bias rows -/

/-- The node features X added up per graph and divided by max(count, 1). -/
theorem pool_at15 (X : Mat 200000 256) (hX : W14 m ρ c (Proc.devRef .tc main_v122) = X) :
    W15 m ρ c (Proc.devRef .tc main_v134) =
      Host.divf (Host.scatterAdd Cert.ReferenceIdeal.scatter_S4096x256_S200000x1_S200000x256_1_0_0_1 (Cert.ReferenceIdeal.Read.val_main_v171 (F := Ideal))
        (Cert.ReferenceIdeal.Read.val_main_v172 (F := Ideal) (m ((c : Thread nD τ).loc main_arg2))) X) (Cert.ReferenceIdeal.Read.val_main_v177 (F := Ideal) (m ((c : Thread nD τ).loc main_arg2))) := by
  show StableHlo.after hostOps7 (W14 m ρ c) (Proc.devRef .tc main_v134) = _
  after_results_simp
  rw [hX, arg_at14 m ρ c main_arg2 (by decide)]
  rfl

theorem row_v135 : W15 m ρ c (Proc.devRef .tc main_v135) = row (m ((c : Thread nD τ).loc main_arg12)) := by
  show StableHlo.after hostOps7 (W14 m ρ c) (Proc.devRef .tc main_v135) = _
  after_results_simp
  rw [arg_at14 m ρ c main_arg12 (by decide)]
  exact Cert.RowLayout.reshape_vec_row _ _

theorem row_v136 : W15 m ρ c (Proc.devRef .tc main_v136) = row (m ((c : Thread nD τ).loc main_arg14)) := by
  show StableHlo.after hostOps7 (W14 m ρ c) (Proc.devRef .tc main_v136) = _
  after_results_simp
  rw [arg_at14 m ρ c main_arg14 (by decide)]
  exact Cert.RowLayout.reshape_vec_row _ _

end Cert.KernelIdeal.Whole

end
-- ==== Proof.RegionAffine.lean ====
/-
  The first region of the kernel program: a linear layer with bias.  A grid point t reads rows 4000 t … 4000 t + 3999 of
  the [200000, 128] input, the whole [128, 256] weight matrix and the whole bias row, and writes the same rows of the
  [200000, 256] output: entry (p, j) of its block is  Σ_q x[p,q] · w[q,j] + b[0,j].  A row of the result depends only on
  the same row of the input, so the 50 blocks written back are the 50 row blocks of the affine image of the whole input.
-/
import proofs.«119171_j86912958202425_1_alg».proof.Proof.Gen.KernelIdeal.Frame
import proofs.«119171_j86912958202425_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.Layers

/-- A whole-block access starts at the origin. -/
theorem origin0 : (![0, 0] : Fin 2 → Nat) = fun _ => 0 := funext fun a => by fin_cases a <;> rfl

theorem dot128_apply_lhs0 (i : S4000x256.Idx) (c : dot_S4000x128_S128x256_S4000x256_1_0_0_1_n_n.contr.Idx) : (dot_S4000x128_S128x256_S4000x256_1_0_0_1_n_n.lhsIdx i c 0).val = (i 0).val := by
  unfold DotDims.lhsIdx
  rw [dif_neg (show ¬(0 : Fin S4000x128.rank) ∈ dot_S4000x128_S128x256_S4000x256_1_0_0_1_n_n.lhsBatch by decide), dif_pos (show (0 : Fin S4000x128.rank) ∈ dot_S4000x128_S128x256_S4000x256_1_0_0_1_n_n.lhsNonContracting by decide)]
  rfl
theorem dot128_apply_lhs1 (i : S4000x256.Idx) (c : dot_S4000x128_S128x256_S4000x256_1_0_0_1_n_n.contr.Idx) : (dot_S4000x128_S128x256_S4000x256_1_0_0_1_n_n.lhsIdx i c 1).val = (c ⟨0, by decide⟩).val :=
  dot_S4000x128_S128x256_S4000x256_1_0_0_1_n_n.lhsIdx_val_of_single rfl i c
theorem dot128_apply_rhs0 (i : S4000x256.Idx) (c : dot_S4000x128_S128x256_S4000x256_1_0_0_1_n_n.contr.Idx) : (dot_S4000x128_S128x256_S4000x256_1_0_0_1_n_n.rhsIdx i c 0).val = (c ⟨0, by decide⟩).val :=
  dot_S4000x128_S128x256_S4000x256_1_0_0_1_n_n.rhsIdx_val_of_single rfl i c
theorem dot128_apply_rhs1 (i : S4000x256.Idx) (c : dot_S4000x128_S128x256_S4000x256_1_0_0_1_n_n.contr.Idx) : (dot_S4000x128_S128x256_S4000x256_1_0_0_1_n_n.rhsIdx i c 1).val = (i 1).val := by
  unfold DotDims.rhsIdx
  rw [dif_neg (show ¬(1 : Fin S128x256.rank) ∈ dot_S4000x128_S128x256_S4000x256_1_0_0_1_n_n.rhsBatch by decide), dif_pos (show (1 : Fin S128x256.rank) ∈ dot_S4000x128_S128x256_S4000x256_1_0_0_1_n_n.rhsNonContracting by decide)]
  rfl

/-- A 4000 × 128 block times a 128 × 256 matrix accumulated from zero, at an entry: the sum over the shared axis. -/
theorem dot128_apply (x : FVec Ideal S4000x128 .f32) (w : FVec Ideal S128x256 .f32) (p : Fin 4000) (q : Fin 256) :
    matmul dot_S4000x128_S128x256_S4000x256_1_0_0_1_n_n none x w (constant (F := Ideal) S4000x256 .f32 0x00000000#32) (ix2 p q)
      = ∑ k : Fin 128, x (ix2 p k) * w (ix2 k q) := by
  refine (Ideal.matmul_constant_zero_apply dot_S4000x128_S128x256_S4000x256_1_0_0_1_n_n none x w (ix2 p q)).trans ?_
  rw [← Equiv.sum_comp (contrEquiv1 dot_S4000x128_S128x256_S4000x256_1_0_0_1_n_n 128 rfl rfl).symm]
  refine Finset.sum_congr rfl fun k _ => ?_
  have hk := contrEquiv1_symm_val dot_S4000x128_S128x256_S4000x256_1_0_0_1_n_n 128 rfl rfl k
  have el : dot_S4000x128_S128x256_S4000x256_1_0_0_1_n_n.lhsIdx (ix2 p q) ((contrEquiv1 dot_S4000x128_S128x256_S4000x256_1_0_0_1_n_n 128 rfl rfl).symm k) = ix2 p k := funext fun a => Fin.ext (by
    match a with
    | ⟨0, _⟩ => exact dot128_apply_lhs0 _ _
    | ⟨1, _⟩ => exact (dot128_apply_lhs1 _ _).trans hk)
  have er : dot_S4000x128_S128x256_S4000x256_1_0_0_1_n_n.rhsIdx (ix2 p q) ((contrEquiv1 dot_S4000x128_S128x256_S4000x256_1_0_0_1_n_n 128 rfl rfl).symm k) = ix2 k q := funext fun a => Fin.ext (by
    match a with
    | ⟨0, _⟩ => exact (dot128_apply_rhs0 _ _).trans hk
    | ⟨1, _⟩ => exact dot128_apply_rhs1 _ _)
  rw [el, er]

/-- The body's arithmetic at an entry: the block of 4000 rows times the weight matrix, plus the bias row. -/
theorem pay0_apply (x0 : Vec Ideal S4000x128 .f32) (x1 : Vec Ideal S128x256 .f32) (x2 : Vec Ideal S1x256 .f32) (p : Fin 4000) (q : Fin 256) :
    k0_pay1 (F := Ideal) x0 x1 x2 (ix2 p q) = (∑ k : Fin 128, x0 (ix2 p k) * x1 (ix2 k q)) + x2 (ix2 (0 : Fin 1) q) := by
  unfold k0_pay1
  simp only [shapeCast_self]
  show matmul dot_S4000x128_S128x256_S4000x256_1_0_0_1_n_n none x0 x1 (constant (F := Ideal) S4000x256 .f32 0x00000000#32) (ix2 p q)
      + broadcastTo S4000x256 x2 broadcasts_S1x256_S4000x256 (ix2 p q) = _
  rw [dot128_apply, broadcastTo_1b_ab_apply]

/-- Row block `b` of the affine image `A · W + B` is the body's result on row block `b` of `A`, the whole of `W` and
    the bias row `B`, entry by entry. -/
theorem pay0_rows (A : Mat 200000 128) (W : Mat 128 256) (B : Mat 1 256)
    (x0 : Vec Ideal S4000x128 .f32) (x1 : Vec Ideal S128x256 .f32) (x2 : Vec Ideal S1x256 .f32)
    (b : Nat) (hb : b < 50)
    (h0 : ∀ (p : Fin 4000) (k : Fin 128), x0 (ix2 p k) = A (ix2 (⟨b * 4000 + p.val, by omega⟩ : Fin 200000) k))
    (h1 : ∀ (k : Fin 128) (q : Fin 256), x1 (ix2 k q) = W (ix2 k q))
    (h2 : ∀ (q : Fin 256), x2 (ix2 (0 : Fin 1) q) = B (ix2 (0 : Fin 1) q)) (p : Fin 4000) (q : Fin 256) :
    k0_pay1 (F := Ideal) x0 x1 x2 (ix2 p q) = affine A W B (ix2 (⟨b * 4000 + p.val, by omega⟩ : Fin 200000) q) := by
  rw [pay0_apply, h2 q]
  show _ = (∑ k : Fin 128, A (ix2 (⟨b * 4000 + p.val, by omega⟩ : Fin 200000) k) * W (ix2 k q)) + B (ix2 (0 : Fin 1) q)
  exact congrArg (· + B (ix2 (0 : Fin 1) q)) (Finset.sum_congr rfl fun k _ => by rw [h0 p k, h1 k q])

/-- The index maps over the grid: the input and output row blocks move together, one block of 4000 rows per point;
    the weight matrix and the bias row are whole at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- What point `t` writes back is block `t` of the affine image of the three arrays the region finds. -/
theorem flushed0 (c : Dev nD) (t : Fin cfg0.N) :
    (dat0 (F := Ideal) V c).flushed 3 t = ((cfg0.win 3).blk t).view.read (Elt Ideal)
      (affine (n := 200000) (k := 128) (d := 256) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero origin0]
  simp only [View.ld_unit_zero (S := S4000x128) origin0, View.ld_unit_zero (S := S128x256) origin0, View.ld_unit_zero (S := S1x256) origin0]
  obtain ⟨e00, e01, e10, e11, e20, e21, e30, e31⟩ := idx_facts0 t
  have ht : t.val < 50 := t.isLt.trans_eq N_0
  funext j
  obtain ⟨p, q, rfl⟩ : ∃ (p : Fin 4000) (q : Fin 256), j = ix2 p q := ⟨j 0, j 1, eq_ix2 j⟩
  have hemb : ((cfg0.win 3).blk t).view.emb (ix2 p q) = ix2 (⟨t.val * 4000 + p.val, by omega⟩ : Fin 200000) q := by
    funext a; apply Fin.ext
    match a with
    | ⟨0, _⟩ => show win0_3.index t (0 : Fin 2) * 4000 + 1 * p.val = t.val * 4000 + p.val; omega
    | ⟨1, _⟩ => show win0_3.index t (1 : Fin 2) * 256 + 1 * q.val = q.val; omega
  show k0_pay1 (F := Ideal) (iblk0 V c 0 t) (iblk0 V c 1 t) (iblk0 V c 2 t) (ix2 p q)
    = affine (n := 200000) (k := 128) (d := 256) (V c (Pipeline.arrRef spec0 0)) (V c (Pipeline.arrRef spec0 1)) (V c (Pipeline.arrRef spec0 2)) (((cfg0.win 3).blk t).view.emb (ix2 p q))
  rw [hemb]
  refine pay0_rows (V c (Pipeline.arrRef spec0 0)) (V c (Pipeline.arrRef spec0 1)) (V c (Pipeline.arrRef spec0 2))
    (iblk0 V c 0 t) (iblk0 V c 1 t) (iblk0 V c 2 t) t.val ht ?_ ?_ ?_ p q
  · intro p k
    show V c (Pipeline.arrRef spec0 0) (((cfg0.win 0).blk t).view.emb (ix2 p k)) = _
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 128 + 1 * k.val = k.val; omega
  · intro k q
    show V c (Pipeline.arrRef spec0 1) (((cfg0.win 1).blk t).view.emb (ix2 k q)) = _
    refine congrArg _ (funext fun a => Fin.ext ?_)
    match a with
    | ⟨0, _⟩ => show win0_1.index t (0 : Fin 2) * 128 + 1 * k.val = k.val; omega
    | ⟨1, _⟩ => show win0_1.index t (1 : Fin 2) * 256 + 1 * q.val = q.val; omega
  · intro q
    show V c (Pipeline.arrRef spec0 2) (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * q.val = q.val; omega

/-- An entry of the output array lies in point `t`'s block iff its row is among the block's 4000 rows. -/
theorem mem_blk0 (t : Fin cfg0.N) (i : S200000x256.Idx) :
    i ∈ ((cfg0.win 3).blk t).view.set ↔ ∀ a : Fin 2, win0_3.index t a * S4000x256.size a ≤ (i a).val ∧ (i a).val < win0_3.index t a * S4000x256.size a + S4000x256.size a := by
  show i ∈ ((View.whole main_v29).slice (win0_3.rect t)).set ↔ _
  rw [View.set_slice_whole, Rect.mem_set_unit]
  exact Iff.rfl

/-- Row `r` is written back by point `r / 4000`. -/
theorem cover0 (i : S200000x256.Idx) : ∃ t : Fin cfg0.N, (cfg0.win 3).flush t = true ∧ i ∈ ((cfg0.win 3).blk t).view.set := by
  have hi0 : (i 0).val < 200000 := (i 0).isLt
  have hi1 : (i 1).val < 256 := (i 1).isLt
  have hN : cfg0.N = 50 := N_0
  obtain ⟨t, htv⟩ : ∃ t : Fin cfg0.N, t.val = (i 0).val / 4000 := ⟨⟨(i 0).val / 4000, by rw [hN]; omega⟩, rfl⟩
  obtain ⟨-, -, -, -, -, -, e30, e31⟩ := idx_facts0 t
  refine ⟨t, flush0_3 t, ?_⟩
  rw [mem_blk0]
  intro a
  match a with
  | ⟨0, _⟩ => show win0_3.index t (0 : Fin 2) * 4000 ≤ (i 0).val ∧ (i 0).val < win0_3.index t (0 : Fin 2) * 4000 + 4000; omega
  | ⟨1, _⟩ => show win0_3.index t (1 : Fin 2) * 256 ≤ (i 1).val ∧ (i 1).val < win0_3.index t (1 : Fin 2) * 256 + 256; omega

/-- The output array after region 0: the affine image of the input array under the weight matrix and the bias row, all
    three as the region finds them on entry. -/
theorem region0_array (c : Dev nD) :
    (dat0 (F := Ideal) V c).arrAt 3 cfg0.N
      = affine (n := 200000) (k := 128) (d := 256) (V c (Pipeline.arrRef spec0 0)) (V c (Pipeline.arrRef spec0 1)) (V c (Pipeline.arrRef spec0 2)) :=
  (dat0 (F := Ideal) V c).arrAt_eq_of_cover 3 _ (fun t _ => flushed0 V c t) cover0

end

end Cert.KernelIdeal.Regions

end
-- ==== Proof.RegionMatProd.lean ====
/-
  The three matrix-product regions of the kernel program.  Each multiplies an array of 200000 rows by a 256 × 256 weight
  matrix, 4000 rows per grid point: a point reads rows 4000 t … 4000 t + 3999 of the first array and the whole of the
  second, and writes the same rows of the output.  Since row r of a product depends only on row r of the first factor,
  the 50 blocks written back are the 50 row blocks of the product of the two whole arrays, and together they are all of it.
-/
import proofs.«119171_j86912958202425_1_alg».proof.Proof.Gen.KernelIdeal.Frame
import proofs.«119171_j86912958202425_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.Layers

/-- A whole-block access starts at the origin. -/
theorem origin1 : (![0, 0] : Fin 2 → Nat) = fun _ => 0 := funext fun a => by fin_cases a <;> rfl

theorem dot256_apply_lhs0 (i : S4000x256.Idx) (c : dot_S4000x256_S256x256_S4000x256_1_0_0_1_n_n.contr.Idx) : (dot_S4000x256_S256x256_S4000x256_1_0_0_1_n_n.lhsIdx i c 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem dot256_apply_lhs1 (i : S4000x256.Idx) (c : dot_S4000x256_S256x256_S4000x256_1_0_0_1_n_n.contr.Idx) : (dot_S4000x256_S256x256_S4000x256_1_0_0_1_n_n.lhsIdx i c 1).val = (c ⟨0, by decide⟩).val :=
  dot_S4000x256_S256x256_S4000x256_1_0_0_1_n_n.lhsIdx_val_of_single rfl i c
theorem dot256_apply_rhs0 (i : S4000x256.Idx) (c : dot_S4000x256_S256x256_S4000x256_1_0_0_1_n_n.contr.Idx) : (dot_S4000x256_S256x256_S4000x256_1_0_0_1_n_n.rhsIdx i c 0).val = (c ⟨0, by decide⟩).val :=
  dot_S4000x256_S256x256_S4000x256_1_0_0_1_n_n.rhsIdx_val_of_single rfl i c
theorem dot256_apply_rhs1 (i : S4000x256.Idx) (c : dot_S4000x256_S256x256_S4000x256_1_0_0_1_n_n.contr.Idx) : (dot_S4000x256_S256x256_S4000x256_1_0_0_1_n_n.rhsIdx i c 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- A 4000 × 256 block times a 256 × 256 matrix accumulated from zero, at an entry: the sum over the shared axis. -/
theorem dot256_apply (x : FVec Ideal S4000x256 .f32) (w : FVec Ideal S256x256 .f32) (p : Fin 4000) (q : Fin 256) :
    matmul dot_S4000x256_S256x256_S4000x256_1_0_0_1_n_n none x w (constant (F := Ideal) S4000x256 .f32 0x00000000#32) (ix2 p q)
      = ∑ k : Fin 256, x (ix2 p k) * w (ix2 k q) := by
  refine (Ideal.matmul_constant_zero_apply dot_S4000x256_S256x256_S4000x256_1_0_0_1_n_n none x w (ix2 p q)).trans ?_
  rw [← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p q) ((contrEquiv1 dot_S4000x256_S256x256_S4000x256_1_0_0_1_n_n 256 rfl rfl).symm k) = ix2 p k := funext fun a => Fin.ext (by
    match a with
    | ⟨0, _⟩ => exact dot256_apply_lhs0 _ _
    | ⟨1, _⟩ => exact (dot256_apply_lhs1 _ _).trans hk)
  have er : dot_S4000x256_S256x256_S4000x256_1_0_0_1_n_n.rhsIdx (ix2 p q) ((contrEquiv1 dot_S4000x256_S256x256_S4000x256_1_0_0_1_n_n 256 rfl rfl).symm k) = ix2 k q := funext fun a => Fin.ext (by
    match a with
    | ⟨0, _⟩ => exact (dot256_apply_rhs0 _ _).trans hk
    | ⟨1, _⟩ => exact dot256_apply_rhs1 _ _)
  rw [el, er]

/-! ## Region 1: a matrix product, row block by row block -/

/-- The body's arithmetic at an entry: the block of 4000 rows times the weight matrix, accumulated from zero. -/
theorem pay1_apply (x0 : Vec Ideal S4000x256 .f32) (x1 : Vec Ideal S256x256 .f32) (p : Fin 4000) (q : Fin 256) :
    k1_pay1 (F := Ideal) x0 x1 (ix2 p q) = ∑ k : Fin 256, x0 (ix2 p k) * x1 (ix2 k q) := by
  unfold k1_pay1
  simp only [shapeCast_self]
  exact dot256_apply x0 x1 p q

/-- Row block `b` of a product `A · W` is (row block `b` of `A`) `· W`: the body's result on a block whose rows are rows
    `4000 b …` of `A` and whose second operand is `W`, entry by entry. -/
theorem pay1_rows (A : Mat 200000 256) (W : Mat 256 256) (x0 : Vec Ideal S4000x256 .f32) (x1 : Vec Ideal S256x256 .f32)
    (b : Nat) (hb : b < 50)
    (h0 : ∀ (p : Fin 4000) (k : Fin 256), x0 (ix2 p k) = A (ix2 (⟨b * 4000 + p.val, by omega⟩ : Fin 200000) k))
    (h1 : ∀ (k q : Fin 256), x1 (ix2 k q) = W (ix2 k q)) (p : Fin 4000) (q : Fin 256) :
    k1_pay1 (F := Ideal) x0 x1 (ix2 p q) = matProd A W (ix2 (⟨b * 4000 + p.val, by omega⟩ : Fin 200000) q) := by
  rw [pay1_apply]
  show _ = ∑ k : Fin 256, A (ix2 (⟨b * 4000 + p.val, by omega⟩ : Fin 200000) k) * W (ix2 k q)
  exact Finset.sum_congr rfl fun k _ => by rw [h0 p k, h1 k q]

/-- The index maps over the grid: the input and output row blocks move together, one block of 4000 rows per point;
    the weight matrix is whole at every point. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point `t` writes back is block `t` of the product of the two arrays the region finds. -/
theorem flushed1 (c : Dev nD) (t : Fin cfg1.N) :
    (dat1 (F := Ideal) V c).flushed 2 t = ((cfg1.win 2).blk t).view.read (Elt Ideal)
      (matProd (n := 200000) (k := 256) (d := 256) (V c (Pipeline.arrRef spec1 0)) (V c (Pipeline.arrRef spec1 1))) := by
  show (cfg1.win 2).cut (grid1.coords t) ((dat1 V c).after 2 t) = _
  rw [after1_2]
  unfold out1_2
  rw [View.canon_unit_zero origin1]
  simp only [View.ld_unit_zero (S := S4000x256) origin1, View.ld_unit_zero (S := S256x256) origin1]
  obtain ⟨e0, e1, e2, e3, e4, e5⟩ := idx_facts1 t
  have ht : t.val < 50 := t.isLt.trans_eq N_1
  funext j
  obtain ⟨p, q, rfl⟩ : ∃ (p : Fin 4000) (q : Fin 256), j = ix2 p q := ⟨j 0, j 1, eq_ix2 j⟩
  have hemb : ((cfg1.win 2).blk t).view.emb (ix2 p q) = ix2 (⟨t.val * 4000 + p.val, by omega⟩ : Fin 200000) q := by
    funext a; apply Fin.ext
    match a with
    | ⟨0, _⟩ => show win1_2.index t (0 : Fin 2) * 4000 + 1 * p.val = t.val * 4000 + p.val; omega
    | ⟨1, _⟩ => show win1_2.index t (1 : Fin 2) * 256 + 1 * q.val = q.val; omega
  show k1_pay1 (F := Ideal) (iblk1 V c 0 t) (iblk1 V c 1 t) (ix2 p q)
    = matProd (n := 200000) (k := 256) (d := 256) (V c (Pipeline.arrRef spec1 0)) (V c (Pipeline.arrRef spec1 1)) (((cfg1.win 2).blk t).view.emb (ix2 p q))
  rw [hemb]
  refine pay1_rows (V c (Pipeline.arrRef spec1 0)) (V c (Pipeline.arrRef spec1 1)) (iblk1 V c 0 t) (iblk1 V c 1 t) t.val ht ?_ ?_ p q
  · intro p k
    show V c (Pipeline.arrRef spec1 0) (((cfg1.win 0).blk t).view.emb (ix2 p k)) = _
    refine congrArg _ (funext fun a => Fin.ext ?_)
    match a with
    | ⟨0, _⟩ => show win1_0.index t (0 : Fin 2) * 4000 + 1 * p.val = t.val * 4000 + p.val; omega
    | ⟨1, _⟩ => show win1_0.index t (1 : Fin 2) * 256 + 1 * k.val = k.val; omega
  · intro k q
    show V c (Pipeline.arrRef spec1 1) (((cfg1.win 1).blk t).view.emb (ix2 k q)) = _
    refine congrArg _ (funext fun a => Fin.ext ?_)
    match a with
    | ⟨0, _⟩ => show win1_1.index t (0 : Fin 2) * 256 + 1 * k.val = k.val; omega
    | ⟨1, _⟩ => show win1_1.index t (1 : Fin 2) * 256 + 1 * q.val = q.val; omega

/-- An entry of the output array lies in point `t`'s block iff its row is among the block's 4000 rows. -/
theorem mem_blk1 (t : Fin cfg1.N) (i : S200000x256.Idx) :
    i ∈ ((cfg1.win 2).blk t).view.set ↔ ∀ a : Fin 2, win1_2.index t a * S4000x256.size a ≤ (i a).val ∧ (i a).val < win1_2.index t a * S4000x256.size a + S4000x256.size a := by
  show i ∈ ((View.whole main_v32).slice (win1_2.rect t)).set ↔ _
  rw [View.set_slice_whole, Rect.mem_set_unit]
  exact Iff.rfl

/-- Row `r` is written back by point `r / 4000`. -/
theorem cover1 (i : S200000x256.Idx) : ∃ t : Fin cfg1.N, (cfg1.win 2).flush t = true ∧ i ∈ ((cfg1.win 2).blk t).view.set := by
  have hi0 : (i 0).val < 200000 := (i 0).isLt
  have hi1 : (i 1).val < 256 := (i 1).isLt
  have hN : cfg1.N = 50 := N_1
  obtain ⟨t, htv⟩ : ∃ t : Fin cfg1.N, t.val = (i 0).val / 4000 := ⟨⟨(i 0).val / 4000, by rw [hN]; omega⟩, rfl⟩
  obtain ⟨-, -, -, -, e4, e5⟩ := idx_facts1 t
  refine ⟨t, flush1_2 t, ?_⟩
  rw [mem_blk1]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 256 ≤ (i 1).val ∧ (i 1).val < win1_2.index t (1 : Fin 2) * 256 + 256; omega

/-- The output array after region 1: the matrix product of the two arrays the region finds on entry. -/
theorem region1_array (c : Dev nD) :
    (dat1 (F := Ideal) V c).arrAt 2 cfg1.N
      = matProd (n := 200000) (k := 256) (d := 256) (V c (Pipeline.arrRef spec1 0)) (V c (Pipeline.arrRef spec1 1)) :=
  (dat1 (F := Ideal) V c).arrAt_eq_of_cover 2 _ (fun t _ => flushed1 V c t) cover1

end

end Cert.KernelIdeal.Regions

end
-- ==== Proof.RegionMatProd3.lean ====
/-
  The second matrix-product region of the kernel program.  It multiplies an array of 200000 rows by a 256 × 256
  weight matrix, 4000 rows per grid point: a point reads rows 4000 t … 4000 t + 3999 of the first array and the whole of
  the second, and writes the same rows of the output.  Since row r of a product depends only on row r of the first
  factor, the 50 blocks written back are the 50 row blocks of the product of the two whole arrays, and together they
  are all of it.
-/
import proofs.«119171_j86912958202425_1_alg».proof.Proof.Gen.KernelIdeal.Frame
import proofs.«119171_j86912958202425_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.Layers

/-- A whole-block access starts at the origin. -/
theorem origin3 : (![0, 0] : Fin 2 → Nat) = fun _ => 0 := funext fun a => by fin_cases a <;> rfl

theorem dot256_3_apply_lhs0 (i : S4000x256.Idx) (c : dot_S4000x256_S256x256_S4000x256_1_0_0_1_n_n.contr.Idx) : (dot_S4000x256_S256x256_S4000x256_1_0_0_1_n_n.lhsIdx i c 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem dot256_3_apply_lhs1 (i : S4000x256.Idx) (c : dot_S4000x256_S256x256_S4000x256_1_0_0_1_n_n.contr.Idx) : (dot_S4000x256_S256x256_S4000x256_1_0_0_1_n_n.lhsIdx i c 1).val = (c ⟨0, by decide⟩).val :=
  dot_S4000x256_S256x256_S4000x256_1_0_0_1_n_n.lhsIdx_val_of_single rfl i c
theorem dot256_3_apply_rhs0 (i : S4000x256.Idx) (c : dot_S4000x256_S256x256_S4000x256_1_0_0_1_n_n.contr.Idx) : (dot_S4000x256_S256x256_S4000x256_1_0_0_1_n_n.rhsIdx i c 0).val = (c ⟨0, by decide⟩).val :=
  dot_S4000x256_S256x256_S4000x256_1_0_0_1_n_n.rhsIdx_val_of_single rfl i c
theorem dot256_3_apply_rhs1 (i : S4000x256.Idx) (c : dot_S4000x256_S256x256_S4000x256_1_0_0_1_n_n.contr.Idx) : (dot_S4000x256_S256x256_S4000x256_1_0_0_1_n_n.rhsIdx i c 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- A 4000 × 256 block times a 256 × 256 matrix accumulated from zero, at an entry: the sum over the shared axis. -/
theorem dot256_3_apply (x : FVec Ideal S4000x256 .f32) (w : FVec Ideal S256x256 .f32) (p : Fin 4000) (q : Fin 256) :
    matmul dot_S4000x256_S256x256_S4000x256_1_0_0_1_n_n none x w (constant (F := Ideal) S4000x256 .f32 0x00000000#32) (ix2 p q)
      = ∑ k : Fin 256, x (ix2 p k) * w (ix2 k q) := by
  refine (Ideal.matmul_constant_zero_apply dot_S4000x256_S256x256_S4000x256_1_0_0_1_n_n none x w (ix2 p q)).trans ?_
  rw [← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p q) ((contrEquiv1 dot_S4000x256_S256x256_S4000x256_1_0_0_1_n_n 256 rfl rfl).symm k) = ix2 p k := funext fun a => Fin.ext (by
    match a with
    | ⟨0, _⟩ => exact dot256_3_apply_lhs0 _ _
    | ⟨1, _⟩ => exact (dot256_3_apply_lhs1 _ _).trans hk)
  have er : dot_S4000x256_S256x256_S4000x256_1_0_0_1_n_n.rhsIdx (ix2 p q) ((contrEquiv1 dot_S4000x256_S256x256_S4000x256_1_0_0_1_n_n 256 rfl rfl).symm k) = ix2 k q := funext fun a => Fin.ext (by
    match a with
    | ⟨0, _⟩ => exact (dot256_3_apply_rhs0 _ _).trans hk
    | ⟨1, _⟩ => exact dot256_3_apply_rhs1 _ _)
  rw [el, er]

/-! ## Region 3: a matrix product, row block by row block -/

/-- The body's arithmetic at an entry: the block of 4000 rows times the weight matrix, accumulated from zero. -/
theorem pay3_apply (x0 : Vec Ideal S4000x256 .f32) (x1 : Vec Ideal S256x256 .f32) (p : Fin 4000) (q : Fin 256) :
    k3_pay1 (F := Ideal) x0 x1 (ix2 p q) = ∑ k : Fin 256, x0 (ix2 p k) * x1 (ix2 k q) := by
  unfold k3_pay1
  simp only [shapeCast_self]
  exact dot256_3_apply x0 x1 p q

/-- Row block `b` of a product `A · W` is (row block `b` of `A`) `· W`: the body's result on a block whose rows are rows
    `4000 b …` of `A` and whose second operand is `W`, entry by entry. -/
theorem pay3_rows (A : Mat 200000 256) (W : Mat 256 256) (x0 : Vec Ideal S4000x256 .f32) (x1 : Vec Ideal S256x256 .f32)
    (b : Nat) (hb : b < 50)
    (h0 : ∀ (p : Fin 4000) (k : Fin 256), x0 (ix2 p k) = A (ix2 (⟨b * 4000 + p.val, by omega⟩ : Fin 200000) k))
    (h1 : ∀ (k q : Fin 256), x1 (ix2 k q) = W (ix2 k q)) (p : Fin 4000) (q : Fin 256) :
    k3_pay1 (F := Ideal) x0 x1 (ix2 p q) = matProd A W (ix2 (⟨b * 4000 + p.val, by omega⟩ : Fin 200000) q) := by
  rw [pay3_apply]
  show _ = ∑ k : Fin 256, A (ix2 (⟨b * 4000 + p.val, by omega⟩ : Fin 200000) k) * W (ix2 k q)
  exact Finset.sum_congr rfl fun k _ => by rw [h0 p k, h1 k q]

/-- The index maps over the grid: the input and output row blocks move together, one block of 4000 rows per point;
    the weight matrix is whole at every point. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- Point `t`'s block of the first array is rows 4000 t … 4000 t + 3999 of that array. -/
theorem blk3_0 (c : Dev nD) (t : Fin cfg3.N) (ht : t.val < 50) (p : Fin 4000) (k : Fin 256) :
    iblk3 V c 0 t (ix2 p k) = V c (Pipeline.arrRef spec3 0) (ix2 (⟨t.val * 4000 + p.val, by omega⟩ : Fin 200000) k) := by
  obtain ⟨e0, e1, -⟩ := idx_facts3 t
  show V c (Pipeline.arrRef spec3 0) (((cfg3.win 0).blk t).view.emb (ix2 p k)) = _
  refine congrArg _ (funext fun a => Fin.ext ?_)
  match a with
  | ⟨0, _⟩ => show win3_0.index t (0 : Fin 2) * 4000 + 1 * p.val = t.val * 4000 + p.val; omega
  | ⟨1, _⟩ => show win3_0.index t (1 : Fin 2) * 256 + 1 * k.val = k.val; omega

/-- The weight matrix is whole at every point: its block read at an entry is the array at that entry. -/
theorem blk3_1 (c : Dev nD) (t : Fin cfg3.N) (k q : Fin 256) :
    iblk3 V c 1 t (ix2 k q) = V c (Pipeline.arrRef spec3 1) (ix2 k q) := by
  obtain ⟨-, -, e0, e1, -⟩ := idx_facts3 t
  show V c (Pipeline.arrRef spec3 1) (((cfg3.win 1).blk t).view.emb (ix2 k q)) = _
  refine congrArg _ (funext fun a => Fin.ext ?_)
  match a with
  | ⟨0, _⟩ => show win3_1.index t (0 : Fin 2) * 256 + 1 * k.val = k.val; omega
  | ⟨1, _⟩ => show win3_1.index t (1 : Fin 2) * 256 + 1 * q.val = q.val; omega

/-- Entry (p, q) of point `t`'s output block is entry (4000 t + p, q) of the output array. -/
theorem emb3_2 (t : Fin cfg3.N) (ht : t.val < 50) (p : Fin 4000) (q : Fin 256) :
    ((cfg3.win 2).blk t).view.emb (ix2 p q) = ix2 (⟨t.val * 4000 + p.val, by omega⟩ : Fin 200000) q := by
  obtain ⟨-, -, -, -, e0, e1⟩ := idx_facts3 t
  funext a; apply Fin.ext
  match a with
  | ⟨0, _⟩ => show win3_2.index t (0 : Fin 2) * 4000 + 1 * p.val = t.val * 4000 + p.val; omega
  | ⟨1, _⟩ => show win3_2.index t (1 : Fin 2) * 256 + 1 * q.val = q.val; omega

/-- What point `t` writes back is block `t` of the product of the two arrays the region finds. -/
theorem flushed3 (c : Dev nD) (t : Fin cfg3.N) :
    (dat3 (F := Ideal) V c).flushed 2 t = ((cfg3.win 2).blk t).view.read (Elt Ideal)
      (matProd (n := 200000) (k := 256) (d := 256) (V c (Pipeline.arrRef spec3 0)) (V c (Pipeline.arrRef spec3 1))) := by
  show (cfg3.win 2).cut (grid3.coords t) ((dat3 V c).after 2 t) = _
  rw [after3_2]
  unfold out3_2
  rw [View.canon_unit_zero origin3]
  simp only [View.ld_unit_zero (S := S4000x256) origin3, View.ld_unit_zero (S := S256x256) origin3]
  have ht : t.val < 50 := t.isLt.trans_eq N_3
  funext j
  obtain ⟨p, q, rfl⟩ : ∃ (p : Fin 4000) (q : Fin 256), j = ix2 p q := ⟨j 0, j 1, eq_ix2 j⟩
  show k3_pay1 (F := Ideal) (iblk3 V c 0 t) (iblk3 V c 1 t) (ix2 p q)
    = matProd (n := 200000) (k := 256) (d := 256) (V c (Pipeline.arrRef spec3 0)) (V c (Pipeline.arrRef spec3 1)) (((cfg3.win 2).blk t).view.emb (ix2 p q))
  rw [emb3_2 t ht p q]
  exact pay3_rows (V c (Pipeline.arrRef spec3 0)) (V c (Pipeline.arrRef spec3 1)) (iblk3 V c 0 t) (iblk3 V c 1 t) t.val ht
    (fun p k => blk3_0 V c t ht p k) (fun k q => blk3_1 V c t k q) p q

/-- An entry of the output array lies in point `t`'s block iff its row is among the block's 4000 rows. -/
theorem mem_blk3 (t : Fin cfg3.N) (i : S200000x256.Idx) :
    i ∈ ((cfg3.win 2).blk t).view.set ↔ ∀ a : Fin 2, win3_2.index t a * S4000x256.size a ≤ (i a).val ∧ (i a).val < win3_2.index t a * S4000x256.size a + S4000x256.size a := by
  show i ∈ ((View.whole main_v63).slice (win3_2.rect t)).set ↔ _
  rw [View.set_slice_whole, Rect.mem_set_unit]
  exact Iff.rfl

/-- Row `r` is written back by point `r / 4000`. -/
theorem cover3 (i : S200000x256.Idx) : ∃ t : Fin cfg3.N, (cfg3.win 2).flush t = true ∧ i ∈ ((cfg3.win 2).blk t).view.set := by
  have hi0 : (i 0).val < 200000 := (i 0).isLt
  have hi1 : (i 1).val < 256 := (i 1).isLt
  have hN : cfg3.N = 50 := N_3
  obtain ⟨t, htv⟩ : ∃ t : Fin cfg3.N, t.val = (i 0).val / 4000 := ⟨⟨(i 0).val / 4000, by rw [hN]; omega⟩, rfl⟩
  obtain ⟨-, -, -, -, e4, e5⟩ := idx_facts3 t
  refine ⟨t, flush3_2 t, ?_⟩
  rw [mem_blk3]
  intro a
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 256 ≤ (i 1).val ∧ (i 1).val < win3_2.index t (1 : Fin 2) * 256 + 256; omega

/-- The output array after region 3: the matrix product of the two arrays the region finds on entry. -/
theorem region3_array (c : Dev nD) :
    (dat3 (F := Ideal) V c).arrAt 2 cfg3.N
      = matProd (n := 200000) (k := 256) (d := 256) (V c (Pipeline.arrRef spec3 0)) (V c (Pipeline.arrRef spec3 1)) :=
  (dat3 (F := Ideal) V c).arrAt_eq_of_cover 2 _ (fun t _ => flushed3 V c t) cover3

end

end Cert.KernelIdeal.Regions

end
-- ==== Proof.RegionMatProd5.lean ====
/-
  The third matrix-product region of the kernel program.  It multiplies an array of 200000 rows by a 256 × 256
  weight matrix, 4000 rows per grid point: a point reads rows 4000 t … 4000 t + 3999 of the first array and the whole of
  the second, and writes the same rows of the output.  Since row r of a product depends only on row r of the first
  factor, the 50 blocks written back are the 50 row blocks of the product of the two whole arrays, and together they
  are all of it.
-/
import proofs.«119171_j86912958202425_1_alg».proof.Proof.Gen.KernelIdeal.Frame
import proofs.«119171_j86912958202425_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.Layers

/-- A whole-block access starts at the origin. -/
theorem origin5 : (![0, 0] : Fin 2 → Nat) = fun _ => 0 := funext fun a => by fin_cases a <;> rfl

theorem dot256_5_apply_lhs0 (i : S4000x256.Idx) (c : dot_S4000x256_S256x256_S4000x256_1_0_0_1_n_n.contr.Idx) : (dot_S4000x256_S256x256_S4000x256_1_0_0_1_n_n.lhsIdx i c 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem dot256_5_apply_lhs1 (i : S4000x256.Idx) (c : dot_S4000x256_S256x256_S4000x256_1_0_0_1_n_n.contr.Idx) : (dot_S4000x256_S256x256_S4000x256_1_0_0_1_n_n.lhsIdx i c 1).val = (c ⟨0, by decide⟩).val :=
  dot_S4000x256_S256x256_S4000x256_1_0_0_1_n_n.lhsIdx_val_of_single rfl i c
theorem dot256_5_apply_rhs0 (i : S4000x256.Idx) (c : dot_S4000x256_S256x256_S4000x256_1_0_0_1_n_n.contr.Idx) : (dot_S4000x256_S256x256_S4000x256_1_0_0_1_n_n.rhsIdx i c 0).val = (c ⟨0, by decide⟩).val :=
  dot_S4000x256_S256x256_S4000x256_1_0_0_1_n_n.rhsIdx_val_of_single rfl i c
theorem dot256_5_apply_rhs1 (i : S4000x256.Idx) (c : dot_S4000x256_S256x256_S4000x256_1_0_0_1_n_n.contr.Idx) : (dot_S4000x256_S256x256_S4000x256_1_0_0_1_n_n.rhsIdx i c 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- A 4000 × 256 block times a 256 × 256 matrix accumulated from zero, at an entry: the sum over the shared axis. -/
theorem dot256_5_apply (x : FVec Ideal S4000x256 .f32) (w : FVec Ideal S256x256 .f32) (p : Fin 4000) (q : Fin 256) :
    matmul dot_S4000x256_S256x256_S4000x256_1_0_0_1_n_n none x w (constant (F := Ideal) S4000x256 .f32 0x00000000#32) (ix2 p q)
      = ∑ k : Fin 256, x (ix2 p k) * w (ix2 k q) := by
  refine (Ideal.matmul_constant_zero_apply dot_S4000x256_S256x256_S4000x256_1_0_0_1_n_n none x w (ix2 p q)).trans ?_
  rw [← Equiv.sum_comp (contrEquiv1 dot_S4000x256_S256x256_S4000x256_1_0_0_1_n_n 256 rfl rfl).symm]
  refine Finset.sum_congr rfl fun k _ => ?_
  have hk := contrEquiv1_symm_val dot_S4000x256_S256x256_S4000x256_1_0_0_1_n_n 256 rfl rfl k
  have el : dot_S4000x256_S256x256_S4000x256_1_0_0_1_n_n.lhsIdx (ix2 p q) ((contrEquiv1 dot_S4000x256_S256x256_S4000x256_1_0_0_1_n_n 256 rfl rfl).symm k) = ix2 p k := funext fun a => Fin.ext (by
    match a with
    | ⟨0, _⟩ => exact dot256_5_apply_lhs0 _ _
    | ⟨1, _⟩ => exact (dot256_5_apply_lhs1 _ _).trans hk)
  have er : dot_S4000x256_S256x256_S4000x256_1_0_0_1_n_n.rhsIdx (ix2 p q) ((contrEquiv1 dot_S4000x256_S256x256_S4000x256_1_0_0_1_n_n 256 rfl rfl).symm k) = ix2 k q := funext fun a => Fin.ext (by
    match a with
    | ⟨0, _⟩ => exact (dot256_5_apply_rhs0 _ _).trans hk
    | ⟨1, _⟩ => exact dot256_5_apply_rhs1 _ _)
  rw [el, er]

/-! ## Region 5: a matrix product, row block by row block -/

/-- The body's arithmetic at an entry: the block of 4000 rows times the weight matrix, accumulated from zero. -/
theorem pay5_apply (x0 : Vec Ideal S4000x256 .f32) (x1 : Vec Ideal S256x256 .f32) (p : Fin 4000) (q : Fin 256) :
    k5_pay1 (F := Ideal) x0 x1 (ix2 p q) = ∑ k : Fin 256, x0 (ix2 p k) * x1 (ix2 k q) := by
  unfold k5_pay1
  simp only [shapeCast_self]
  exact dot256_5_apply x0 x1 p q

/-- Row block `b` of a product `A · W` is (row block `b` of `A`) `· W`: the body's result on a block whose rows are rows
    `4000 b …` of `A` and whose second operand is `W`, entry by entry. -/
theorem pay5_rows (A : Mat 200000 256) (W : Mat 256 256) (x0 : Vec Ideal S4000x256 .f32) (x1 : Vec Ideal S256x256 .f32)
    (b : Nat) (hb : b < 50)
    (h0 : ∀ (p : Fin 4000) (k : Fin 256), x0 (ix2 p k) = A (ix2 (⟨b * 4000 + p.val, by omega⟩ : Fin 200000) k))
    (h1 : ∀ (k q : Fin 256), x1 (ix2 k q) = W (ix2 k q)) (p : Fin 4000) (q : Fin 256) :
    k5_pay1 (F := Ideal) x0 x1 (ix2 p q) = matProd A W (ix2 (⟨b * 4000 + p.val, by omega⟩ : Fin 200000) q) := by
  rw [pay5_apply]
  show _ = ∑ k : Fin 256, A (ix2 (⟨b * 4000 + p.val, by omega⟩ : Fin 200000) k) * W (ix2 k q)
  exact Finset.sum_congr rfl fun k _ => by rw [h0 p k, h1 k q]

/-- The index maps over the grid: the input and output row blocks move together, one block of 4000 rows per point;
    the weight matrix is whole at every point. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

section
variable (V : (c : Dev nD) → (b : Ref sig .tc) → Buf (Elt Ideal) ((c : Thread nD τ).loc b))

/-- Point `t`'s block of the first array is rows 4000 t … 4000 t + 3999 of that array. -/
theorem blk5_0 (c : Dev nD) (t : Fin cfg5.N) (ht : t.val < 50) (p : Fin 4000) (k : Fin 256) :
    iblk5 V c 0 t (ix2 p k) = V c (Pipeline.arrRef spec5 0) (ix2 (⟨t.val * 4000 + p.val, by omega⟩ : Fin 200000) k) := by
  obtain ⟨e0, e1, -⟩ := idx_facts5 t
  show V c (Pipeline.arrRef spec5 0) (((cfg5.win 0).blk t).view.emb (ix2 p k)) = _
  refine congrArg _ (funext fun a => Fin.ext ?_)
  match a with
  | ⟨0, _⟩ => show win5_0.index t (0 : Fin 2) * 4000 + 1 * p.val = t.val * 4000 + p.val; omega
  | ⟨1, _⟩ => show win5_0.index t (1 : Fin 2) * 256 + 1 * k.val = k.val; omega

/-- The weight matrix is whole at every point: its block read at an entry is the array at that entry. -/
theorem blk5_1 (c : Dev nD) (t : Fin cfg5.N) (k q : Fin 256) :
    iblk5 V c 1 t (ix2 k q) = V c (Pipeline.arrRef spec5 1) (ix2 k q) := by
  obtain ⟨-, -, e0, e1, -⟩ := idx_facts5 t
  show V c (Pipeline.arrRef spec5 1) (((cfg5.win 1).blk t).view.emb (ix2 k q)) = _
  refine congrArg _ (funext fun a => Fin.ext ?_)
  match a with
  | ⟨0, _⟩ => show win5_1.index t (0 : Fin 2) * 256 + 1 * k.val = k.val; omega
  | ⟨1, _⟩ => show win5_1.index t (1 : Fin 2) * 256 + 1 * q.val = q.val; omega

/-- Entry (p, q) of point `t`'s output block is entry (4000 t + p, q) of the output array. -/
theorem emb5_2 (t : Fin cfg5.N) (ht : t.val < 50) (p : Fin 4000) (q : Fin 256) :
    ((cfg5.win 2).blk t).view.emb (ix2 p q) = ix2 (⟨t.val * 4000 + p.val, by omega⟩ : Fin 200000) q := by
  obtain ⟨-, -, -, -, e0, e1⟩ := idx_facts5 t
  funext a; apply Fin.ext
  match a with
  | ⟨0, _⟩ => show win5_2.index t (0 : Fin 2) * 4000 + 1 * p.val = t.val * 4000 + p.val; omega
  | ⟨1, _⟩ => show win5_2.index t (1 : Fin 2) * 256 + 1 * q.val = q.val; omega

/-- What point `t` writes back is block `t` of the product of the two arrays the region finds. -/
theorem flushed5 (c : Dev nD) (t : Fin cfg5.N) :
    (dat5 (F := Ideal) V c).flushed 2 t = ((cfg5.win 2).blk t).view.read (Elt Ideal)
      (matProd (n := 200000) (k := 256) (d := 256) (V c (Pipeline.arrRef spec5 0)) (V c (Pipeline.arrRef spec5 1))) := by
  show (cfg5.win 2).cut (grid5.coords t) ((dat5 V c).after 2 t) = _
  rw [after5_2]
  unfold out5_2
  rw [View.canon_unit_zero origin5]
  simp only [View.ld_unit_zero (S := S4000x256) origin5, View.ld_unit_zero (S := S256x256) origin5]
  have ht : t.val < 50 := t.isLt.trans_eq N_5
  funext j
  obtain ⟨p, q, rfl⟩ : ∃ (p : Fin 4000) (q : Fin 256), j = ix2 p q := ⟨j 0, j 1, eq_ix2 j⟩
  show k5_pay1 (F := Ideal) (iblk5 V c 0 t) (iblk5 V c 1 t) (ix2 p q)
    = matProd (n := 200000) (k := 256) (d := 256) (V c (Pipeline.arrRef spec5 0)) (V c (Pipeline.arrRef spec5 1)) (((cfg5.win 2).blk t).view.emb (ix2 p q))
  rw [emb5_2 t ht p q]
  exact pay5_rows (V c (Pipeline.arrRef spec5 0)) (V c (Pipeline.arrRef spec5 1)) (iblk5 V c 0 t) (iblk5 V c 1 t) t.val ht
    (fun p k => blk5_0 V c t ht p k) (fun k q => blk5_1 V c t k q) p q

/-- An entry of the output array lies in point `t`'s block iff its row is among the block's 4000 rows. -/
theorem mem_blk5 (t : Fin cfg5.N) (i : S200000x256.Idx) :
    i ∈ ((cfg5.win 2).blk t).view.set ↔ ∀ a : Fin 2, win5_2.index t a * S4000x256.size a ≤ (i a).val ∧ (i a).val < win5_2.index t a * S4000x256.size a + S4000x256.size a := by
  show i ∈ ((View.whole main_v94).slice (win5_2.rect t)).set ↔ _
  rw [View.set_slice_whole, Rect.mem_set_unit]
  exact Iff.rfl

/-- Row `r` is written back by point `r / 4000`. -/
theorem cover5 (i : S200000x256.Idx) : ∃ t : Fin cfg5.N, (cfg5.win 2).flush t = true ∧ i ∈ ((cfg5.win 2).blk t).view.set := by
  have hi0 : (i 0).val < 200000 := (i 0).isLt
  have hi1 : (i 1).val < 256 := (i 1).isLt
  have hN : cfg5.N = 50 := N_5
  obtain ⟨t, htv⟩ : ∃ t : Fin cfg5.N, t.val = (i 0).val / 4000 := ⟨⟨(i 0).val / 4000, by rw [hN]; omega⟩, rfl⟩
  obtain ⟨-, -, -, -, e4, e5⟩ := idx_facts5 t
  refine ⟨t, flush5_2 t, ?_⟩
  rw [mem_blk5]
  intro a
  match a with
  | ⟨0, _⟩ => show win5_2.index t (0 : Fin 2) * 4000 ≤ (i 0).val ∧ (i 0).val < win5_2.index t (0 : Fin 2) * 4000 + 4000; omega
  | ⟨1, _⟩ => show win5_2.index t (1 : Fin 2) * 256 ≤ (i 1).val ∧ (i 1).val < win5_2.index t (1 : Fin 2) * 256 + 256; omega

/-- The output array after region 5: the matrix product of the two arrays the region finds on entry. -/
theorem region5_array (c : Dev nD) :
    (dat5 (F := Ideal) V c).arrAt 2 cfg5.N
      = matProd (n := 200000) (k := 256) (d := 256) (V c (Pipeline.arrRef spec5 0)) (V c (Pipeline.arrRef spec5 1)) :=
  (dat5 (F := Ideal) V c).arrAt_eq_of_cover 2 _ (fun t _ => flushed5 V c t) cover5

end

end Cert.KernelIdeal.Regions

end
-- ==== Proof.RegionNormAct.lean ====
/-
  The three normalisation regions of the kernel program: batch normalisation with running statistics, a rectifier and a
  residual.  A grid point t reads rows 4000 t … 4000 t + 3999 of the aggregate and of the identity array, and the whole
  of five parameter rows (bias, scale, shift, running mean, running variance); entry (p, j) of the block it writes is
      max( ((a[p,j] + b[0,j]) − μ[0,j]) · rsqrt(v[0,j] + ε) · g[0,j] + β[0,j] , 0 ) + r[p,j].
  Every entry depends on the same entry of the two blocked arrays and on column j of the parameter rows only, so the 50
  blocks written back are the 50 row blocks of that function of the whole arrays.
-/
import proofs.«119171_j86912958202425_1_alg».proof.Proof.Gen.KernelIdeal.Frame
import proofs.«119171_j86912958202425_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.Layers

/-- A whole-block access starts at the origin. -/
theorem origin2 : (![0, 0] : Fin 2 → Nat) = fun _ => 0 := funext fun a => by fin_cases a <;> rfl

/-! ## Region 2: normalisation, rectifier, residual, row block by row block -/

/-- The body's arithmetic at an entry.  The body's operands are, in order: the aggregate block, the bias row, the
    running mean, the running variance, the scale, the shift, the identity block. -/
theorem pay2_apply (a : Vec Ideal S4000x256 .f32) (b mu v g be : Vec Ideal S1x256 .f32) (r : Vec Ideal S4000x256 .f32)
    (p : Fin 4000) (q : Fin 256) :
    k2_pay1 (F := Ideal) a b mu v g be r (ix2 p q)
      = max ((((a (ix2 p q) + b (ix2 (0 : Fin 1) q)) - mu (ix2 (0 : Fin 1) q)) * Ideal.rsqrt (v (ix2 (0 : Fin 1) q) + eps)) * g (ix2 (0 : Fin 1) q)
          + be (ix2 (0 : Fin 1) q)) (Ideal.ofBits .f32 0x00000000#32) + r (ix2 p q) := by
  unfold k2_pay1
  simp only [shapeCast_self]
  show max ((((a (ix2 p q) + broadcastTo S4000x256 b broadcasts_S1x256_S4000x256 (ix2 p q))
        - broadcastTo S4000x256 mu broadcasts_S1x256_S4000x256 (ix2 p q))
        * broadcastTo S4000x256 (rsqrt (addf v (broadcast S1x256 (Scalar.ofBits (F := Ideal) .f32 0x3727C5AC#32)))) broadcasts_S1x256_S4000x256 (ix2 p q))
        * broadcastTo S4000x256 g broadcasts_S1x256_S4000x256 (ix2 p q)
        + broadcastTo S4000x256 be broadcasts_S1x256_S4000x256 (ix2 p q)) (Ideal.ofBits .f32 0x00000000#32) + r (ix2 p q) = _
  rw [broadcastTo_1b_ab_apply b, broadcastTo_1b_ab_apply mu, broadcastTo_1b_ab_apply g, broadcastTo_1b_ab_apply be,
    broadcastTo_1b_ab_apply (rsqrt (addf v (broadcast S1x256 (Scalar.ofBits (F := Ideal) .f32 0x3727C5AC#32))))]
  rfl

/-- Row block `b` of the normalised array is the body's result on row block `b` of the two blocked arrays and the five
    whole parameter rows, entry by entry. -/
theorem pay2_rows (A : Mat 200000 256) (B G Be Mu Vr : Mat 1 256) (Rs : Mat 200000 256)
    (x0 : Vec Ideal S4000x256 .f32) (x1 x2 x3 x4 x5 : Vec Ideal S1x256 .f32) (x6 : Vec Ideal S4000x256 .f32)
    (b : Nat) (hb : b < 50)
    (h0 : ∀ (p : Fin 4000) (q : Fin 256), x0 (ix2 p q) = A (ix2 (⟨b * 4000 + p.val, by omega⟩ : Fin 200000) q))
    (h1 : ∀ (q : Fin 256), x1 (ix2 (0 : Fin 1) q) = B (ix2 (0 : Fin 1) q))
    (h2 : ∀ (q : Fin 256), x2 (ix2 (0 : Fin 1) q) = G (ix2 (0 : Fin 1) q))
    (h3 : ∀ (q : Fin 256), x3 (ix2 (0 : Fin 1) q) = Be (ix2 (0 : Fin 1) q))
    (h4 : ∀ (q : Fin 256), x4 (ix2 (0 : Fin 1) q) = Mu (ix2 (0 : Fin 1) q))
    (h5 : ∀ (q : Fin 256), x5 (ix2 (0 : Fin 1) q) = Vr (ix2 (0 : Fin 1) q))
    (h6 : ∀ (p : Fin 4000) (q : Fin 256), x6 (ix2 p q) = Rs (ix2 (⟨b * 4000 + p.val, by omega⟩ : Fin 200000) q))
    (p : Fin 4000) (q : Fin 256) :
    k2_pay1 (F := Ideal) x0 x1 x4 x5 x2 x3 x6 (ix2 p q)
      = normAct A B G Be Mu Vr Rs (ix2 (⟨b * 4000 + p.val, by omega⟩ : Fin 200000) q) := by
  rw [pay2_apply, h0 p q, h1 q, h2 q, h3 q, h4 q, h5 q, h6 p q]
  rfl

/-- The index maps over the grid: the aggregate, the identity and the output row blocks move together, one block of 4000
    rows per point; the five parameter rows are whole at every point. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

section
variable (V : (c : Dev nD) → (b : Ref sig .tc) → Buf (Elt Ideal) ((c : Thread nD τ).loc b))

set_option maxHeartbeats 1000000 in
/-- What point `t` writes back is block `t` of the normalised array computed from the seven arrays the region finds. -/
theorem flushed2 (c : Dev nD) (t : Fin cfg2.N) :
    (dat2 (F := Ideal) V c).flushed 7 t = ((cfg2.win 7).blk t).view.read (Elt Ideal)
      (normAct (n := 200000) (d := 256) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) := by
  show (cfg2.win 7).cut (grid2.coords t) ((dat2 V c).after 7 t) = _
  rw [after2_7]
  unfold out2_7
  rw [View.canon_unit_zero origin2]
  simp only [View.ld_unit_zero (S := S4000x256) origin2, View.ld_unit_zero (S := S1x256) origin2]
  obtain ⟨e00, e01, e10, e11, e20, e21, e30, e31, e40, e41, e50, e51, e60, e61, e70, e71⟩ := idx_facts2 t
  have ht : t.val < 50 := t.isLt.trans_eq N_2
  funext j
  obtain ⟨p, q, rfl⟩ : ∃ (p : Fin 4000) (q : Fin 256), j = ix2 p q := ⟨j 0, j 1, eq_ix2 j⟩
  have hemb : ((cfg2.win 7).blk t).view.emb (ix2 p q) = ix2 (⟨t.val * 4000 + p.val, by omega⟩ : Fin 200000) q := by
    funext a; apply Fin.ext
    match a with
    | ⟨0, _⟩ => show win2_7.index t (0 : Fin 2) * 4000 + 1 * p.val = t.val * 4000 + p.val; omega
    | ⟨1, _⟩ => show win2_7.index t (1 : Fin 2) * 256 + 1 * q.val = q.val; omega
  show k2_pay1 (F := Ideal) (iblk2 V c 0 t) (iblk2 V c 1 t) (iblk2 V c 4 t) (iblk2 V c 5 t) (iblk2 V c 2 t) (iblk2 V c 3 t) (iblk2 V c 6 t) (ix2 p q)
    = normAct (n := 200000) (d := 256) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) (((cfg2.win 7).blk t).view.emb (ix2 p q))
  rw [hemb]
  refine pay2_rows (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))
    (iblk2 V c 0 t) (iblk2 V c 1 t) (iblk2 V c 2 t) (iblk2 V c 3 t) (iblk2 V c 4 t) (iblk2 V c 5 t) (iblk2 V c 6 t)
    t.val ht ?_ ?_ ?_ ?_ ?_ ?_ ?_ p q
  · intro p q
    show V c (Pipeline.arrRef spec2 0) (((cfg2.win 0).blk t).view.emb (ix2 p q)) = _
    refine congrArg _ (funext fun a => Fin.ext ?_)
    match a with
    | ⟨0, _⟩ => show win2_0.index t (0 : Fin 2) * 4000 + 1 * p.val = t.val * 4000 + p.val; omega
    | ⟨1, _⟩ => show win2_0.index t (1 : Fin 2) * 256 + 1 * q.val = q.val; omega
  · intro q
    show V c (Pipeline.arrRef spec2 1) (((cfg2.win 1).blk t).view.emb (ix2 (0 : Fin 1) q)) = _
    refine congrArg _ (funext fun a => Fin.ext ?_)
    match a with
    | ⟨0, _⟩ => show win2_1.index t (0 : Fin 2) * 1 + 1 * 0 = 0; omega
    | ⟨1, _⟩ => show win2_1.index t (1 : Fin 2) * 256 + 1 * q.val = q.val; omega
  · intro q
    show V c (Pipeline.arrRef spec2 2) (((cfg2.win 2).blk t).view.emb (ix2 (0 : Fin 1) q)) = _
    refine congrArg _ (funext fun a => Fin.ext ?_)
    match a with
    | ⟨0, _⟩ => show win2_2.index t (0 : Fin 2) * 1 + 1 * 0 = 0; omega
    | ⟨1, _⟩ => show win2_2.index t (1 : Fin 2) * 256 + 1 * q.val = q.val; omega
  · intro q
    show V c (Pipeline.arrRef spec2 3) (((cfg2.win 3).blk t).view.emb (ix2 (0 : Fin 1) q)) = _
    refine congrArg _ (funext fun a => Fin.ext ?_)
    match a with
    | ⟨0, _⟩ => show win2_3.index t (0 : Fin 2) * 1 + 1 * 0 = 0; omega
    | ⟨1, _⟩ => show win2_3.index t (1 : Fin 2) * 256 + 1 * q.val = q.val; omega
  · intro q
    show V c (Pipeline.arrRef spec2 4) (((cfg2.win 4).blk t).view.emb (ix2 (0 : Fin 1) q)) = _
    refine congrArg _ (funext fun a => Fin.ext ?_)
    match a with
    | ⟨0, _⟩ => show win2_4.index t (0 : Fin 2) * 1 + 1 * 0 = 0; omega
    | ⟨1, _⟩ => show win2_4.index t (1 : Fin 2) * 256 + 1 * q.val = q.val; omega
  · intro q
    show V c (Pipeline.arrRef spec2 5) (((cfg2.win 5).blk t).view.emb (ix2 (0 : Fin 1) q)) = _
    refine congrArg _ (funext fun a => Fin.ext ?_)
    match a with
    | ⟨0, _⟩ => show win2_5.index t (0 : Fin 2) * 1 + 1 * 0 = 0; omega
    | ⟨1, _⟩ => show win2_5.index t (1 : Fin 2) * 256 + 1 * q.val = q.val; omega
  · intro p q
    show V c (Pipeline.arrRef spec2 6) (((cfg2.win 6).blk t).view.emb (ix2 p q)) = _
    refine congrArg _ (funext fun a => Fin.ext ?_)
    match a with
    | ⟨0, _⟩ => show win2_6.index t (0 : Fin 2) * 4000 + 1 * p.val = t.val * 4000 + p.val; omega
    | ⟨1, _⟩ => show win2_6.index t (1 : Fin 2) * 256 + 1 * q.val = q.val; omega

/-- An entry of the output array lies in point `t`'s block iff its row is among the block's 4000 rows. -/
theorem mem_blk2 (t : Fin cfg2.N) (i : S200000x256.Idx) :
    i ∈ ((cfg2.win 7).blk t).view.set ↔ ∀ a : Fin 2, win2_7.index t a * S4000x256.size a ≤ (i a).val ∧ (i a).val < win2_7.index t a * S4000x256.size a + S4000x256.size a := by
  show i ∈ ((View.whole main_v60).slice (win2_7.rect t)).set ↔ _
  rw [View.set_slice_whole, Rect.mem_set_unit]
  exact Iff.rfl

/-- Row `r` is written back by point `r / 4000`. -/
theorem cover2 (i : S200000x256.Idx) : ∃ t : Fin cfg2.N, (cfg2.win 7).flush t = true ∧ i ∈ ((cfg2.win 7).blk t).view.set := by
  have hi0 : (i 0).val < 200000 := (i 0).isLt
  have hi1 : (i 1).val < 256 := (i 1).isLt
  have hN : cfg2.N = 50 := N_2
  obtain ⟨t, htv⟩ : ∃ t : Fin cfg2.N, t.val = (i 0).val / 4000 := ⟨⟨(i 0).val / 4000, by rw [hN]; omega⟩, rfl⟩
  obtain ⟨-, -, -, -, -, -, -, -, -, -, -, -, -, -, e70, e71⟩ := idx_facts2 t
  refine ⟨t, flush2_7 t, ?_⟩
  rw [mem_blk2]
  intro a
  match a with
  | ⟨0, _⟩ => show win2_7.index t (0 : Fin 2) * 4000 ≤ (i 0).val ∧ (i 0).val < win2_7.index t (0 : Fin 2) * 4000 + 4000; omega
  | ⟨1, _⟩ => show win2_7.index t (1 : Fin 2) * 256 ≤ (i 1).val ∧ (i 1).val < win2_7.index t (1 : Fin 2) * 256 + 256; omega

/-- The output array after region 2: normalisation, rectifier and residual of the seven arrays the region finds on entry. -/
theorem region2_array (c : Dev nD) :
    (dat2 (F := Ideal) V c).arrAt 7 cfg2.N
      = normAct (n := 200000) (d := 256) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) :=
  (dat2 (F := Ideal) V c).arrAt_eq_of_cover 7 _ (fun t _ => flushed2 V c t) cover2

end

end Cert.KernelIdeal.Regions

end
-- ==== Proof.RegionNormAct4.lean ====
/-
  The three normalisation regions of the kernel program: batch normalisation with running statistics, a rectifier and a
  residual.  A grid point t reads rows 4000 t … 4000 t + 3999 of the aggregate and of the identity array, and the whole
  of five parameter rows (bias, scale, shift, running mean, running variance); entry (p, j) of the block it writes is
      max( ((a[p,j] + b[0,j]) − μ[0,j]) · rsqrt(v[0,j] + ε) · g[0,j] + β[0,j] , 0 ) + r[p,j].
  Every entry depends on the same entry of the two blocked arrays and on column j of the parameter rows only, so the 50
  blocks written back are the 50 row blocks of that function of the whole arrays.
-/
import proofs.«119171_j86912958202425_1_alg».proof.Proof.Gen.KernelIdeal.Frame
import proofs.«119171_j86912958202425_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.Layers

/-- A whole-block access starts at the origin. -/
theorem origin4 : (![0, 0] : Fin 2 → Nat) = fun _ => 0 := funext fun a => by fin_cases a <;> rfl

/-! ## Region 4: normalisation, rectifier, residual, row block by row block -/

/-- The body's arithmetic at an entry.  The body's operands are, in order: the aggregate block, the bias row, the
    running mean, the running variance, the scale, the shift, the identity block. -/
theorem pay4_apply (a : Vec Ideal S4000x256 .f32) (b mu v g be : Vec Ideal S1x256 .f32) (r : Vec Ideal S4000x256 .f32)
    (p : Fin 4000) (q : Fin 256) :
    k4_pay1 (F := Ideal) a b mu v g be r (ix2 p q)
      = max ((((a (ix2 p q) + b (ix2 (0 : Fin 1) q)) - mu (ix2 (0 : Fin 1) q)) * Ideal.rsqrt (v (ix2 (0 : Fin 1) q) + eps)) * g (ix2 (0 : Fin 1) q)
          + be (ix2 (0 : Fin 1) q)) (Ideal.ofBits .f32 0x00000000#32) + r (ix2 p q) := by
  unfold k4_pay1
  simp only [shapeCast_self]
  show max ((((a (ix2 p q) + broadcastTo S4000x256 b broadcasts_S1x256_S4000x256 (ix2 p q))
        - broadcastTo S4000x256 mu broadcasts_S1x256_S4000x256 (ix2 p q))
        * broadcastTo S4000x256 (rsqrt (addf v (broadcast S1x256 (Scalar.ofBits (F := Ideal) .f32 0x3727C5AC#32)))) broadcasts_S1x256_S4000x256 (ix2 p q))
        * broadcastTo S4000x256 g broadcasts_S1x256_S4000x256 (ix2 p q)
        + broadcastTo S4000x256 be broadcasts_S1x256_S4000x256 (ix2 p q)) (Ideal.ofBits .f32 0x00000000#32) + r (ix2 p q) = _
  rw [broadcastTo_1b_ab_apply b, broadcastTo_1b_ab_apply mu, broadcastTo_1b_ab_apply g, broadcastTo_1b_ab_apply be,
    broadcastTo_1b_ab_apply (rsqrt (addf v (broadcast S1x256 (Scalar.ofBits (F := Ideal) .f32 0x3727C5AC#32))))]
  rfl

/-- Row block `b` of the normalised array is the body's result on row block `b` of the two blocked arrays and the five
    whole parameter rows, entry by entry. -/
theorem pay4_rows (A : Mat 200000 256) (B G Be Mu Vr : Mat 1 256) (Rs : Mat 200000 256)
    (x0 : Vec Ideal S4000x256 .f32) (x1 x2 x3 x4 x5 : Vec Ideal S1x256 .f32) (x6 : Vec Ideal S4000x256 .f32)
    (b : Nat) (hb : b < 50)
    (h0 : ∀ (p : Fin 4000) (q : Fin 256), x0 (ix2 p q) = A (ix2 (⟨b * 4000 + p.val, by omega⟩ : Fin 200000) q))
    (h1 : ∀ (q : Fin 256), x1 (ix2 (0 : Fin 1) q) = B (ix2 (0 : Fin 1) q))
    (h2 : ∀ (q : Fin 256), x2 (ix2 (0 : Fin 1) q) = G (ix2 (0 : Fin 1) q))
    (h3 : ∀ (q : Fin 256), x3 (ix2 (0 : Fin 1) q) = Be (ix2 (0 : Fin 1) q))
    (h4 : ∀ (q : Fin 256), x4 (ix2 (0 : Fin 1) q) = Mu (ix2 (0 : Fin 1) q))
    (h5 : ∀ (q : Fin 256), x5 (ix2 (0 : Fin 1) q) = Vr (ix2 (0 : Fin 1) q))
    (h6 : ∀ (p : Fin 4000) (q : Fin 256), x6 (ix2 p q) = Rs (ix2 (⟨b * 4000 + p.val, by omega⟩ : Fin 200000) q))
    (p : Fin 4000) (q : Fin 256) :
    k4_pay1 (F := Ideal) x0 x1 x4 x5 x2 x3 x6 (ix2 p q)
      = normAct A B G Be Mu Vr Rs (ix2 (⟨b * 4000 + p.val, by omega⟩ : Fin 200000) q) := by
  rw [pay4_apply, h0 p q, h1 q, h2 q, h3 q, h4 q, h5 q, h6 p q]
  rfl

/-- The index maps over the grid: the aggregate, the identity and the output row blocks move together, one block of 4000
    rows per point; the five parameter rows are whole at every point. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0
    ∧ win4_7.index t (0 : Fin 2) = t.val ∧ win4_7.index t (1 : Fin 2) = 0 :=
  (by decide +kernel : ∀ t : Fin grid4.N, _)

section
variable (V : (c : Dev nD) → (b : Ref sig .tc) → Buf (Elt Ideal) ((c : Thread nD τ).loc b))

set_option maxHeartbeats 1000000 in
/-- What point `t` writes back is block `t` of the normalised array computed from the seven arrays the region finds. -/
theorem flushed4 (c : Dev nD) (t : Fin cfg4.N) :
    (dat4 (F := Ideal) V c).flushed 7 t = ((cfg4.win 7).blk t).view.read (Elt Ideal)
      (normAct (n := 200000) (d := 256) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))) := by
  show (cfg4.win 7).cut (grid4.coords t) ((dat4 V c).after 7 t) = _
  rw [after4_7]
  unfold out4_7
  rw [View.canon_unit_zero origin4]
  simp only [View.ld_unit_zero (S := S4000x256) origin4, View.ld_unit_zero (S := S1x256) origin4]
  obtain ⟨e00, e01, e10, e11, e20, e21, e30, e31, e40, e41, e50, e51, e60, e61, e70, e71⟩ := idx_facts4 t
  have ht : t.val < 50 := t.isLt.trans_eq N_4
  funext j
  obtain ⟨p, q, rfl⟩ : ∃ (p : Fin 4000) (q : Fin 256), j = ix2 p q := ⟨j 0, j 1, eq_ix2 j⟩
  have hemb : ((cfg4.win 7).blk t).view.emb (ix2 p q) = ix2 (⟨t.val * 4000 + p.val, by omega⟩ : Fin 200000) q := by
    funext a; apply Fin.ext
    match a with
    | ⟨0, _⟩ => show win4_7.index t (0 : Fin 2) * 4000 + 1 * p.val = t.val * 4000 + p.val; omega
    | ⟨1, _⟩ => show win4_7.index t (1 : Fin 2) * 256 + 1 * q.val = q.val; omega
  show k4_pay1 (F := Ideal) (iblk4 V c 0 t) (iblk4 V c 1 t) (iblk4 V c 4 t) (iblk4 V c 5 t) (iblk4 V c 2 t) (iblk4 V c 3 t) (iblk4 V c 6 t) (ix2 p q)
    = normAct (n := 200000) (d := 256) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) (((cfg4.win 7).blk t).view.emb (ix2 p q))
  rw [hemb]
  refine pay4_rows (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))
    (iblk4 V c 0 t) (iblk4 V c 1 t) (iblk4 V c 2 t) (iblk4 V c 3 t) (iblk4 V c 4 t) (iblk4 V c 5 t) (iblk4 V c 6 t)
    t.val ht ?_ ?_ ?_ ?_ ?_ ?_ ?_ p q
  · intro p q
    show V c (Pipeline.arrRef spec4 0) (((cfg4.win 0).blk t).view.emb (ix2 p q)) = _
    refine congrArg _ (funext fun a => Fin.ext ?_)
    match a with
    | ⟨0, _⟩ => show win4_0.index t (0 : Fin 2) * 4000 + 1 * p.val = t.val * 4000 + p.val; omega
    | ⟨1, _⟩ => show win4_0.index t (1 : Fin 2) * 256 + 1 * q.val = q.val; omega
  · intro q
    show V c (Pipeline.arrRef spec4 1) (((cfg4.win 1).blk t).view.emb (ix2 (0 : Fin 1) q)) = _
    refine congrArg _ (funext fun a => Fin.ext ?_)
    match a with
    | ⟨0, _⟩ => show win4_1.index t (0 : Fin 2) * 1 + 1 * 0 = 0; omega
    | ⟨1, _⟩ => show win4_1.index t (1 : Fin 2) * 256 + 1 * q.val = q.val; omega
  · intro q
    show V c (Pipeline.arrRef spec4 2) (((cfg4.win 2).blk t).view.emb (ix2 (0 : Fin 1) q)) = _
    refine congrArg _ (funext fun a => Fin.ext ?_)
    match a with
    | ⟨0, _⟩ => show win4_2.index t (0 : Fin 2) * 1 + 1 * 0 = 0; omega
    | ⟨1, _⟩ => show win4_2.index t (1 : Fin 2) * 256 + 1 * q.val = q.val; omega
  · intro q
    show V c (Pipeline.arrRef spec4 3) (((cfg4.win 3).blk t).view.emb (ix2 (0 : Fin 1) q)) = _
    refine congrArg _ (funext fun a => Fin.ext ?_)
    match a with
    | ⟨0, _⟩ => show win4_3.index t (0 : Fin 2) * 1 + 1 * 0 = 0; omega
    | ⟨1, _⟩ => show win4_3.index t (1 : Fin 2) * 256 + 1 * q.val = q.val; omega
  · intro q
    show V c (Pipeline.arrRef spec4 4) (((cfg4.win 4).blk t).view.emb (ix2 (0 : Fin 1) q)) = _
    refine congrArg _ (funext fun a => Fin.ext ?_)
    match a with
    | ⟨0, _⟩ => show win4_4.index t (0 : Fin 2) * 1 + 1 * 0 = 0; omega
    | ⟨1, _⟩ => show win4_4.index t (1 : Fin 2) * 256 + 1 * q.val = q.val; omega
  · intro q
    show V c (Pipeline.arrRef spec4 5) (((cfg4.win 5).blk t).view.emb (ix2 (0 : Fin 1) q)) = _
    refine congrArg _ (funext fun a => Fin.ext ?_)
    match a with
    | ⟨0, _⟩ => show win4_5.index t (0 : Fin 2) * 1 + 1 * 0 = 0; omega
    | ⟨1, _⟩ => show win4_5.index t (1 : Fin 2) * 256 + 1 * q.val = q.val; omega
  · intro p q
    show V c (Pipeline.arrRef spec4 6) (((cfg4.win 6).blk t).view.emb (ix2 p q)) = _
    refine congrArg _ (funext fun a => Fin.ext ?_)
    match a with
    | ⟨0, _⟩ => show win4_6.index t (0 : Fin 2) * 4000 + 1 * p.val = t.val * 4000 + p.val; omega
    | ⟨1, _⟩ => show win4_6.index t (1 : Fin 2) * 256 + 1 * q.val = q.val; omega

/-- An entry of the output array lies in point `t`'s block iff its row is among the block's 4000 rows. -/
theorem mem_blk4 (t : Fin cfg4.N) (i : S200000x256.Idx) :
    i ∈ ((cfg4.win 7).blk t).view.set ↔ ∀ a : Fin 2, win4_7.index t a * S4000x256.size a ≤ (i a).val ∧ (i a).val < win4_7.index t a * S4000x256.size a + S4000x256.size a := by
  show i ∈ ((View.whole main_v91).slice (win4_7.rect t)).set ↔ _
  rw [View.set_slice_whole, Rect.mem_set_unit]
  exact Iff.rfl

/-- Row `r` is written back by point `r / 4000`. -/
theorem cover4 (i : S200000x256.Idx) : ∃ t : Fin cfg4.N, (cfg4.win 7).flush t = true ∧ i ∈ ((cfg4.win 7).blk t).view.set := by
  have hi0 : (i 0).val < 200000 := (i 0).isLt
  have hi1 : (i 1).val < 256 := (i 1).isLt
  have hN : cfg4.N = 50 := N_4
  obtain ⟨t, htv⟩ : ∃ t : Fin cfg4.N, t.val = (i 0).val / 4000 := ⟨⟨(i 0).val / 4000, by rw [hN]; omega⟩, rfl⟩
  obtain ⟨-, -, -, -, -, -, -, -, -, -, -, -, -, -, e70, e71⟩ := idx_facts4 t
  refine ⟨t, flush4_7 t, ?_⟩
  rw [mem_blk4]
  intro a
  match a with
  | ⟨0, _⟩ => show win4_7.index t (0 : Fin 2) * 4000 ≤ (i 0).val ∧ (i 0).val < win4_7.index t (0 : Fin 2) * 4000 + 4000; omega
  | ⟨1, _⟩ => show win4_7.index t (1 : Fin 2) * 256 ≤ (i 1).val ∧ (i 1).val < win4_7.index t (1 : Fin 2) * 256 + 256; omega

/-- The output array after region 4: normalisation, rectifier and residual of the seven arrays the region finds on entry. -/
theorem region4_array (c : Dev nD) :
    (dat4 (F := Ideal) V c).arrAt 7 cfg4.N
      = normAct (n := 200000) (d := 256) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) :=
  (dat4 (F := Ideal) V c).arrAt_eq_of_cover 7 _ (fun t _ => flushed4 V c t) cover4

end

end Cert.KernelIdeal.Regions

end
-- ==== Proof.RegionNormAct6.lean ====
/-
  The three normalisation regions of the kernel program: batch normalisation with running statistics, a rectifier and a
  residual.  A grid point t reads rows 4000 t … 4000 t + 3999 of the aggregate and of the identity array, and the whole
  of five parameter rows (bias, scale, shift, running mean, running variance); entry (p, j) of the block it writes is
      max( ((a[p,j] + b[0,j]) − μ[0,j]) · rsqrt(v[0,j] + ε) · g[0,j] + β[0,j] , 0 ) + r[p,j].
  Every entry depends on the same entry of the two blocked arrays and on column j of the parameter rows only, so the 50
  blocks written back are the 50 row blocks of that function of the whole arrays.
-/
import proofs.«119171_j86912958202425_1_alg».proof.Proof.Gen.KernelIdeal.Frame
import proofs.«119171_j86912958202425_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.Layers

/-- A whole-block access starts at the origin. -/
theorem origin6 : (![0, 0] : Fin 2 → Nat) = fun _ => 0 := funext fun a => by fin_cases a <;> rfl

/-! ## Region 6: normalisation, rectifier, residual, row block by row block -/

/-- The body's arithmetic at an entry.  The body's operands are, in order: the aggregate block, the bias row, the
    running mean, the running variance, the scale, the shift, the identity block. -/
theorem pay6_apply (a : Vec Ideal S4000x256 .f32) (b mu v g be : Vec Ideal S1x256 .f32) (r : Vec Ideal S4000x256 .f32)
    (p : Fin 4000) (q : Fin 256) :
    k6_pay1 (F := Ideal) a b mu v g be r (ix2 p q)
      = max ((((a (ix2 p q) + b (ix2 (0 : Fin 1) q)) - mu (ix2 (0 : Fin 1) q)) * Ideal.rsqrt (v (ix2 (0 : Fin 1) q) + eps)) * g (ix2 (0 : Fin 1) q)
          + be (ix2 (0 : Fin 1) q)) (Ideal.ofBits .f32 0x00000000#32) + r (ix2 p q) := by
  unfold k6_pay1
  simp only [shapeCast_self]
  show max ((((a (ix2 p q) + broadcastTo S4000x256 b broadcasts_S1x256_S4000x256 (ix2 p q))
        - broadcastTo S4000x256 mu broadcasts_S1x256_S4000x256 (ix2 p q))
        * broadcastTo S4000x256 (rsqrt (addf v (broadcast S1x256 (Scalar.ofBits (F := Ideal) .f32 0x3727C5AC#32)))) broadcasts_S1x256_S4000x256 (ix2 p q))
        * broadcastTo S4000x256 g broadcasts_S1x256_S4000x256 (ix2 p q)
        + broadcastTo S4000x256 be broadcasts_S1x256_S4000x256 (ix2 p q)) (Ideal.ofBits .f32 0x00000000#32) + r (ix2 p q) = _
  rw [broadcastTo_1b_ab_apply b, broadcastTo_1b_ab_apply mu, broadcastTo_1b_ab_apply g, broadcastTo_1b_ab_apply be,
    broadcastTo_1b_ab_apply (rsqrt (addf v (broadcast S1x256 (Scalar.ofBits (F := Ideal) .f32 0x3727C5AC#32))))]
  rfl

/-- Row block `b` of the normalised array is the body's result on row block `b` of the two blocked arrays and the five
    whole parameter rows, entry by entry. -/
theorem pay6_rows (A : Mat 200000 256) (B G Be Mu Vr : Mat 1 256) (Rs : Mat 200000 256)
    (x0 : Vec Ideal S4000x256 .f32) (x1 x2 x3 x4 x5 : Vec Ideal S1x256 .f32) (x6 : Vec Ideal S4000x256 .f32)
    (b : Nat) (hb : b < 50)
    (h0 : ∀ (p : Fin 4000) (q : Fin 256), x0 (ix2 p q) = A (ix2 (⟨b * 4000 + p.val, by omega⟩ : Fin 200000) q))
    (h1 : ∀ (q : Fin 256), x1 (ix2 (0 : Fin 1) q) = B (ix2 (0 : Fin 1) q))
    (h2 : ∀ (q : Fin 256), x2 (ix2 (0 : Fin 1) q) = G (ix2 (0 : Fin 1) q))
    (h3 : ∀ (q : Fin 256), x3 (ix2 (0 : Fin 1) q) = Be (ix2 (0 : Fin 1) q))
    (h4 : ∀ (q : Fin 256), x4 (ix2 (0 : Fin 1) q) = Mu (ix2 (0 : Fin 1) q))
    (h5 : ∀ (q : Fin 256), x5 (ix2 (0 : Fin 1) q) = Vr (ix2 (0 : Fin 1) q))
    (h6 : ∀ (p : Fin 4000) (q : Fin 256), x6 (ix2 p q) = Rs (ix2 (⟨b * 4000 + p.val, by omega⟩ : Fin 200000) q))
    (p : Fin 4000) (q : Fin 256) :
    k6_pay1 (F := Ideal) x0 x1 x4 x5 x2 x3 x6 (ix2 p q)
      = normAct A B G Be Mu Vr Rs (ix2 (⟨b * 4000 + p.val, by omega⟩ : Fin 200000) q) := by
  rw [pay6_apply, h0 p q, h1 q, h2 q, h3 q, h4 q, h5 q, h6 p q]
  rfl

/-- The index maps over the grid: the aggregate, the identity and the output row blocks move together, one block of 4000
    rows per point; the five parameter rows are whole at every point. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0
    ∧ win6_7.index t (0 : Fin 2) = t.val ∧ win6_7.index t (1 : Fin 2) = 0 :=
  (by decide +kernel : ∀ t : Fin grid6.N, _)

section
variable (V : (c : Dev nD) → (b : Ref sig .tc) → Buf (Elt Ideal) ((c : Thread nD τ).loc b))

set_option maxHeartbeats 1000000 in
/-- What point `t` writes back is block `t` of the normalised array computed from the seven arrays the region finds. -/
theorem flushed6 (c : Dev nD) (t : Fin cfg6.N) :
    (dat6 (F := Ideal) V c).flushed 7 t = ((cfg6.win 7).blk t).view.read (Elt Ideal)
      (normAct (n := 200000) (d := 256) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))) := by
  show (cfg6.win 7).cut (grid6.coords t) ((dat6 V c).after 7 t) = _
  rw [after6_7]
  unfold out6_7
  rw [View.canon_unit_zero origin6]
  simp only [View.ld_unit_zero (S := S4000x256) origin6, View.ld_unit_zero (S := S1x256) origin6]
  obtain ⟨e00, e01, e10, e11, e20, e21, e30, e31, e40, e41, e50, e51, e60, e61, e70, e71⟩ := idx_facts6 t
  have ht : t.val < 50 := t.isLt.trans_eq N_6
  funext j
  obtain ⟨p, q, rfl⟩ : ∃ (p : Fin 4000) (q : Fin 256), j = ix2 p q := ⟨j 0, j 1, eq_ix2 j⟩
  have hemb : ((cfg6.win 7).blk t).view.emb (ix2 p q) = ix2 (⟨t.val * 4000 + p.val, by omega⟩ : Fin 200000) q := by
    funext a; apply Fin.ext
    match a with
    | ⟨0, _⟩ => show win6_7.index t (0 : Fin 2) * 4000 + 1 * p.val = t.val * 4000 + p.val; omega
    | ⟨1, _⟩ => show win6_7.index t (1 : Fin 2) * 256 + 1 * q.val = q.val; omega
  show k6_pay1 (F := Ideal) (iblk6 V c 0 t) (iblk6 V c 1 t) (iblk6 V c 4 t) (iblk6 V c 5 t) (iblk6 V c 2 t) (iblk6 V c 3 t) (iblk6 V c 6 t) (ix2 p q)
    = normAct (n := 200000) (d := 256) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) (((cfg6.win 7).blk t).view.emb (ix2 p q))
  rw [hemb]
  refine pay6_rows (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6))
    (iblk6 V c 0 t) (iblk6 V c 1 t) (iblk6 V c 2 t) (iblk6 V c 3 t) (iblk6 V c 4 t) (iblk6 V c 5 t) (iblk6 V c 6 t)
    t.val ht ?_ ?_ ?_ ?_ ?_ ?_ ?_ p q
  · intro p q
    show V c (Pipeline.arrRef spec6 0) (((cfg6.win 0).blk t).view.emb (ix2 p q)) = _
    refine congrArg _ (funext fun a => Fin.ext ?_)
    match a with
    | ⟨0, _⟩ => show win6_0.index t (0 : Fin 2) * 4000 + 1 * p.val = t.val * 4000 + p.val; omega
    | ⟨1, _⟩ => show win6_0.index t (1 : Fin 2) * 256 + 1 * q.val = q.val; omega
  · intro q
    show V c (Pipeline.arrRef spec6 1) (((cfg6.win 1).blk t).view.emb (ix2 (0 : Fin 1) q)) = _
    refine congrArg _ (funext fun a => Fin.ext ?_)
    match a with
    | ⟨0, _⟩ => show win6_1.index t (0 : Fin 2) * 1 + 1 * 0 = 0; omega
    | ⟨1, _⟩ => show win6_1.index t (1 : Fin 2) * 256 + 1 * q.val = q.val; omega
  · intro q
    show V c (Pipeline.arrRef spec6 2) (((cfg6.win 2).blk t).view.emb (ix2 (0 : Fin 1) q)) = _
    refine congrArg _ (funext fun a => Fin.ext ?_)
    match a with
    | ⟨0, _⟩ => show win6_2.index t (0 : Fin 2) * 1 + 1 * 0 = 0; omega
    | ⟨1, _⟩ => show win6_2.index t (1 : Fin 2) * 256 + 1 * q.val = q.val; omega
  · intro q
    show V c (Pipeline.arrRef spec6 3) (((cfg6.win 3).blk t).view.emb (ix2 (0 : Fin 1) q)) = _
    refine congrArg _ (funext fun a => Fin.ext ?_)
    match a with
    | ⟨0, _⟩ => show win6_3.index t (0 : Fin 2) * 1 + 1 * 0 = 0; omega
    | ⟨1, _⟩ => show win6_3.index t (1 : Fin 2) * 256 + 1 * q.val = q.val; omega
  · intro q
    show V c (Pipeline.arrRef spec6 4) (((cfg6.win 4).blk t).view.emb (ix2 (0 : Fin 1) q)) = _
    refine congrArg _ (funext fun a => Fin.ext ?_)
    match a with
    | ⟨0, _⟩ => show win6_4.index t (0 : Fin 2) * 1 + 1 * 0 = 0; omega
    | ⟨1, _⟩ => show win6_4.index t (1 : Fin 2) * 256 + 1 * q.val = q.val; omega
  · intro q
    show V c (Pipeline.arrRef spec6 5) (((cfg6.win 5).blk t).view.emb (ix2 (0 : Fin 1) q)) = _
    refine congrArg _ (funext fun a => Fin.ext ?_)
    match a with
    | ⟨0, _⟩ => show win6_5.index t (0 : Fin 2) * 1 + 1 * 0 = 0; omega
    | ⟨1, _⟩ => show win6_5.index t (1 : Fin 2) * 256 + 1 * q.val = q.val; omega
  · intro p q
    show V c (Pipeline.arrRef spec6 6) (((cfg6.win 6).blk t).view.emb (ix2 p q)) = _
    refine congrArg _ (funext fun a => Fin.ext ?_)
    match a with
    | ⟨0, _⟩ => show win6_6.index t (0 : Fin 2) * 4000 + 1 * p.val = t.val * 4000 + p.val; omega
    | ⟨1, _⟩ => show win6_6.index t (1 : Fin 2) * 256 + 1 * q.val = q.val; omega

/-- An entry of the output array lies in point `t`'s block iff its row is among the block's 4000 rows. -/
theorem mem_blk6 (t : Fin cfg6.N) (i : S200000x256.Idx) :
    i ∈ ((cfg6.win 7).blk t).view.set ↔ ∀ a : Fin 2, win6_7.index t a * S4000x256.size a ≤ (i a).val ∧ (i a).val < win6_7.index t a * S4000x256.size a + S4000x256.size a := by
  show i ∈ ((View.whole main_v122).slice (win6_7.rect t)).set ↔ _
  rw [View.set_slice_whole, Rect.mem_set_unit]
  exact Iff.rfl

/-- Row `r` is written back by point `r / 4000`. -/
theorem cover6 (i : S200000x256.Idx) : ∃ t : Fin cfg6.N, (cfg6.win 7).flush t = true ∧ i ∈ ((cfg6.win 7).blk t).view.set := by
  have hi0 : (i 0).val < 200000 := (i 0).isLt
  have hi1 : (i 1).val < 256 := (i 1).isLt
  have hN : cfg6.N = 50 := N_6
  obtain ⟨t, htv⟩ : ∃ t : Fin cfg6.N, t.val = (i 0).val / 4000 := ⟨⟨(i 0).val / 4000, by rw [hN]; omega⟩, rfl⟩
  obtain ⟨-, -, -, -, -, -, -, -, -, -, -, -, -, -, e70, e71⟩ := idx_facts6 t
  refine ⟨t, flush6_7 t, ?_⟩
  rw [mem_blk6]
  intro a
  match a with
  | ⟨0, _⟩ => show win6_7.index t (0 : Fin 2) * 4000 ≤ (i 0).val ∧ (i 0).val < win6_7.index t (0 : Fin 2) * 4000 + 4000; omega
  | ⟨1, _⟩ => show win6_7.index t (1 : Fin 2) * 256 ≤ (i 1).val ∧ (i 1).val < win6_7.index t (1 : Fin 2) * 256 + 256; omega

/-- The output array after region 6: normalisation, rectifier and residual of the seven arrays the region finds on entry. -/
theorem region6_array (c : Dev nD) :
    (dat6 (F := Ideal) V c).arrAt 7 cfg6.N
      = normAct (n := 200000) (d := 256) (V c (Pipeline.arrRef spec6 0)) (V c (Pipeline.arrRef spec6 1)) (V c (Pipeline.arrRef spec6 2)) (V c (Pipeline.arrRef spec6 3)) (V c (Pipeline.arrRef spec6 4)) (V c (Pipeline.arrRef spec6 5)) (V c (Pipeline.arrRef spec6 6)) :=
  (dat6 (F := Ideal) V c).arrAt_eq_of_cover 7 _ (fun t _ => flushed6 V c t) cover6

end

end Cert.KernelIdeal.Regions

end
-- ==== Proof.RegionTwoLayer.lean ====
/-
  The last region of the kernel program: two affine layers with a rectifier between them.  A grid point t reads rows
  1024 t … 1024 t + 1023 of the [4096, 256] input and the whole of two weight matrices and two bias rows, and writes
  the same rows of the output: entry (p, j) of its block is
      Σ_q max( Σ_s x[p,s] · w₁[s,q] + b₁[0,q] , 0 ) · w₂[q,j]  +  b₂[0,j].
  A row of the result depends only on the same row of the input, so the 4 blocks written back are the 4 row blocks of
  that function of the whole arrays.
-/
import proofs.«119171_j86912958202425_1_alg».proof.Proof.Gen.KernelIdeal.Frame
import proofs.«119171_j86912958202425_1_alg».proof.Proof.Layers
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen Cert.Layers

/-- A whole-block access starts at the origin. -/
theorem origin7 : (![0, 0] : Fin 2 → Nat) = fun _ => 0 := funext fun a => by fin_cases a <;> rfl

theorem dot1024_apply_lhs0 (i : S1024x256.Idx) (c : dot_S1024x256_S256x256_S1024x256_1_0_0_1_n_n.contr.Idx) : (dot_S1024x256_S256x256_S1024x256_1_0_0_1_n_n.lhsIdx i c 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem dot1024_apply_lhs1 (i : S1024x256.Idx) (c : dot_S1024x256_S256x256_S1024x256_1_0_0_1_n_n.contr.Idx) : (dot_S1024x256_S256x256_S1024x256_1_0_0_1_n_n.lhsIdx i c 1).val = (c ⟨0, by decide⟩).val :=
  dot_S1024x256_S256x256_S1024x256_1_0_0_1_n_n.lhsIdx_val_of_single rfl i c
theorem dot1024_apply_rhs0 (i : S1024x256.Idx) (c : dot_S1024x256_S256x256_S1024x256_1_0_0_1_n_n.contr.Idx) : (dot_S1024x256_S256x256_S1024x256_1_0_0_1_n_n.rhsIdx i c 0).val = (c ⟨0, by decide⟩).val :=
  dot_S1024x256_S256x256_S1024x256_1_0_0_1_n_n.rhsIdx_val_of_single rfl i c
theorem dot1024_apply_rhs1 (i : S1024x256.Idx) (c : dot_S1024x256_S256x256_S1024x256_1_0_0_1_n_n.contr.Idx) : (dot_S1024x256_S256x256_S1024x256_1_0_0_1_n_n.rhsIdx i c 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- A 1024 × 256 block times a 256 × 256 matrix accumulated from zero, at an entry: the sum over the shared axis. -/
theorem dot1024_apply (x : FVec Ideal S1024x256 .f32) (w : FVec Ideal S256x256 .f32) (p : Fin 1024) (q : Fin 256) :
    matmul dot_S1024x256_S256x256_S1024x256_1_0_0_1_n_n none x w (constant (F := Ideal) S1024x256 .f32 0x00000000#32) (ix2 p q)
      = ∑ k : Fin 256, x (ix2 p k) * w (ix2 k q) := by
  refine (Ideal.matmul_constant_zero_apply dot_S1024x256_S256x256_S1024x256_1_0_0_1_n_n none x w (ix2 p q)).trans ?_
  rw [← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p q) ((contrEquiv1 dot_S1024x256_S256x256_S1024x256_1_0_0_1_n_n 256 rfl rfl).symm k) = ix2 p k := funext fun a => Fin.ext (by
    match a with
    | ⟨0, _⟩ => exact dot1024_apply_lhs0 _ _
    | ⟨1, _⟩ => exact (dot1024_apply_lhs1 _ _).trans hk)
  have er : dot_S1024x256_S256x256_S1024x256_1_0_0_1_n_n.rhsIdx (ix2 p q) ((contrEquiv1 dot_S1024x256_S256x256_S1024x256_1_0_0_1_n_n 256 rfl rfl).symm k) = ix2 k q := funext fun a => Fin.ext (by
    match a with
    | ⟨0, _⟩ => exact (dot1024_apply_rhs0 _ _).trans hk
    | ⟨1, _⟩ => exact dot1024_apply_rhs1 _ _)
  rw [el, er]

/-- The body's arithmetic at an entry: affine, rectifier, affine, on a block of 1024 rows. -/
theorem pay7_apply (x : Vec Ideal S1024x256 .f32) (w1 : Vec Ideal S256x256 .f32) (b1 : Vec Ideal S1x256 .f32)
    (w2 : Vec Ideal S256x256 .f32) (b2 : Vec Ideal S1x256 .f32) (p : Fin 1024) (q : Fin 256) :
    k7_pay1 (F := Ideal) x w1 b1 w2 b2 (ix2 p q)
      = (∑ k : Fin 256, max ((∑ s : Fin 256, x (ix2 p s) * w1 (ix2 s k)) + b1 (ix2 (0 : Fin 1) k)) (Ideal.ofBits .f32 0x00000000#32)
          * w2 (ix2 k q)) + b2 (ix2 (0 : Fin 1) q) := by
  unfold k7_pay1
  simp only [shapeCast_self]
  show matmul dot_S1024x256_S256x256_S1024x256_1_0_0_1_n_n none
        (maximumf (addf (matmul dot_S1024x256_S256x256_S1024x256_1_0_0_1_n_n none x w1 (constant (F := Ideal) S1024x256 .f32 0x00000000#32))
            (broadcastTo S1024x256 b1 broadcasts_S1x256_S1024x256))
          (broadcast S1024x256 (Scalar.ofBits (F := Ideal) .f32 0x00000000#32)))
        w2 (constant (F := Ideal) S1024x256 .f32 0x00000000#32) (ix2 p q)
      + broadcastTo S1024x256 b2 broadcasts_S1x256_S1024x256 (ix2 p q) = _
  rw [dot1024_apply, broadcastTo_1b_ab_apply]
  refine congrArg (· + b2 (ix2 (0 : Fin 1) q)) (Finset.sum_congr rfl fun k _ => ?_)
  show max (matmul dot_S1024x256_S256x256_S1024x256_1_0_0_1_n_n none x w1 (constant (F := Ideal) S1024x256 .f32 0x00000000#32) (ix2 p k)
        + broadcastTo S1024x256 b1 broadcasts_S1x256_S1024x256 (ix2 p k)) (Ideal.ofBits .f32 0x00000000#32) * w2 (ix2 k q) = _
  rw [dot1024_apply, broadcastTo_1b_ab_apply]

/-- Row block `b` of the two-layer image is the body's result on row block `b` of the input and the whole of the four
    parameter arrays, entry by entry. -/
theorem pay7_rows (A : Mat 4096 256) (W1 : Mat 256 256) (B1 : Mat 1 256) (W2 : Mat 256 256) (B2 : Mat 1 256)
    (x0 : Vec Ideal S1024x256 .f32) (x1 : Vec Ideal S256x256 .f32) (x2 : Vec Ideal S1x256 .f32)
    (x3 : Vec Ideal S256x256 .f32) (x4 : Vec Ideal S1x256 .f32)
    (b : Nat) (hb : b < 4)
    (h0 : ∀ (p : Fin 1024) (k : Fin 256), x0 (ix2 p k) = A (ix2 (⟨b * 1024 + p.val, by omega⟩ : Fin 4096) k))
    (h1 : ∀ (k q : Fin 256), x1 (ix2 k q) = W1 (ix2 k q))
    (h2 : ∀ (q : Fin 256), x2 (ix2 (0 : Fin 1) q) = B1 (ix2 (0 : Fin 1) q))
    (h3 : ∀ (k q : Fin 256), x3 (ix2 k q) = W2 (ix2 k q))
    (h4 : ∀ (q : Fin 256), x4 (ix2 (0 : Fin 1) q) = B2 (ix2 (0 : Fin 1) q))
    (p : Fin 1024) (q : Fin 256) :
    k7_pay1 (F := Ideal) x0 x1 x2 x3 x4 (ix2 p q)
      = twoLayer A W1 B1 W2 B2 (ix2 (⟨b * 1024 + p.val, by omega⟩ : Fin 4096) q) := by
  rw [pay7_apply, h4 q]
  show _ = (∑ k : Fin 256, max ((∑ s : Fin 256, A (ix2 (⟨b * 1024 + p.val, by omega⟩ : Fin 4096) s) * W1 (ix2 s k)) + B1 (ix2 (0 : Fin 1) k))
      (Ideal.ofBits .f32 0x00000000#32) * W2 (ix2 k q)) + B2 (ix2 (0 : Fin 1) q)
  refine congrArg (· + B2 (ix2 (0 : Fin 1) q)) (Finset.sum_congr rfl fun k _ => ?_)
  rw [h2 k, h3 k q]
  refine congrArg (fun z => max (z + B1 (ix2 (0 : Fin 1) k)) (Ideal.ofBits .f32 0x00000000#32) * W2 (ix2 k q)) ?_
  exact Finset.sum_congr rfl fun s _ => by rw [h0 p s, h1 s k]

/-- The index maps over the grid: the input and output row blocks move together, one block of 1024 rows per point;
    the two weight matrices and the two bias rows are whole at every point. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

section
variable (V : (c : Dev nD) → (b : Ref sig .tc) → Buf (Elt Ideal) ((c : Thread nD τ).loc b))

/-- Point `t`'s block of the input is rows 1024 t … 1024 t + 1023 of the input array. -/
theorem blk7_0 (c : Dev nD) (t : Fin cfg7.N) (ht : t.val < 4) (p : Fin 1024) (k : Fin 256) :
    iblk7 V c 0 t (ix2 p k) = V c (Pipeline.arrRef spec7 0) (ix2 (⟨t.val * 1024 + p.val, by omega⟩ : Fin 4096) k) := by
  obtain ⟨e0, e1, -⟩ := idx_facts7 t
  show V c (Pipeline.arrRef spec7 0) (((cfg7.win 0).blk t).view.emb (ix2 p k)) = _
  refine congrArg _ (funext fun a => Fin.ext ?_)
  match a with
  | ⟨0, _⟩ => show win7_0.index t (0 : Fin 2) * 1024 + 1 * p.val = t.val * 1024 + p.val; omega
  | ⟨1, _⟩ => show win7_0.index t (1 : Fin 2) * 256 + 1 * k.val = k.val; omega

/-- The first weight matrix is whole at every point: its block read at an entry is the array at that entry. -/
theorem blk7_1 (c : Dev nD) (t : Fin cfg7.N) (k q : Fin 256) :
    iblk7 V c 1 t (ix2 k q) = V c (Pipeline.arrRef spec7 1) (ix2 k q) := by
  obtain ⟨-, -, e0, e1, -, -, -, -, -, -, -, -⟩ := idx_facts7 t
  show V c (Pipeline.arrRef spec7 1) (((cfg7.win 1).blk t).view.emb (ix2 k q)) = _
  refine congrArg _ (funext fun a => Fin.ext ?_)
  match a with
  | ⟨0, _⟩ => show win7_1.index t (0 : Fin 2) * 256 + 1 * k.val = k.val; omega
  | ⟨1, _⟩ => show win7_1.index t (1 : Fin 2) * 256 + 1 * q.val = q.val; omega

/-- The first bias row is whole at every point: its block read at an entry is the row at that entry. -/
theorem blk7_2 (c : Dev nD) (t : Fin cfg7.N) (q : Fin 256) :
    iblk7 V c 2 t (ix2 (0 : Fin 1) q) = V c (Pipeline.arrRef spec7 2) (ix2 (0 : Fin 1) q) := by
  obtain ⟨-, -, -, -, e0, e1, -, -, -, -, -, -⟩ := idx_facts7 t
  show V c (Pipeline.arrRef spec7 2) (((cfg7.win 2).blk t).view.emb (ix2 (0 : Fin 1) q)) = _
  refine congrArg _ (funext fun a => Fin.ext ?_)
  match a with
  | ⟨0, _⟩ => show win7_2.index t (0 : Fin 2) * 1 + 1 * 0 = 0; omega
  | ⟨1, _⟩ => show win7_2.index t (1 : Fin 2) * 256 + 1 * q.val = q.val; omega

/-- The second weight matrix is whole at every point: its block read at an entry is the array at that entry. -/
theorem blk7_3 (c : Dev nD) (t : Fin cfg7.N) (k q : Fin 256) :
    iblk7 V c 3 t (ix2 k q) = V c (Pipeline.arrRef spec7 3) (ix2 k q) := by
  obtain ⟨-, -, -, -, -, -, e0, e1, -, -, -, -⟩ := idx_facts7 t
  show V c (Pipeline.arrRef spec7 3) (((cfg7.win 3).blk t).view.emb (ix2 k q)) = _
  refine congrArg _ (funext fun a => Fin.ext ?_)
  match a with
  | ⟨0, _⟩ => show win7_3.index t (0 : Fin 2) * 256 + 1 * k.val = k.val; omega
  | ⟨1, _⟩ => show win7_3.index t (1 : Fin 2) * 256 + 1 * q.val = q.val; omega

/-- The second bias row is whole at every point: its block read at an entry is the row at that entry. -/
theorem blk7_4 (c : Dev nD) (t : Fin cfg7.N) (q : Fin 256) :
    iblk7 V c 4 t (ix2 (0 : Fin 1) q) = V c (Pipeline.arrRef spec7 4) (ix2 (0 : Fin 1) q) := by
  obtain ⟨-, -, -, -, -, -, -, -, e0, e1, -, -⟩ := idx_facts7 t
  show V c (Pipeline.arrRef spec7 4) (((cfg7.win 4).blk t).view.emb (ix2 (0 : Fin 1) q)) = _
  refine congrArg _ (funext fun a => Fin.ext ?_)
  match a with
  | ⟨0, _⟩ => show win7_4.index t (0 : Fin 2) * 1 + 1 * 0 = 0; omega
  | ⟨1, _⟩ => show win7_4.index t (1 : Fin 2) * 256 + 1 * q.val = q.val; omega

/-- Entry (p, q) of point `t`'s output block is entry (1024 t + p, q) of the output array. -/
theorem emb7_5 (t : Fin cfg7.N) (ht : t.val < 4) (p : Fin 1024) (q : Fin 256) :
    ((cfg7.win 5).blk t).view.emb (ix2 p q) = ix2 (⟨t.val * 1024 + p.val, by omega⟩ : Fin 4096) q := by
  obtain ⟨-, -, -, -, -, -, -, -, -, -, e0, e1⟩ := idx_facts7 t
  funext a; apply Fin.ext
  match a with
  | ⟨0, _⟩ => show win7_5.index t (0 : Fin 2) * 1024 + 1 * p.val = t.val * 1024 + p.val; omega
  | ⟨1, _⟩ => show win7_5.index t (1 : Fin 2) * 256 + 1 * q.val = q.val; omega

/-- What point `t` writes back is block `t` of the two-layer image of the five arrays the region finds. -/
theorem flushed7 (c : Dev nD) (t : Fin cfg7.N) :
    (dat7 (F := Ideal) V c).flushed 5 t = ((cfg7.win 5).blk t).view.read (Elt Ideal)
      (twoLayer (n := 4096) (k := 256) (d := 256) (e := 256) (V c (Pipeline.arrRef spec7 0)) (V c (Pipeline.arrRef spec7 1)) (V c (Pipeline.arrRef spec7 2)) (V c (Pipeline.arrRef spec7 3)) (V c (Pipeline.arrRef spec7 4))) := by
  show (cfg7.win 5).cut (grid7.coords t) ((dat7 V c).after 5 t) = _
  rw [after7_5]
  unfold out7_5
  rw [View.canon_unit_zero origin7]
  simp only [View.ld_unit_zero (S := S1024x256) origin7, View.ld_unit_zero (S := S256x256) origin7, View.ld_unit_zero (S := S1x256) origin7]
  have ht : t.val < 4 := t.isLt.trans_eq N_7
  funext j
  obtain ⟨p, q, rfl⟩ : ∃ (p : Fin 1024) (q : Fin 256), j = ix2 p q := ⟨j 0, j 1, eq_ix2 j⟩
  show k7_pay1 (F := Ideal) (iblk7 V c 0 t) (iblk7 V c 1 t) (iblk7 V c 2 t) (iblk7 V c 3 t) (iblk7 V c 4 t) (ix2 p q)
    = twoLayer (n := 4096) (k := 256) (d := 256) (e := 256) (V c (Pipeline.arrRef spec7 0)) (V c (Pipeline.arrRef spec7 1)) (V c (Pipeline.arrRef spec7 2)) (V c (Pipeline.arrRef spec7 3)) (V c (Pipeline.arrRef spec7 4)) (((cfg7.win 5).blk t).view.emb (ix2 p q))
  rw [emb7_5 t ht p q]
  exact pay7_rows (V c (Pipeline.arrRef spec7 0)) (V c (Pipeline.arrRef spec7 1)) (V c (Pipeline.arrRef spec7 2)) (V c (Pipeline.arrRef spec7 3)) (V c (Pipeline.arrRef spec7 4))
    (iblk7 V c 0 t) (iblk7 V c 1 t) (iblk7 V c 2 t) (iblk7 V c 3 t) (iblk7 V c 4 t) t.val ht
    (fun p k => blk7_0 V c t ht p k) (fun k q => blk7_1 V c t k q) (fun q => blk7_2 V c t q)
    (fun k q => blk7_3 V c t k q) (fun q => blk7_4 V c t q) p q

/-- An entry of the output array lies in point `t`'s block iff its row is among the block's 1024 rows. -/
theorem mem_blk7 (t : Fin cfg7.N) (i : S4096x256.Idx) :
    i ∈ ((cfg7.win 5).blk t).view.set ↔ ∀ a : Fin 2, win7_5.index t a * S1024x256.size a ≤ (i a).val ∧ (i a).val < win7_5.index t a * S1024x256.size a + S1024x256.size a := by
  show i ∈ ((View.whole main_v137).slice (win7_5.rect t)).set ↔ _
  rw [View.set_slice_whole, Rect.mem_set_unit]
  exact Iff.rfl

/-- Row `r` is written back by point `r / 1024`. -/
theorem cover7 (i : S4096x256.Idx) : ∃ t : Fin cfg7.N, (cfg7.win 5).flush t = true ∧ i ∈ ((cfg7.win 5).blk t).view.set := by
  have hi0 : (i 0).val < 4096 := (i 0).isLt
  have hi1 : (i 1).val < 256 := (i 1).isLt
  have hN : cfg7.N = 4 := N_7
  obtain ⟨t, htv⟩ : ∃ t : Fin cfg7.N, t.val = (i 0).val / 1024 := ⟨⟨(i 0).val / 1024, by rw [hN]; omega⟩, rfl⟩
  obtain ⟨-, -, -, -, -, -, -, -, -, -, e50, e51⟩ := idx_facts7 t
  refine ⟨t, flush7_5 t, ?_⟩
  rw [mem_blk7]
  intro a
  match a with
  | ⟨0, _⟩ => show win7_5.index t (0 : Fin 2) * 1024 ≤ (i 0).val ∧ (i 0).val < win7_5.index t (0 : Fin 2) * 1024 + 1024; omega
  | ⟨1, _⟩ => show win7_5.index t (1 : Fin 2) * 256 ≤ (i 1).val ∧ (i 1).val < win7_5.index t (1 : Fin 2) * 256 + 256; omega

/-- The output array after region 7: the two-layer image of the five arrays the region finds on entry. -/
theorem region7_array (c : Dev nD) :
    (dat7 (F := Ideal) V c).arrAt 5 cfg7.N
      = twoLayer (n := 4096) (k := 256) (d := 256) (e := 256) (V c (Pipeline.arrRef spec7 0)) (V c (Pipeline.arrRef spec7 1)) (V c (Pipeline.arrRef spec7 2)) (V c (Pipeline.arrRef spec7 3)) (V c (Pipeline.arrRef spec7 4)) :=
  (dat7 (F := Ideal) V c).arrAt_eq_of_cover 5 _ (fun t _ => flushed7 V c t) cover7

end

end Cert.KernelIdeal.Regions

end
-- ==== Proof.RefEmbedProd.lean ====
/-
  The dense steps of the reference program that are matrix products.

  Each `dot_general` of the reference contracts the second axis of its left operand with the first axis of its right
  operand, so its entry (p, j) is the sum  Σ_q h[p,q] · w[q,j]  that `matProd` names: read at an entry the operation is
  a sum over the shared axis with the two operands at indices built coordinate by coordinate, and those indices are
  the pairs (p, q) and (q, j).  The embedding is such a product of the node features with the embedding weights plus
  the bias vector broadcast along the rows, which is `affine`.
-/
import proofs.«119171_j86912958202425_1_alg».proof.Proof.Gen.ReferenceIdeal.Read
import proofs.«119171_j86912958202425_1_alg».proof.Proof.Layers

noncomputable section

open scoped BigOperators

namespace Cert.ReferenceIdeal.Dense

open Cert.ReferenceIdeal Cert.ReferenceIdeal.Read Cert.Layers Idealize.ShloMosaic Idealize.ShloMosaic.ValueIdx

variable (x0 : (⟨S200000x128, .f32⟩ : BufTy).Contents (Elt Ideal)) (x1 : (⟨S2x400000, .i32⟩ : BufTy).Contents (Elt Ideal))
  (x3 : (⟨S128x256, .f32⟩ : BufTy).Contents (Elt Ideal)) (x4 : (⟨S256, .f32⟩ : BufTy).Contents (Elt Ideal))
  (x5 : (⟨S3x256x256, .f32⟩ : BufTy).Contents (Elt Ideal)) (x6 x7 x8 x9 x10 : (⟨S3x256, .f32⟩ : BufTy).Contents (Elt Ideal))

/-- The first layer's linear map: the embedded features times the first weight matrix. -/
theorem ref_prod0 :
    val_main_v34 (F := Ideal) x0 x3 x4 x5
      = matProd (val_main_v31 (F := Ideal) x0 x3 x4) (val_main_v33 (F := Ideal) x5) := by
  funext i
  rw [val_main_v34_apply]
  refine Finset.sum_congr rfl fun k _ => ?_
  have el : lidx_main_v34 i k = ix2 (i 0) k :=
    funext fun a => by match a with | ⟨0, _⟩ => rfl | ⟨1, _⟩ => rfl
  have er : ridx_main_v34 i k = ix2 k (i 1) :=
    funext fun a => by match a with | ⟨0, _⟩ => rfl | ⟨1, _⟩ => rfl
  rw [el, er] <;> rfl

/-- The embedding: features times weights, plus the bias, entry (p, j) being  Σ_q x[p,q] · w[q,j] + b[j]. -/
theorem ref_embed :
    val_main_v31 (F := Ideal) x0 x3 x4 = affine x0 x3 (row x4) := by
  funext i
  rw [val_main_v31_apply, val_main_v28_apply, val_main_v30_apply, val_main_v29_apply]
  have eb : idx_main_v29 (idx_main_v30 i) = ix1 (i 1) :=
    funext fun a => by match a with | ⟨0, _⟩ => rfl
  rw [eb]
  refine congrArg₂ (fun s t : EReal => s + t) (Finset.sum_congr rfl fun k _ => ?_) rfl
  have el : lidx_main_v28 i k = ix2 (i 0) k :=
    funext fun a => by match a with | ⟨0, _⟩ => rfl | ⟨1, _⟩ => rfl
  have er : ridx_main_v28 i k = ix2 k (i 1) :=
    funext fun a => by match a with | ⟨0, _⟩ => rfl | ⟨1, _⟩ => rfl
  rw [el, er] <;> rfl

/-- The second layer's linear map: the first layer's output times the second weight matrix. -/
theorem ref_prod1 :
    val_main_v79 (F := Ideal) x0 x1 x3 x4 x5 x6 x7 x8 x9 x10
      = matProd (val_main_v76 (F := Ideal) x0 x1 x3 x4 x5 x6 x7 x8 x9 x10) (val_main_v78 (F := Ideal) x5) := by
  funext i
  rw [val_main_v79_apply]
  refine Finset.sum_congr rfl fun k _ => ?_
  have el : lidx_main_v79 i k = ix2 (i 0) k :=
    funext fun a => by match a with | ⟨0, _⟩ => rfl | ⟨1, _⟩ => rfl
  have er : ridx_main_v79 i k = ix2 k (i 1) :=
    funext fun a => by match a with | ⟨0, _⟩ => rfl | ⟨1, _⟩ => rfl
  rw [el, er] <;> rfl

/-- The third layer's linear map: the second layer's output times the third weight matrix. -/
theorem ref_prod2 :
    val_main_v124 (F := Ideal) x0 x1 x3 x4 x5 x6 x7 x8 x9 x10
      = matProd (val_main_v121 (F := Ideal) x0 x1 x3 x4 x5 x6 x7 x8 x9 x10) (val_main_v123 (F := Ideal) x5) := by
  funext i
  rw [val_main_v124_apply]
  refine Finset.sum_congr rfl fun k _ => ?_
  have el : lidx_main_v124 i k = ix2 (i 0) k :=
    funext fun a => by match a with | ⟨0, _⟩ => rfl | ⟨1, _⟩ => rfl
  have er : ridx_main_v124 i k = ix2 k (i 1) :=
    funext fun a => by match a with | ⟨0, _⟩ => rfl | ⟨1, _⟩ => rfl
  rw [el, er] <;> rfl

end Cert.ReferenceIdeal.Dense

end
-- ==== Proof.RefNormAct.lean ====
/-
  The reference program's three normalise-and-activate steps.

  After a layer's aggregation the reference adds the convolution bias, applies batch normalisation with the running
  statistics (subtract the mean, multiply by rsqrt(variance + ε), multiply by the scale, add the offset), takes the
  maximum with zero and adds the layer's input.  Every parameter is a stack of three vectors; layer l uses row l,
  which the program takes by a slice, a reshape to a vector and two broadcasts.  Read at entry (p, j), such a chain is
  the stacked parameter's entry (l, j): the only arithmetic is that j mod 256 = j for j < 256.  The reciprocal square
  root is taken on the vector before the broadcast, which at an entry is the same as after it.  With the parameter
  chains read this way the layer's entry (p, j) is literally the formula of `normAct`.
-/
import proofs.«119171_j86912958202425_1_alg».proof.Proof.Gen.ReferenceIdeal.Read
import proofs.«119171_j86912958202425_1_alg».proof.Proof.Layers

noncomputable section

open scoped BigOperators

namespace Cert.ReferenceIdeal.Dense

open Cert.ReferenceIdeal Cert.ReferenceIdeal.Read Cert.Layers Idealize.ShloMosaic Idealize.ShloMosaic.ValueIdx

variable (x0 : (⟨S200000x128, .f32⟩ : BufTy).Contents (Elt Ideal)) (x1 : (⟨S2x400000, .i32⟩ : BufTy).Contents (Elt Ideal))
  (x3 : (⟨S128x256, .f32⟩ : BufTy).Contents (Elt Ideal)) (x4 : (⟨S256, .f32⟩ : BufTy).Contents (Elt Ideal))
  (x5 : (⟨S3x256x256, .f32⟩ : BufTy).Contents (Elt Ideal)) (x6 x7 x8 x9 x10 : (⟨S3x256, .f32⟩ : BufTy).Contents (Elt Ideal))

/-! ### The first layer (row 0 of every stacked parameter) -/

/-- The convolution bias of the first layer, broadcast along the rows: entry (p, j) is the stacked bias's entry (0, j). -/
theorem bias0 (i : S200000x256.Idx) :
    val_main_v50 (F := Ideal) x6 i = rowOf (0 : Fin 3) x6 (ix2 0 (i 1)) := by
  rw [val_main_v50_apply, val_main_v49_apply, val_main_v48_apply, val_main_v47_apply]
  exact congrArg x6 (funext fun a => Fin.ext (by
    match a with
    | ⟨0, _⟩ => rfl
    | ⟨1, _⟩ => exact Nat.mod_eq_of_lt (idx2_lt1 i)))

/-- The running mean of the first layer, broadcast along the rows. -/
theorem mean0 (i : S200000x256.Idx) :
    val_main_v55 (F := Ideal) x9 i = rowOf (0 : Fin 3) x9 (ix2 0 (i 1)) := by
  rw [val_main_v55_apply, val_main_v54_apply, val_main_v53_apply, val_main_v52_apply]
  exact congrArg x9 (funext fun a => Fin.ext (by
    match a with
    | ⟨0, _⟩ => rfl
    | ⟨1, _⟩ => exact Nat.mod_eq_of_lt (idx2_lt1 i)))

/-- The normalisation's scale of the first layer, broadcast along the rows. -/
theorem gain0 (i : S200000x256.Idx) :
    val_main_v68 (F := Ideal) x7 i = rowOf (0 : Fin 3) x7 (ix2 0 (i 1)) := by
  rw [val_main_v68_apply, val_main_v67_apply, val_main_v66_apply, val_main_v65_apply]
  exact congrArg x7 (funext fun a => Fin.ext (by
    match a with
    | ⟨0, _⟩ => rfl
    | ⟨1, _⟩ => exact Nat.mod_eq_of_lt (idx2_lt1 i)))

/-- The normalisation's offset of the first layer, broadcast along the rows. -/
theorem shift0 (i : S200000x256.Idx) :
    val_main_v73 (F := Ideal) x8 i = rowOf (0 : Fin 3) x8 (ix2 0 (i 1)) := by
  rw [val_main_v73_apply, val_main_v72_apply, val_main_v71_apply, val_main_v70_apply]
  exact congrArg x8 (funext fun a => Fin.ext (by
    match a with
    | ⟨0, _⟩ => rfl
    | ⟨1, _⟩ => exact Nat.mod_eq_of_lt (idx2_lt1 i)))

/-- The reciprocal square root of the first layer's running variance plus ε, computed on the vector and then
    broadcast along the rows: entry (p, j) is  rsqrt(v[0, j] + ε). -/
theorem invStd0 (i : S200000x256.Idx) :
    val_main_v63 (F := Ideal) x10 i = Ideal.rsqrt (rowOf (0 : Fin 3) x10 (ix2 0 (i 1)) + eps) := by
  rw [val_main_v63_apply, val_main_v62_apply, val_main_v61_apply, val_main_v60_apply, val_main_v59_apply,
    val_main_v58_apply, val_main_v57_apply]
  have e : idx_main_v57 (idx_main_v58 (idx_main_v62 (idx_main_v63 i))) = ix2 (0 : Fin 3) (i 1) :=
    funext fun a => Fin.ext (by
      match a with
      | ⟨0, _⟩ => rfl
      | ⟨1, _⟩ => exact Nat.mod_eq_of_lt (idx2_lt1 i))
  rw [e] <;> rfl

/-- The rectifier's threshold in the first layer is the zero word at every entry. -/
theorem floor0 (i : S200000x256.Idx) :
    val_main_call0_v0 (F := Ideal) i = Ideal.ofBits .f32 0x00000000#32 := by
  rw [val_main_call0_v0_apply] <;> rfl

/-- The first layer after the aggregation: add the bias, subtract the running mean, multiply by the reciprocal
    square root of variance plus ε and by the scale, add the offset, take the maximum with zero, add the layer's input. -/
theorem ref_layer0 :
    val_main_v76 (F := Ideal) x0 x1 x3 x4 x5 x6 x7 x8 x9 x10
      = normAct (val_main_v46 (F := Ideal) x0 x1 x3 x4 x5) (rowOf 0 x6) (rowOf 0 x7) (rowOf 0 x8) (rowOf 0 x9) (rowOf 0 x10)
          (val_main_v31 (F := Ideal) x0 x3 x4) := by
  funext i
  rw [val_main_v76_apply, val_main_v75_apply, val_main_v74_apply, val_main_v69_apply, val_main_v64_apply,
    val_main_v56_apply, val_main_v51_apply, bias0, mean0, invStd0, gain0, shift0, floor0] <;> rfl

/-! ### The second layer (row 1 of every stacked parameter) -/

/-- The convolution bias of the second layer, broadcast along the rows: entry (p, j) is the stacked bias's entry (1, j). -/
theorem bias1 (i : S200000x256.Idx) :
    val_main_v95 (F := Ideal) x6 i = rowOf (1 : Fin 3) x6 (ix2 0 (i 1)) := by
  rw [val_main_v95_apply, val_main_v94_apply, val_main_v93_apply, val_main_v92_apply]
  exact congrArg x6 (funext fun a => Fin.ext (by
    match a with
    | ⟨0, _⟩ => rfl
    | ⟨1, _⟩ => exact Nat.mod_eq_of_lt (idx2_lt1 i)))

/-- The running mean of the second layer, broadcast along the rows. -/
theorem mean1 (i : S200000x256.Idx) :
    val_main_v100 (F := Ideal) x9 i = rowOf (1 : Fin 3) x9 (ix2 0 (i 1)) := by
  rw [val_main_v100_apply, val_main_v99_apply, val_main_v98_apply, val_main_v97_apply]
  exact congrArg x9 (funext fun a => Fin.ext (by
    match a with
    | ⟨0, _⟩ => rfl
    | ⟨1, _⟩ => exact Nat.mod_eq_of_lt (idx2_lt1 i)))

/-- The normalisation's scale of the second layer, broadcast along the rows. -/
theorem gain1 (i : S200000x256.Idx) :
    val_main_v113 (F := Ideal) x7 i = rowOf (1 : Fin 3) x7 (ix2 0 (i 1)) := by
  rw [val_main_v113_apply, val_main_v112_apply, val_main_v111_apply, val_main_v110_apply]
  exact congrArg x7 (funext fun a => Fin.ext (by
    match a with
    | ⟨0, _⟩ => rfl
    | ⟨1, _⟩ => exact Nat.mod_eq_of_lt (idx2_lt1 i)))

/-- The normalisation's offset of the second layer, broadcast along the rows. -/
theorem shift1 (i : S200000x256.Idx) :
    val_main_v118 (F := Ideal) x8 i = rowOf (1 : Fin 3) x8 (ix2 0 (i 1)) := by
  rw [val_main_v118_apply, val_main_v117_apply, val_main_v116_apply, val_main_v115_apply]
  exact congrArg x8 (funext fun a => Fin.ext (by
    match a with
    | ⟨0, _⟩ => rfl
    | ⟨1, _⟩ => exact Nat.mod_eq_of_lt (idx2_lt1 i)))

/-- The reciprocal square root of the second layer's running variance plus ε, computed on the vector and then
    broadcast along the rows: entry (p, j) is  rsqrt(v[1, j] + ε). -/
theorem invStd1 (i : S200000x256.Idx) :
    val_main_v108 (F := Ideal) x10 i = Ideal.rsqrt (rowOf (1 : Fin 3) x10 (ix2 0 (i 1)) + eps) := by
  rw [val_main_v108_apply, val_main_v107_apply, val_main_v106_apply, val_main_v105_apply, val_main_v104_apply,
    val_main_v103_apply, val_main_v102_apply]
  have e : idx_main_v102 (idx_main_v103 (idx_main_v107 (idx_main_v108 i))) = ix2 (1 : Fin 3) (i 1) :=
    funext fun a => Fin.ext (by
      match a with
      | ⟨0, _⟩ => rfl
      | ⟨1, _⟩ => exact Nat.mod_eq_of_lt (idx2_lt1 i))
  rw [e] <;> rfl

/-- The rectifier's threshold in the second layer is the zero word at every entry. -/
theorem floor1 (i : S200000x256.Idx) :
    val_main_call1_v0 (F := Ideal) i = Ideal.ofBits .f32 0x00000000#32 := by
  rw [val_main_call1_v0_apply] <;> rfl

/-- The second layer after the aggregation: add the bias, subtract the running mean, multiply by the reciprocal
    square root of variance plus ε and by the scale, add the offset, take the maximum with zero, add the layer's input. -/
theorem ref_layer1 :
    val_main_v121 (F := Ideal) x0 x1 x3 x4 x5 x6 x7 x8 x9 x10
      = normAct (val_main_v91 (F := Ideal) x0 x1 x3 x4 x5 x6 x7 x8 x9 x10) (rowOf 1 x6) (rowOf 1 x7) (rowOf 1 x8) (rowOf 1 x9) (rowOf 1 x10)
          (val_main_v76 (F := Ideal) x0 x1 x3 x4 x5 x6 x7 x8 x9 x10) := by
  funext i
  rw [val_main_v121_apply, val_main_v120_apply, val_main_v119_apply, val_main_v114_apply, val_main_v109_apply,
    val_main_v101_apply, val_main_v96_apply, bias1, mean1, invStd1, gain1, shift1, floor1] <;> rfl

/-! ### The third layer (row 2 of every stacked parameter) -/

/-- The convolution bias of the third layer, broadcast along the rows: entry (p, j) is the stacked bias's entry (2, j). -/
theorem bias2 (i : S200000x256.Idx) :
    val_main_v140 (F := Ideal) x6 i = rowOf (2 : Fin 3) x6 (ix2 0 (i 1)) := by
  rw [val_main_v140_apply, val_main_v139_apply, val_main_v138_apply, val_main_v137_apply]
  exact congrArg x6 (funext fun a => Fin.ext (by
    match a with
    | ⟨0, _⟩ => rfl
    | ⟨1, _⟩ => exact Nat.mod_eq_of_lt (idx2_lt1 i)))

/-- The running mean of the third layer, broadcast along the rows. -/
theorem mean2 (i : S200000x256.Idx) :
    val_main_v145 (F := Ideal) x9 i = rowOf (2 : Fin 3) x9 (ix2 0 (i 1)) := by
  rw [val_main_v145_apply, val_main_v144_apply, val_main_v143_apply, val_main_v142_apply]
  exact congrArg x9 (funext fun a => Fin.ext (by
    match a with
    | ⟨0, _⟩ => rfl
    | ⟨1, _⟩ => exact Nat.mod_eq_of_lt (idx2_lt1 i)))

/-- The normalisation's scale of the third layer, broadcast along the rows. -/
theorem gain2 (i : S200000x256.Idx) :
    val_main_v158 (F := Ideal) x7 i = rowOf (2 : Fin 3) x7 (ix2 0 (i 1)) := by
  rw [val_main_v158_apply, val_main_v157_apply, val_main_v156_apply, val_main_v155_apply]
  exact congrArg x7 (funext fun a => Fin.ext (by
    match a with
    | ⟨0, _⟩ => rfl
    | ⟨1, _⟩ => exact Nat.mod_eq_of_lt (idx2_lt1 i)))

/-- The normalisation's offset of the third layer, broadcast along the rows. -/
theorem shift2 (i : S200000x256.Idx) :
    val_main_v163 (F := Ideal) x8 i = rowOf (2 : Fin 3) x8 (ix2 0 (i 1)) := by
  rw [val_main_v163_apply, val_main_v162_apply, val_main_v161_apply, val_main_v160_apply]
  exact congrArg x8 (funext fun a => Fin.ext (by
    match a with
    | ⟨0, _⟩ => rfl
    | ⟨1, _⟩ => exact Nat.mod_eq_of_lt (idx2_lt1 i)))

/-- The reciprocal square root of the third layer's running variance plus ε, computed on the vector and then
    broadcast along the rows: entry (p, j) is  rsqrt(v[2, j] + ε). -/
theorem invStd2 (i : S200000x256.Idx) :
    val_main_v153 (F := Ideal) x10 i = Ideal.rsqrt (rowOf (2 : Fin 3) x10 (ix2 0 (i 1)) + eps) := by
  rw [val_main_v153_apply, val_main_v152_apply, val_main_v151_apply, val_main_v150_apply, val_main_v149_apply,
    val_main_v148_apply, val_main_v147_apply]
  have e : idx_main_v147 (idx_main_v148 (idx_main_v152 (idx_main_v153 i))) = ix2 (2 : Fin 3) (i 1) :=
    funext fun a => Fin.ext (by
      match a with
      | ⟨0, _⟩ => rfl
      | ⟨1, _⟩ => exact Nat.mod_eq_of_lt (idx2_lt1 i))
  rw [e] <;> rfl

/-- The rectifier's threshold in the third layer is the zero word at every entry. -/
theorem floor2 (i : S200000x256.Idx) :
    val_main_call2_v0 (F := Ideal) i = Ideal.ofBits .f32 0x00000000#32 := by
  rw [val_main_call2_v0_apply] <;> rfl

/-- The third layer after the aggregation: add the bias, subtract the running mean, multiply by the reciprocal
    square root of variance plus ε and by the scale, add the offset, take the maximum with zero, add the layer's input. -/
theorem ref_layer2 :
    val_main_v166 (F := Ideal) x0 x1 x3 x4 x5 x6 x7 x8 x9 x10
      = normAct (val_main_v136 (F := Ideal) x0 x1 x3 x4 x5 x6 x7 x8 x9 x10) (rowOf 2 x6) (rowOf 2 x7) (rowOf 2 x8) (rowOf 2 x9) (rowOf 2 x10)
          (val_main_v121 (F := Ideal) x0 x1 x3 x4 x5 x6 x7 x8 x9 x10) := by
  funext i
  rw [val_main_v166_apply, val_main_v165_apply, val_main_v164_apply, val_main_v159_apply, val_main_v154_apply,
    val_main_v146_apply, val_main_v141_apply, bias2, mean2, invStd2, gain2, shift2, floor2] <;> rfl

end Cert.ReferenceIdeal.Dense

end
-- ==== Proof.RefTwoLayer.lean ====
/-
  The reference program's read-out: two affine maps with a rectifier between them, applied to the pooled rows.

  The hidden entry (p, q) is  max( Σ_s pooled[p,s] · w₁[s,q] + b₁[q] , 0 )  and the output entry (p, j) is
  Σ_q hidden[p,q] · w₂[q,j] + b₂[j].  Each `dot_general` contracts the second axis of its left operand with the first
  of its right operand, each bias vector is broadcast along the rows, and the rectifier's threshold is the zero word,
  so the program's entry is literally the formula of `twoLayer`.
-/
import proofs.«119171_j86912958202425_1_alg».proof.Proof.Gen.ReferenceIdeal.Read
import proofs.«119171_j86912958202425_1_alg».proof.Proof.Layers

noncomputable section

open scoped BigOperators

namespace Cert.ReferenceIdeal.Dense

open Cert.ReferenceIdeal Cert.ReferenceIdeal.Read Cert.Layers Idealize.ShloMosaic Idealize.ShloMosaic.ValueIdx

variable (x0 : (⟨S200000x128, .f32⟩ : BufTy).Contents (Elt Ideal)) (x1 : (⟨S2x400000, .i32⟩ : BufTy).Contents (Elt Ideal))
  (x2 : (⟨S200000, .i32⟩ : BufTy).Contents (Elt Ideal))
  (x3 : (⟨S128x256, .f32⟩ : BufTy).Contents (Elt Ideal)) (x4 : (⟨S256, .f32⟩ : BufTy).Contents (Elt Ideal))
  (x5 : (⟨S3x256x256, .f32⟩ : BufTy).Contents (Elt Ideal)) (x6 x7 x8 x9 x10 : (⟨S3x256, .f32⟩ : BufTy).Contents (Elt Ideal))
  (x11 : (⟨S256x256, .f32⟩ : BufTy).Contents (Elt Ideal)) (x12 : (⟨S256, .f32⟩ : BufTy).Contents (Elt Ideal))
  (x13 : (⟨S256x256, .f32⟩ : BufTy).Contents (Elt Ideal)) (x14 : (⟨S256, .f32⟩ : BufTy).Contents (Elt Ideal))

/-- The first bias, broadcast along the rows: entry (p, q) is b₁[q]. -/
theorem bias_hidden (j : S4096x256.Idx) :
    val_main_v181 (F := Ideal) x12 j = row x12 (ix2 0 (j 1)) := by
  rw [val_main_v181_apply, val_main_v180_apply]
  exact congrArg x12 (funext fun a => by match a with | ⟨0, _⟩ => rfl)

/-- The second bias, broadcast along the rows: entry (p, j) is b₂[j]. -/
theorem bias_out (i : S4096x256.Idx) :
    val_main_v186 (F := Ideal) x14 i = row x14 (ix2 0 (i 1)) := by
  rw [val_main_v186_apply, val_main_v185_apply]
  exact congrArg x14 (funext fun a => by match a with | ⟨0, _⟩ => rfl)

/-- The rectifier's threshold is the zero word at every entry. -/
theorem floor_hidden (j : S4096x256.Idx) :
    val_main_call3_v0 (F := Ideal) j = Ideal.ofBits .f32 0x00000000#32 := by
  rw [val_main_call3_v0_apply] <;> rfl

/-- The hidden layer at entry (p, q):  max( Σ_s pooled[p,s] · w₁[s,q] + b₁[q] , 0 ). -/
theorem hidden (p : Fin 4096) (q : Fin 256) :
    val_main_v183 (F := Ideal) x0 x1 x2 x3 x4 x5 x6 x7 x8 x9 x10 x11 x12 (ix2 p q)
      = max ((∑ s : Fin 256, val_main_v178 (F := Ideal) x0 x1 x2 x3 x4 x5 x6 x7 x8 x9 x10 (ix2 p s) * x11 (ix2 s q)) + row x12 (ix2 0 q))
          (Ideal.ofBits .f32 0x00000000#32) := by
  rw [val_main_v183_apply, val_main_v182_apply, val_main_v179_apply, bias_hidden, floor_hidden]
  refine congrArg₂ (fun s t : EReal => max (s + t) (Ideal.ofBits .f32 0x00000000#32)) (Finset.sum_congr rfl fun s _ => ?_) rfl
  have el : lidx_main_v179 (ix2 p q) s = ix2 p s :=
    funext fun a => by match a with | ⟨0, _⟩ => rfl | ⟨1, _⟩ => rfl
  have er : ridx_main_v179 (ix2 p q) s = ix2 s q :=
    funext fun a => by match a with | ⟨0, _⟩ => rfl | ⟨1, _⟩ => rfl
  rw [el, er] <;> rfl

/-- The read-out is the two-layer map of the pooled rows. -/
theorem ref_mlp :
    val_main_v187 (F := Ideal) x0 x1 x2 x3 x4 x5 x6 x7 x8 x9 x10 x11 x12 x13 x14
      = twoLayer (val_main_v178 (F := Ideal) x0 x1 x2 x3 x4 x5 x6 x7 x8 x9 x10) x11 (row x12) x13 (row x14) := by
  funext i
  obtain ⟨p, j, rfl⟩ : ∃ (p : Fin 4096) (j : Fin 256), i = ix2 p j := ⟨i 0, i 1, eq_ix2 i⟩
  rw [val_main_v187_apply, val_main_v184_apply, bias_out]
  refine congrArg₂ (fun s t : EReal => s + t) (Finset.sum_congr rfl fun k _ => ?_) rfl
  have el : lidx_main_v184 (ix2 p j) k = ix2 p k :=
    funext fun a => by match a with | ⟨0, _⟩ => rfl | ⟨1, _⟩ => rfl
  have er : ridx_main_v184 (ix2 p j) k = ix2 k j :=
    funext fun a => by match a with | ⟨0, _⟩ => rfl | ⟨1, _⟩ => rfl
  rw [el, er, hidden] <;> rfl

end Cert.ReferenceIdeal.Dense

end
-- ==== Proof.Chain.lean ====
/-
  The result of the idealized kernel program as the reference's own stage functions of the launch contents.

  Boundary by boundary: the first region leaves the embedded features x·W_emb + b_emb, which is the reference's
  embedding; each layer's matrix-product region leaves h·W_l, the host stretch after it the edge aggregate of that
  product (the same gather, scaling and scatter-add as the reference, applied to the same product), the normalisation
  region the rectified batch-normalised aggregate plus the layer's input; after three layers the last stretch pools
  the features per graph and the last region applies the two-layer output network.  At every step the kernel's array
  is the reference's stage of the same arguments, so the final array is the reference's result.
-/
import proofs.«119171_j86912958202425_1_alg».proof.Proof.HostReads
import proofs.«119171_j86912958202425_1_alg».proof.Proof.RegionAffine
import proofs.«119171_j86912958202425_1_alg».proof.Proof.RegionMatProd
import proofs.«119171_j86912958202425_1_alg».proof.Proof.RegionMatProd3
import proofs.«119171_j86912958202425_1_alg».proof.Proof.RegionMatProd5
import proofs.«119171_j86912958202425_1_alg».proof.Proof.RegionNormAct
import proofs.«119171_j86912958202425_1_alg».proof.Proof.RegionNormAct4
import proofs.«119171_j86912958202425_1_alg».proof.Proof.RegionNormAct6
import proofs.«119171_j86912958202425_1_alg».proof.Proof.RegionTwoLayer
import proofs.«119171_j86912958202425_1_alg».proof.Proof.RefEmbedProd
import proofs.«119171_j86912958202425_1_alg».proof.Proof.RefNormAct
import proofs.«119171_j86912958202425_1_alg».proof.Proof.RefTwoLayer

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

open Cert.Layers

variable (m : (ℓ : Loc nD τ sig) → Buf (Elt Ideal) ℓ) (ρ : Dev nD → PrngReg) (c : Dev nD)

/-! ## An input array of a region is unchanged by it -/

theorem in1_0 : W4 m ρ c (Proc.devRef .tc main_v29) = W3 m ρ c (Proc.devRef .tc main_v29) :=
  (W4_arr m ρ c 0).trans (((dat1 (V3 m ρ) c).arrAt_in 0 rfl _).trans (A_eq1 (V3 m ρ) c 0))
theorem in3_0 : W8 m ρ c (Proc.devRef .tc main_v60) = W7 m ρ c (Proc.devRef .tc main_v60) :=
  (W8_arr m ρ c 0).trans (((dat3 (V7 m ρ) c).arrAt_in 0 rfl _).trans (A_eq3 (V7 m ρ) c 0))
theorem in5_0 : W12 m ρ c (Proc.devRef .tc main_v91) = W11 m ρ c (Proc.devRef .tc main_v91) :=
  (W12_arr m ρ c 0).trans (((dat5 (V11 m ρ) c).arrAt_in 0 rfl _).trans (A_eq5 (V11 m ρ) c 0))

/-! ## The embedding -/

theorem embed_at2 : W2 m ρ c (Proc.devRef .tc main_v29) = Cert.ReferenceIdeal.Read.val_main_v31 (F := Ideal) (m ((c : Thread nD τ).loc main_arg0)) (m ((c : Thread nD τ).loc main_arg3)) (m ((c : Thread nD τ).loc main_arg4)) := by
  refine ((W2_arr m ρ c 3).trans (Cert.KernelIdeal.Regions.region0_array (V1 m ρ) c)).trans ?_
  rw [show V1 m ρ c (Pipeline.arrRef spec0 0) = (m ((c : Thread nD τ).loc main_arg0)) from arg_at1 m ρ c main_arg0 (by decide),
    show V1 m ρ c (Pipeline.arrRef spec0 1) = (m ((c : Thread nD τ).loc main_arg3)) from arg_at1 m ρ c main_arg3 (by decide),
    show V1 m ρ c (Pipeline.arrRef spec0 2) = row (m ((c : Thread nD τ).loc main_arg4)) from bias_at1 m ρ c]
  exact (Cert.ReferenceIdeal.Dense.ref_embed ..).symm

theorem embed_at3 : W3 m ρ c (Proc.devRef .tc main_v29) = Cert.ReferenceIdeal.Read.val_main_v31 (F := Ideal) (m ((c : Thread nD τ).loc main_arg0)) (m ((c : Thread nD τ).loc main_arg3)) (m ((c : Thread nD τ).loc main_arg4)) :=
  (hopH1 m ρ c main_v29 (by decide)).trans (embed_at2 m ρ c)

theorem embed_at5 : W5 m ρ c (Proc.devRef .tc main_v29) = Cert.ReferenceIdeal.Read.val_main_v31 (F := Ideal) (m ((c : Thread nD τ).loc main_arg0)) (m ((c : Thread nD τ).loc main_arg3)) (m ((c : Thread nD τ).loc main_arg4)) :=
  (hopH2 m ρ c main_v29 (by decide)).trans ((in1_0 m ρ c).trans (embed_at3 m ρ c))

/-! ## Layer 0 -/

theorem prod0_at4 : W4 m ρ c (Proc.devRef .tc main_v32) = Cert.ReferenceIdeal.Read.val_main_v34 (F := Ideal) (m ((c : Thread nD τ).loc main_arg0)) (m ((c : Thread nD τ).loc main_arg3)) (m ((c : Thread nD τ).loc main_arg4)) (m ((c : Thread nD τ).loc main_arg5)) := by
  refine ((W4_arr m ρ c 2).trans (Cert.KernelIdeal.Regions.region1_array (V3 m ρ) c)).trans ?_
  rw [show V3 m ρ c (Pipeline.arrRef spec1 0) = Cert.ReferenceIdeal.Read.val_main_v31 (F := Ideal) (m ((c : Thread nD τ).loc main_arg0)) (m ((c : Thread nD τ).loc main_arg3)) (m ((c : Thread nD τ).loc main_arg4)) from embed_at3 m ρ c,
    show V3 m ρ c (Pipeline.arrRef spec1 1) = Cert.ReferenceIdeal.Read.val_main_v33 (F := Ideal) (m ((c : Thread nD τ).loc main_arg5)) from slab_at3 m ρ c]
  exact (Cert.ReferenceIdeal.Dense.ref_prod0 ..).symm

theorem agg0_at5 : W5 m ρ c (Proc.devRef .tc main_v44) = Cert.ReferenceIdeal.Read.val_main_v46 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (agg_at5 m ρ c _ (prod0_at4 m ρ c)).trans rfl

set_option maxHeartbeats 2000000 in
theorem layer0_at6 : W6 m ρ c (Proc.devRef .tc main_v60) = Cert.ReferenceIdeal.Read.val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W6_arr m ρ c 7).trans (Cert.KernelIdeal.Regions.region2_array (V5 m ρ) c)).trans ?_
  rw [show V5 m ρ c (Pipeline.arrRef spec2 0) = Cert.ReferenceIdeal.Read.val_main_v46 (F := Ideal) (m ((c : Thread nD τ).loc main_arg0)) (m ((c : Thread nD τ).loc main_arg1)) (m ((c : Thread nD τ).loc main_arg3)) (m ((c : Thread nD τ).loc main_arg4)) (m ((c : Thread nD τ).loc main_arg5)) from agg0_at5 m ρ c,
    show V5 m ρ c (Pipeline.arrRef spec2 1) = rowOf (0 : Fin 3) (m ((c : Thread nD τ).loc main_arg6)) from row_v55 m ρ c,
    show V5 m ρ c (Pipeline.arrRef spec2 2) = rowOf (0 : Fin 3) (m ((c : Thread nD τ).loc main_arg7)) from row_v56 m ρ c,
    show V5 m ρ c (Pipeline.arrRef spec2 3) = rowOf (0 : Fin 3) (m ((c : Thread nD τ).loc main_arg8)) from row_v57 m ρ c,
    show V5 m ρ c (Pipeline.arrRef spec2 4) = rowOf (0 : Fin 3) (m ((c : Thread nD τ).loc main_arg9)) from row_v58 m ρ c,
    show V5 m ρ c (Pipeline.arrRef spec2 5) = rowOf (0 : Fin 3) (m ((c : Thread nD τ).loc main_arg10)) from row_v59 m ρ c,
    show V5 m ρ c (Pipeline.arrRef spec2 6) = Cert.ReferenceIdeal.Read.val_main_v31 (F := Ideal) (m ((c : Thread nD τ).loc main_arg0)) (m ((c : Thread nD τ).loc main_arg3)) (m ((c : Thread nD τ).loc main_arg4)) from embed_at5 m ρ c]
  exact (Cert.ReferenceIdeal.Dense.ref_layer0 ..).symm

/-! ## Layer 1 -/

theorem layer0_at7 : W7 m ρ c (Proc.devRef .tc main_v60) = Cert.ReferenceIdeal.Read.val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (hopH3 m ρ c main_v60 (by decide)).trans (layer0_at6 m ρ c)

theorem layer0_at9 : W9 m ρ c (Proc.devRef .tc main_v60) = Cert.ReferenceIdeal.Read.val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (hopH4 m ρ c main_v60 (by decide)).trans ((in3_0 m ρ c).trans (layer0_at7 m ρ c))

theorem prod1_at8 : W8 m ρ c (Proc.devRef .tc main_v63) = Cert.ReferenceIdeal.Read.val_main_v79 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W8_arr m ρ c 2).trans (Cert.KernelIdeal.Regions.region3_array (V7 m ρ) c)).trans ?_
  rw [show V7 m ρ c (Pipeline.arrRef spec3 0) = Cert.ReferenceIdeal.Read.val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) from layer0_at7 m ρ c,
    show V7 m ρ c (Pipeline.arrRef spec3 1) = Cert.ReferenceIdeal.Read.val_main_v78 (F := Ideal) (m ((c : Thread nD τ).loc main_arg5)) from slab_at7 m ρ c]
  exact (Cert.ReferenceIdeal.Dense.ref_prod1 ..).symm

theorem agg1_at9 : W9 m ρ c (Proc.devRef .tc main_v75) = Cert.ReferenceIdeal.Read.val_main_v91 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (agg_at9 m ρ c _ (prod1_at8 m ρ c)).trans rfl

set_option maxHeartbeats 2000000 in
theorem layer1_at10 : W10 m ρ c (Proc.devRef .tc main_v91) = Cert.ReferenceIdeal.Read.val_main_v121 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W10_arr m ρ c 7).trans (Cert.KernelIdeal.Regions.region4_array (V9 m ρ) c)).trans ?_
  rw [show V9 m ρ c (Pipeline.arrRef spec4 0) = Cert.ReferenceIdeal.Read.val_main_v91 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) from agg1_at9 m ρ c,
    show V9 m ρ c (Pipeline.arrRef spec4 1) = rowOf (1 : Fin 3) (m ((c : Thread nD τ).loc main_arg6)) from row_v86 m ρ c,
    show V9 m ρ c (Pipeline.arrRef spec4 2) = rowOf (1 : Fin 3) (m ((c : Thread nD τ).loc main_arg7)) from row_v87 m ρ c,
    show V9 m ρ c (Pipeline.arrRef spec4 3) = rowOf (1 : Fin 3) (m ((c : Thread nD τ).loc main_arg8)) from row_v88 m ρ c,
    show V9 m ρ c (Pipeline.arrRef spec4 4) = rowOf (1 : Fin 3) (m ((c : Thread nD τ).loc main_arg9)) from row_v89 m ρ c,
    show V9 m ρ c (Pipeline.arrRef spec4 5) = rowOf (1 : Fin 3) (m ((c : Thread nD τ).loc main_arg10)) from row_v90 m ρ c,
    show V9 m ρ c (Pipeline.arrRef spec4 6) = Cert.ReferenceIdeal.Read.val_main_v76 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) from layer0_at9 m ρ c]
  exact (Cert.ReferenceIdeal.Dense.ref_layer1 ..).symm

/-! ## Layer 2 -/

theorem layer1_at11 : W11 m ρ c (Proc.devRef .tc main_v91) = Cert.ReferenceIdeal.Read.val_main_v121 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (hopH5 m ρ c main_v91 (by decide)).trans (layer1_at10 m ρ c)

theorem layer1_at13 : W13 m ρ c (Proc.devRef .tc main_v91) = Cert.ReferenceIdeal.Read.val_main_v121 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (hopH6 m ρ c main_v91 (by decide)).trans ((in5_0 m ρ c).trans (layer1_at11 m ρ c))

theorem prod2_at12 : W12 m ρ c (Proc.devRef .tc main_v94) = Cert.ReferenceIdeal.Read.val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W12_arr m ρ c 2).trans (Cert.KernelIdeal.Regions.region5_array (V11 m ρ) c)).trans ?_
  rw [show V11 m ρ c (Pipeline.arrRef spec5 0) = Cert.ReferenceIdeal.Read.val_main_v121 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) from layer1_at11 m ρ c,
    show V11 m ρ c (Pipeline.arrRef spec5 1) = Cert.ReferenceIdeal.Read.val_main_v123 (F := Ideal) (m ((c : Thread nD τ).loc main_arg5)) from slab_at11 m ρ c]
  exact (Cert.ReferenceIdeal.Dense.ref_prod2 ..).symm

theorem agg2_at13 : W13 m ρ c (Proc.devRef .tc main_v106) = Cert.ReferenceIdeal.Read.val_main_v136 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (agg_at13 m ρ c _ (prod2_at12 m ρ c)).trans rfl

set_option maxHeartbeats 2000000 in
theorem layer2_at14 : W14 m ρ c (Proc.devRef .tc main_v122) = Cert.ReferenceIdeal.Read.val_main_v166 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W14_arr m ρ c 7).trans (Cert.KernelIdeal.Regions.region6_array (V13 m ρ) c)).trans ?_
  rw [show V13 m ρ c (Pipeline.arrRef spec6 0) = Cert.ReferenceIdeal.Read.val_main_v136 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) from agg2_at13 m ρ c,
    show V13 m ρ c (Pipeline.arrRef spec6 1) = rowOf (2 : Fin 3) (m ((c : Thread nD τ).loc main_arg6)) from row_v117 m ρ c,
    show V13 m ρ c (Pipeline.arrRef spec6 2) = rowOf (2 : Fin 3) (m ((c : Thread nD τ).loc main_arg7)) from row_v118 m ρ c,
    show V13 m ρ c (Pipeline.arrRef spec6 3) = rowOf (2 : Fin 3) (m ((c : Thread nD τ).loc main_arg8)) from row_v119 m ρ c,
    show V13 m ρ c (Pipeline.arrRef spec6 4) = rowOf (2 : Fin 3) (m ((c : Thread nD τ).loc main_arg9)) from row_v120 m ρ c,
    show V13 m ρ c (Pipeline.arrRef spec6 5) = rowOf (2 : Fin 3) (m ((c : Thread nD τ).loc main_arg10)) from row_v121 m ρ c,
    show V13 m ρ c (Pipeline.arrRef spec6 6) = Cert.ReferenceIdeal.Read.val_main_v121 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) from layer1_at13 m ρ c]
  exact (Cert.ReferenceIdeal.Dense.ref_layer2 ..).symm

/-! ## The pool and the output network -/

theorem pooled_at15 : W15 m ρ c (Proc.devRef .tc main_v134) =
    Cert.ReferenceIdeal.Read.val_main_v178 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  (pool_at15 m ρ c _ (layer2_at14 m ρ c)).trans rfl

set_option maxHeartbeats 2000000 in
/-- The kernel program's result array is the reference's last stage of the launch contents of the arguments. -/
theorem result_at16 : W16 m ρ c (Proc.devRef .tc main_v137) =
    Cert.ReferenceIdeal.Read.val_main_v187 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine ((W16_arr m ρ c 5).trans (Cert.KernelIdeal.Regions.region7_array (V15 m ρ) c)).trans ?_
  rw [show V15 m ρ c (Pipeline.arrRef spec7 0) = _ from pooled_at15 m ρ c,
    show V15 m ρ c (Pipeline.arrRef spec7 1) = (m ((c : Thread nD τ).loc main_arg11)) from arg_at15 m ρ c main_arg11 (by decide),
    show V15 m ρ c (Pipeline.arrRef spec7 2) = row (m ((c : Thread nD τ).loc main_arg12)) from row_v135 m ρ c,
    show V15 m ρ c (Pipeline.arrRef spec7 3) = (m ((c : Thread nD τ).loc main_arg13)) from arg_at15 m ρ c main_arg13 (by decide),
    show V15 m ρ c (Pipeline.arrRef spec7 4) = row (m ((c : Thread nD τ).loc main_arg14)) from row_v136 m ρ c]
  exact (Cert.ReferenceIdeal.Dense.ref_mlp ..).symm

end Cert.KernelIdeal.Whole

end
-- ==== Proof.lean ====
/-
  The graph-convolution encoder as a pipeline of eight kernel regions among host operations, against the same network
  written with plain array operations: the two programs are equal over the extended reals.

  Both programs compute, from node features x, an edge list and a graph index:  h₀ = x·W_emb + b_emb;  three times
  h ↦ max(BN(A·(h·W_l) + b_l), 0) + h, where A is the normalised adjacency applied by a gather along the edge sources,
  a scaling by the edge weights and a scatter-add at the edge targets, and BN is batch normalisation with running
  statistics;  the mean of h over each graph;  and a two-layer output network.  The kernel program performs the four
  dense steps (embedding, matrix product, normalisation-rectifier-residual, output network) in kernel regions tiled
  over rows, and everything irregular — degrees, gathers, scatter-adds, the pool — by the very host operations the
  reference uses.  So the proof is a walk along the kernel program: at each boundary between segments the array a
  later step reads is the reference's stage function of the launched arguments (Proof/Chain.lean), each region's output
  array being one whole-array function of its inputs (Proof/Region*.lean: the tiles' blocks cover the rows, and every
  block is the restriction of that function), which the reference's operations also compute, entry by entry
  (Proof/Ref*.lean): a matrix product accumulated in a region is the same finite sum as the reference's contraction,
  and the remaining operations are applied pointwise in the same order.  No law of the extended reals beyond
  reindexing a finite sum is needed, so finiteness of the inputs is never used.

  The ideal pass rewrote nothing, so the idealized kernel is the kernel's own text read over the extended reals; the
  three frame claims are the programs' runs with the results dropped.
-/
import proofs.«119171_j86912958202425_1_alg».proof.Defs
import proofs.«119171_j86912958202425_1_alg».proof.Proof.Gen.Kernel
import proofs.«119171_j86912958202425_1_alg».proof.Proof.Gen.Kernel.Skeleton
import proofs.«119171_j86912958202425_1_alg».proof.Proof.Gen.Kernel.Launch
import proofs.«119171_j86912958202425_1_alg».proof.Proof.Gen.Kernel.Points
import proofs.«119171_j86912958202425_1_alg».proof.Proof.Gen.Kernel.Frame
import proofs.«119171_j86912958202425_1_alg».proof.Proof.Gen.KernelIdeal
import proofs.«119171_j86912958202425_1_alg».proof.Proof.Gen.KernelIdeal.Skeleton
import proofs.«119171_j86912958202425_1_alg».proof.Proof.Gen.KernelIdeal.Launch
import proofs.«119171_j86912958202425_1_alg».proof.Proof.Gen.KernelIdeal.Points
import proofs.«119171_j86912958202425_1_alg».proof.Proof.Gen.KernelIdeal.Frame
import proofs.«119171_j86912958202425_1_alg».proof.Proof.Gen.ReferenceIdeal
import proofs.«119171_j86912958202425_1_alg».proof.Proof.Gen.ReferenceIdeal.Run
import proofs.«119171_j86912958202425_1_alg».proof.Proof.Gen.ReferenceIdeal.Read
import proofs.«119171_j86912958202425_1_alg».proof.Proof.Gen.Pre_finite_inputs
import proofs.«119171_j86912958202425_1_alg».proof.Proof.KernelRun
import proofs.«119171_j86912958202425_1_alg».proof.Proof.Chain
import Idealize.ShloMosaic.Adequacy
import Idealize.ShloMosaic.Init

noncomputable section

namespace Cert.Proof

open Idealize.ShloMosaic Idealize.ShloMosaic.TcCoe Idealize.SL.Sem

namespace EncoderClaims

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs run to the end, and the kernel program's result array —
    the last boundary's contents at the result buffer — is the reference's result: the reference's last stage of the
    arguments, which the walk along the kernel program arrives at. -/
theorem algebraic : Cert.algebraic_KernelIdeal_ReferenceIdeal := by
  intro m ρ m' ρ' _ hagree
  refine ⟨fun c => Cert.KernelIdeal.Gen.W16 m ρ c (Proc.devRef .tc Cert.KernelIdeal.main_v137),
    Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v187_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1,
    (hagree c).2.2.2.2.2.2.2.2.1, (hagree c).2.2.2.2.2.2.2.2.2.1, (hagree c).2.2.2.2.2.2.2.2.2.2.1,
    (hagree c).2.2.2.2.2.2.2.2.2.2.2.1, (hagree c).2.2.2.2.2.2.2.2.2.2.2.2.1, (hagree c).2.2.2.2.2.2.2.2.2.2.2.2.2.1,
    (hagree c).2.2.2.2.2.2.2.2.2.2.2.2.2.2]
  exact (Cert.KernelIdeal.Whole.result_at16 m ρ c).symm

end EncoderClaims

theorem claim : Cert.Claim := ⟨Cert.Kernel.Gen.facts, Cert.KernelIdeal.Gen.facts, Cert.ReferenceIdeal.Gen.facts, Cert.Pre_finite_inputs.Gen.facts,
  EncoderClaims.frame_k, EncoderClaims.frame_ki, EncoderClaims.frame_ri, EncoderClaims.preserves, EncoderClaims.algebraic⟩

end Cert.Proof

end
